-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x2 : Shape := ⟨3, ![8, 2048, 2]⟩
abbrev S128x2 : Shape := ⟨2, ![128, 2]⟩
abbrev S128 : Shape := ⟨1, ![128]⟩
abbrev S3x128x128 : Shape := ⟨3, ![3, 128, 128]⟩
abbrev S3x128 : Shape := ⟨2, ![3, 128]⟩
abbrev S_ : Shape := ⟨0, ![]⟩

class Facts : Prop where
  bcast_S_S8x2048x2 : S_.BroadcastsInDim S8x2048x2 (![] : Fin 0 → Fin S8x2048x2.rank)
  reducesTo_S8x2048x2_S_d0_1_2 : S8x2048x2.ReducesTo [0, 1, 2] S_
  h_S_ : 0 < S_.numel
  bcast_S_S128x2 : S_.BroadcastsInDim S128x2 (![] : Fin 0 → Fin S128x2.rank)
  reducesTo_S128x2_S_d0_1 : S128x2.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part2 {F : FTy → Type} [FloatOps F] (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg4 : FVec F S3x128 .f32) (main_arg5 : FVec F S128 .f32) (main_arg6 : FVec F S128 .f32) (main_arg7 : FVec F S128 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg4
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_v33

def fn {F : FTy → Type} [FloatOps F] (main_arg0 : FVec F S8x2048x2 .f32) (main_arg1 : FVec F S128x2 .f32) (main_arg2 : FVec F S128 .f32) (main_arg3 : FVec F S3x128x128 .f32) (main_arg4 : FVec F S3x128 .f32) (main_arg5 : FVec F S128 .f32) (main_arg6 : FVec F S128 .f32) (main_arg7 : FVec F S128 .f32) : IVec S_ 1 :=
  let main_v0 : FVec F S8x2048x2 .f32 := Host.absf main_arg0
  let main_cst : FVec F S_ .f32 := constant S_ .f32 0x7F800000#32
  let main_v1 : FVec F S8x2048x2 .f32 := broadcastInDim S8x2048x2 ![] bcast_S_S8x2048x2 main_cst
  let main_v2 : IVec S8x2048x2 1 := cmpf .olt main_v0 main_v1
  let main_c : IVec S_ 1 := constantI S_ 1 1#1
  let main_v3 : IVec S_ 1 := (fun x v => Host.reduce IntOp.andi x v reducesTo_S8x2048x2_S_d0_1_2 h_S_) main_v2 main_c
  let main_v4 : FVec F S128x2 .f32 := Host.absf main_arg1
  let main_cst_0 : FVec F S_ .f32 := constant S_ .f32 0x7F800000#32
  let main_v5 : FVec F S128x2 .f32 := broadcastInDim S128x2 ![] bcast_S_S128x2 main_cst_0
  let main_v6 : IVec S128x2 1 := cmpf .olt main_v4 main_v5
  let main_c_1 : IVec S_ 1 := constantI S_ 1 1#1
  let main_v7 : IVec S_ 1 := (fun x v => Host.reduce IntOp.andi x v reducesTo_S128x2_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x128x128 .f32 := Host.absf main_arg3
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg4 main_arg5 main_arg6 main_arg7 main_v13 main_v16
-- ==== Kernel.lean ====
abbrev S8x2048x2 : Shape := ⟨3, ![8, 2048, 2]⟩
abbrev S128x2 : Shape := ⟨2, ![128, 2]⟩
abbrev S128 : Shape := ⟨1, ![128]⟩
abbrev S3x128x128 : Shape := ⟨3, ![3, 128, 128]⟩
abbrev S3x128 : Shape := ⟨2, ![3, 128]⟩
abbrev S8x2048x128 : Shape := ⟨3, ![8, 2048, 128]⟩
abbrev S1x2048x2 : Shape := ⟨3, ![1, 2048, 2]⟩
abbrev S1x2048x128 : Shape := ⟨3, ![1, 2048, 128]⟩
abbrev S2048x2 : Shape := ⟨2, ![2048, 2]⟩
abbrev S2048x1 : Shape := ⟨2, ![2048, 1]⟩
abbrev S1x2048 : Shape := ⟨2, ![1, 2048]⟩
abbrev S1x512 : Shape := ⟨2, ![1, 512]⟩
abbrev S2048x512 : Shape := ⟨2, ![2048, 512]⟩
abbrev S2048 : Shape := ⟨1, ![2048]⟩
abbrev S2048x128 : Shape := ⟨2, ![2048, 128]⟩
abbrev S1x128 : Shape := ⟨2, ![1, 128]⟩
abbrev S1x128x128 : Shape := ⟨3, ![1, 128, 128]⟩
abbrev S128x128 : Shape := ⟨2, ![128, 128]⟩
abbrev S512x128 : Shape := ⟨2, ![512, 128]⟩

abbrev nBuf : Space → Nat
  | .hbm => 9
  | .vmem => 11
  | .smem => 0
  | _ => 0

abbrev bufTy : (tb : Table) → Fin (tcTables nBuf tb) → BufTy
  | .hbm, ⟨0, _⟩ => ⟨S8x2048x2, .f32⟩
  | .hbm, ⟨1, _⟩ => ⟨S128x2, .f32⟩
  | .hbm, ⟨2, _⟩ => ⟨S128, .f32⟩
  | .hbm, ⟨3, _⟩ => ⟨S3x128x128, .f32⟩
  | .hbm, ⟨4, _⟩ => ⟨S3x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S8x2048x128, .f32⟩
  | .local _ .vmem, ⟨0, _⟩ => ⟨S1x2048x2, .f32⟩
  | .local _ .vmem, ⟨1, _⟩ => ⟨S1x2048x2, .f32⟩
  | .local _ .vmem, ⟨2, _⟩ => ⟨S128x2, .f32⟩
  | .local _ .vmem, ⟨3, _⟩ => ⟨S128, .f32⟩
  | .local _ .vmem, ⟨4, _⟩ => ⟨S3x128x128, .f32⟩
  | .local _ .vmem, ⟨5, _⟩ => ⟨S3x128, .f32⟩
  | .local _ .vmem, ⟨6, _⟩ => ⟨S128, .f32⟩
  | .local _ .vmem, ⟨7, _⟩ => ⟨S128, .f32⟩
  | .local _ .vmem, ⟨8, _⟩ => ⟨S128, .f32⟩
  | .local _ .vmem, ⟨9, _⟩ => ⟨S1x2048x128, .f32⟩
  | .local _ .vmem, ⟨10, _⟩ => ⟨S1x2048x128, .f32⟩
  | _, _ => ⟨S8x2048x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  inb_S1x2048x2_S1x2048x2_0_0_0 : ∀ a, (![0, 0, 0] : Fin 3 → Nat) a + S1x2048x2.size a ≤ S1x2048x2.size a
  h_S1x2048x2 : 0 < S1x2048x2.numel
  shapeCasts_S1x2048x2_S2048x2 : S1x2048x2.ShapeCasts S2048x2
  inb_S128x2_S128x2_0_0 : ∀ a, (![0, 0] : Fin 2 → Nat) a + S128x2.size a ≤ S128x2.size a
  h_S128x2 : 0 < S128x2.numel
  inb_S128_S128_0 : ∀ a, (![0] : Fin 1 → Nat) a + S128.size a ≤ S128.size a
  h_S128 : 0 < S128.numel
  inb_S3x128x128_S3x128x128_0_0_0 : ∀ a, (![0, 0, 0] : Fin 3 → Nat) a + S3x128x128.size a ≤ S3x128x128.size a
  h_S3x128x128 : 0 < S3x128x128.numel
  inb_S3x128_S3x128_0_0 : ∀ a, (![0, 0] : Fin 2 → Nat) a + S3x128.size a ≤ S3x128.size a
  h_S3x128 : 0 < S3x128.numel
  slices_S2048x2_o0_0_S2048x1 : S2048x2.Slices ![0, 0] S2048x1
  slices_S2048x2_o0_1_S2048x1 : S2048x2.Slices ![0, 1] S2048x1
  transposes_S2048x1_p1_0_S1x2048 : S2048x1.Transposes [1, 0] S1x2048
  slices_S1x2048_o0_0_S1x512 : S1x2048.Slices ![0, 0] S1x512
  broadcasts_S2048x1_S2048x512 : S2048x1.Broadcasts S2048x512
  broadcasts_S1x512_S2048x512 : S1x512.Broadcasts S2048x512
  reduces_S2048x512_S2048 : S2048x512.Reduces [1] S2048
  shapeCasts_S2048_S2048x1 : S2048.ShapeCasts S2048x1
  slices_S1x2048_o0_512_S1x512 : S1x2048.Slices ![0, 512] S1x512
  slices_S1x2048_o0_1024_S1x512 : S1x2048.Slices ![0, 1024] S1x512
  slices_S1x2048_o0_1536_S1x512 : S1x2048.Slices ![0, 1536] S1x512
  shapeCasts_S128_S1x128 : S128.ShapeCasts S1x128
  broadcasts_S1x128_S2048x128 : S1x128.Broadcasts S2048x128
  slices_S3x128x128_o0_0_0_S1x128x128 : S3x128x128.Slices ![0, 0, 0] S1x128x128
  shapeCasts_S1x128x128_S128x128 : S1x128x128.ShapeCasts S128x128
  slices_S3x128_o0_0_S1x128 : S3x128.Slices ![0, 0] S1x128
  shapeCasts_S1x128_S128 : S1x128.ShapeCasts S128
  broadcasts_S2048x1_S2048x128 : S2048x1.Broadcasts S2048x128
  slices_S2048x128_o0_0_S512x128 : S2048x128.Slices ![0, 0] S512x128
  slices_S2048x128_o512_0_S512x128 : S2048x128.Slices ![512, 0] S512x128
  slices_S2048x128_o1024_0_S512x128 : S2048x128.Slices ![1024, 0] S512x128
  slices_S2048x128_o1536_0_S512x128 : S2048x128.Slices ![1536, 0] S512x128
  reduces_S2048x128_S128 : S2048x128.Reduces [0] S128
  slices_S3x128x128_o1_0_0_S1x128x128 : S3x128x128.Slices ![1, 0, 0] S1x128x128
  slices_S3x128_o1_0_S1x128 : S3x128.Slices ![1, 0] S1x128
  slices_S3x128x128_o2_0_0_S1x128x128 : S3x128x128.Slices ![2, 0, 0] S1x128x128
  slices_S3x128_o2_0_S1x128 : S3x128.Slices ![2, 0] S1x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  shapeCasts_S2048x128_S1x2048x128 : S2048x128.ShapeCasts S1x2048x128
  dot_S2048x2_S128x2_S2048x128_1_1_0_0_n_n_wf : DotDims.WF S2048x2 S128x2 S2048x128 [1] [1] [0] [0] [] []
  dot_S2048x128_S128x128_S2048x128_1_1_0_0_n_n_wf : DotDims.WF S2048x128 S128x128 S2048x128 [1] [1] [0] [0] [] []
  dot_S2048x512_S512x128_S2048x128_1_0_0_1_n_n_wf : DotDims.WF S2048x512 S512x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x2.size a ≤ S8x2048x2.size a
  hwx0_0 : ∀ i : grid0.Coords, EltTy.bits .f32 = 32 ∨ (Rect.block (s := S8x2048x2) S1x2048x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x2.size a ≤ S128x2.size a
  hwx0_1 : ∀ i : grid0.Coords, EltTy.bits .f32 = 32 ∨ (Rect.block (s := S128x2) S128x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x128x128.size a ≤ S3x128x128.size a
  hwx0_3 : ∀ i : grid0.Coords, EltTy.bits .f32 = 32 ∨ (Rect.block (s := S3x128x128) S3x128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x128.size a ≤ S3x128.size a
  hwx0_4 : ∀ i : grid0.Coords, EltTy.bits .f32 = 32 ∨ (Rect.block (s := S3x128) S3x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x2048x128.size a ≤ S8x2048x128.size a
  hwx0_8 : ∀ i : grid0.Coords, EltTy.bits .f32 = 32 ∨ (Rect.block (s := S8x2048x128) S1x2048x128.size (cc0_transform_8 i) (hinb0_8 i)).WholeWords (EltTy.packing .f32)

variable [Facts₀]

def dot_S2048x2_S128x2_S2048x128_1_1_0_0_n_n : DotDims S2048x2 S128x2 S2048x128 where
  lhsContracting := [1]
  rhsContracting := [1]
  lhsNonContracting := [0]
  rhsNonContracting := [0]
  lhsBatch := []
  rhsBatch := []
  wf := dot_S2048x2_S128x2_S2048x128_1_1_0_0_n_n_wf
def dot_S2048x128_S128x128_S2048x128_1_1_0_0_n_n : DotDims S2048x128 S128x128 S2048x128 where
  lhsContracting := [1]
  rhsContracting := [1]
  lhsNonContracting := [0]
  rhsNonContracting := [0]
  lhsBatch := []
  rhsBatch := []
  wf := dot_S2048x128_S128x128_S2048x128_1_1_0_0_n_n_wf
def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf

abbrev win0_0 : Pipeline.Window sig grid0 :=
  Pipeline.Window.ofSpec (Memref.whole main_arg0) S1x2048x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S3x128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S3x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0) S1x2048x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8x2048x2 : Shape := ⟨3, ![8, 2048, 2]⟩
abbrev S128x2 : Shape := ⟨2, ![128, 2]⟩
abbrev S128 : Shape := ⟨1, ![128]⟩
abbrev S3x128x128 : Shape := ⟨3, ![3, 128, 128]⟩
abbrev S3x128 : Shape := ⟨2, ![3, 128]⟩
abbrev S_ : Shape := ⟨0, ![]⟩
abbrev S8x2048 : Shape := ⟨2, ![8, 2048]⟩
abbrev S8x2048x1 : Shape := ⟨3, ![8, 2048, 1]⟩
abbrev S8x1x2048 : Shape := ⟨3, ![8, 1, 2048]⟩
abbrev S8x2048x2048 : Shape := ⟨3, ![8, 2048, 2048]⟩
abbrev S2048x2048 : Shape := ⟨2, ![2048, 2048]⟩
abbrev S1x2048x2048 : Shape := ⟨3, ![1, 2048, 2048]⟩
abbrev S8x2048x128 : Shape := ⟨3, ![8, 2048, 128]⟩
abbrev S1x1x128 : Shape := ⟨3, ![1, 1, 128]⟩
abbrev S1x128x128 : Shape := ⟨3, ![1, 128, 128]⟩
abbrev S128x128 : Shape := ⟨2, ![128, 128]⟩
abbrev S1x128 : Shape := ⟨2, ![1, 128]⟩
abbrev S8x128 : Shape := ⟨2, ![8, 128]⟩
abbrev S8x1x128 : Shape := ⟨3, ![8, 1, 128]⟩

abbrev nBuf : Space → Nat
  | .hbm => 179
  | .vmem => 0
  | .smem => 0
  | _ => 0

abbrev hbmTy0_0 (i : Nat) : BufTy := match i % 128 with
  | 0 => ⟨S8x2048x2, .f32⟩
  | 1 => ⟨S128x2, .f32⟩
  | 2 => ⟨S128, .f32⟩
  | 3 => ⟨S3x128x128, .f32⟩
  | 4 => ⟨S3x128, .f32⟩
  | 5 => ⟨S128, .f32⟩
  | 6 => ⟨S128, .f32⟩
  | 7 => ⟨S128, .f32⟩
  | 8 => ⟨S8x2048x2, .f32⟩
  | 9 => ⟨S_, .f32⟩
  | 10 => ⟨S8x2048, .f32⟩
  | 11 => ⟨S8x2048x1, .f32⟩
  | 12 => ⟨S8x1x2048, .f32⟩
  | 13 => ⟨S8x2048x2048, .f32⟩
  | 14 => ⟨S8x2048x2048, .f32⟩
  | 15 => ⟨S8x2048x2048, .f32⟩
  | 16 => ⟨S8x2048x2048, .f32⟩
  | 17 => ⟨S_, .f32⟩
  | 18 => ⟨S8x2048x2048, .f32⟩
  | 19 => ⟨S8x2048x2048, .f32⟩
  | 20 => ⟨S8x2048x2048, .f32⟩
  | 21 => ⟨S_, .f32⟩
  | 22 => ⟨S8x2048x2048, .f32⟩
  | 23 => ⟨S8x2048x2048, .i1⟩
  | 24 => ⟨S_, .f32⟩
  | 25 => ⟨S_, .f32⟩
  | 26 => ⟨S8x2048x2048, .f32⟩
  | 27 => ⟨S8x2048x2048, .f32⟩
  | 28 => ⟨S8x2048x2048, .f32⟩
  | 29 => ⟨S_, .f32⟩
  | 30 => ⟨S_, .f32⟩
  | 31 => ⟨S8x2048x2048, .f32⟩
  | 32 => ⟨S8x2048x2048, .f32⟩
  | 33 => ⟨S2048x2048, .i32⟩
  | 34 => ⟨S2048x2048, .i32⟩
  | 35 => ⟨S_, .i32⟩
  | 36 => ⟨S2048x2048, .i32⟩
  | 37 => ⟨S2048x2048, .i32⟩
  | 38 => ⟨S2048x2048, .i1⟩
  | 39 => ⟨S2048x2048, .f32⟩
  | 40 => ⟨S1x2048x2048, .f32⟩
  | 41 => ⟨S8x2048x2048, .f32⟩
  | 42 => ⟨S8x2048x2048, .f32⟩
  | 43 => ⟨S_, .f32⟩
  | 44 => ⟨S8x2048, .f32⟩
  | 45 => ⟨S8x2048, .f32⟩
  | 46 => ⟨S8x2048x1, .f32⟩
  | 47 => ⟨S8x2048x2048, .f32⟩
  | 48 => ⟨S8x2048x2048, .f32⟩
  | 49 => ⟨S8x1x2048, .f32⟩
  | 50 => ⟨S8x2048x2048, .f32⟩
  | 51 => ⟨S8x2048x2048, .f32⟩
  | 52 => ⟨S8x2048x128, .f32⟩
  | 53 => ⟨S1x1x128, .f32⟩
  | 54 => ⟨S8x2048x128, .f32⟩
  | 55 => ⟨S8x2048x128, .f32⟩
  | 56 => ⟨S1x128x128, .f32⟩
  | 57 => ⟨S128x128, .f32⟩
  | 58 => ⟨S8x2048x128, .f32⟩
  | 59 => ⟨S8x2048x128, .f32⟩
  | 60 => ⟨S1x128, .f32⟩
  | 61 => ⟨S128, .f32⟩
  | 62 => ⟨S1x1x128, .f32⟩
  | 63 => ⟨S8x2048x128, .f32⟩
  | 64 => ⟨S8x2048x128, .f32⟩
  | 65 => ⟨S8x2048x128, .f32⟩
  | 66 => ⟨S8x2048x128, .f32⟩
  | 67 => ⟨S_, .f32⟩
  | 68 => ⟨S8x128, .f32⟩
  | 69 => ⟨S8x1x128, .f32⟩
  | 70 => ⟨S_, .f32⟩
  | 71 => ⟨S8x1x128, .f32⟩
  | 72 => ⟨S8x1x128, .f32⟩
  | 73 => ⟨S1x1x128, .f32⟩
  | 74 => ⟨S8x1x128, .f32⟩
  | 75 => ⟨S8x1x128, .f32⟩
  | 76 => ⟨S8x2048x128, .f32⟩
  | 77 => ⟨S8x2048x128, .f32⟩
  | 78 => ⟨S8x2048x128, .f32⟩
  | 79 => ⟨S_, .f32⟩
  | 80 => ⟨S8x128, .f32⟩
  | 81 => ⟨S8x1x128, .f32⟩
  | 82 => ⟨S_, .f32⟩
  | 83 => ⟨S8x1x128, .f32⟩
  | 84 => ⟨S8x1x128, .f32⟩
  | 85 => ⟨S1x1x128, .f32⟩
  | 86 => ⟨S8x2048x128, .f32⟩
  | 87 => ⟨S8x2048x128, .f32⟩
  | 88 => ⟨S_, .f32⟩
  | 89 => ⟨S8x1x128, .f32⟩
  | 90 => ⟨S8x1x128, .f32⟩
  | 91 => ⟨S8x1x128, .f32⟩
  | 92 => ⟨S8x2048x128, .f32⟩
  | 93 => ⟨S8x2048x128, .f32⟩
  | 94 => ⟨S1x1x128, .f32⟩
  | 95 => ⟨S8x2048x128, .f32⟩
  | 96 => ⟨S8x2048x128, .f32⟩
  | 97 => ⟨S1x128x128, .f32⟩
  | 98 => ⟨S128x128, .f32⟩
  | 99 => ⟨S8x2048x128, .f32⟩
  | 100 => ⟨S8x2048x128, .f32⟩
  | 101 => ⟨S1x128, .f32⟩
  | 102 => ⟨S128, .f32⟩
  | 103 => ⟨S1x1x128, .f32⟩
  | 104 => ⟨S8x2048x128, .f32⟩
  | 105 => ⟨S8x2048x128, .f32⟩
  | 106 => ⟨S8x2048x128, .f32⟩
  | 107 => ⟨S8x2048x128, .f32⟩
  | 108 => ⟨S_, .f32⟩
  | 109 => ⟨S8x128, .f32⟩
  | 110 => ⟨S8x1x128, .f32⟩
  | 111 => ⟨S_, .f32⟩
  | 112 => ⟨S8x1x128, .f32⟩
  | 113 => ⟨S8x1x128, .f32⟩
  | 114 => ⟨S1x1x128, .f32⟩
  | 115 => ⟨S8x1x128, .f32⟩
  | 116 => ⟨S8x1x128, .f32⟩
  | 117 => ⟨S8x2048x128, .f32⟩
  | 118 => ⟨S8x2048x128, .f32⟩
  | 119 => ⟨S8x2048x128, .f32⟩
  | 120 => ⟨S_, .f32⟩
  | 121 => ⟨S8x128, .f32⟩
  | 122 => ⟨S8x1x128, .f32⟩
  | 123 => ⟨S_, .f32⟩
  | 124 => ⟨S8x1x128, .f32⟩
  | 125 => ⟨S8x1x128, .f32⟩
  | 126 => ⟨S1x1x128, .f32⟩
  | 127 => ⟨S8x2048x128, .f32⟩
  | _ => ⟨S8x2048x2, .f32⟩

abbrev hbmTy0_1 (i : Nat) : BufTy := match i % 128 with
  | 0 => ⟨S8x2048x128, .f32⟩
  | 1 => ⟨S_, .f32⟩
  | 2 => ⟨S8x1x128, .f32⟩
  | 3 => ⟨S8x1x128, .f32⟩
  | 4 => ⟨S8x1x128, .f32⟩
  | 5 => ⟨S8x2048x128, .f32⟩
  | 6 => ⟨S8x2048x128, .f32⟩
  | 7 => ⟨S1x1x128, .f32⟩
  | 8 => ⟨S8x2048x128, .f32⟩
  | 9 => ⟨S8x2048x128, .f32⟩
  | 10 => ⟨S1x128x128, .f32⟩
  | 11 => ⟨S128x128, .f32⟩
  | 12 => ⟨S8x2048x128, .f32⟩
  | 13 => ⟨S8x2048x128, .f32⟩
  | 14 => ⟨S1x128, .f32⟩
  | 15 => ⟨S128, .f32⟩
  | 16 => ⟨S1x1x128, .f32⟩
  | 17 => ⟨S8x2048x128, .f32⟩
  | 18 => ⟨S8x2048x128, .f32⟩
  | 19 => ⟨S8x2048x128, .f32⟩
  | 20 => ⟨S8x2048x128, .f32⟩
  | 21 => ⟨S_, .f32⟩
  | 22 => ⟨S8x128, .f32⟩
  | 23 => ⟨S8x1x128, .f32⟩
  | 24 => ⟨S_, .f32⟩
  | 25 => ⟨S8x1x128, .f32⟩
  | 26 => ⟨S8x1x128, .f32⟩
  | 27 => ⟨S1x1x128, .f32⟩
  | 28 => ⟨S8x1x128, .f32⟩
  | 29 => ⟨S8x1x128, .f32⟩
  | 30 => ⟨S8x2048x128, .f32⟩
  | 31 => ⟨S8x2048x128, .f32⟩
  | 32 => ⟨S8x2048x128, .f32⟩
  | 33 => ⟨S_, .f32⟩
  | 34 => ⟨S8x128, .f32⟩
  | 35 => ⟨S8x1x128, .f32⟩
  | 36 => ⟨S_, .f32⟩
  | 37 => ⟨S8x1x128, .f32⟩
  | 38 => ⟨S8x1x128, .f32⟩
  | 39 => ⟨S1x1x128, .f32⟩
  | 40 => ⟨S8x2048x128, .f32⟩
  | 41 => ⟨S8x2048x128, .f32⟩
  | 42 => ⟨S_, .f32⟩
  | 43 => ⟨S8x1x128, .f32⟩
  | 44 => ⟨S8x1x128, .f32⟩
  | 45 => ⟨S8x1x128, .f32⟩
  | 46 => ⟨S8x2048x128, .f32⟩
  | 47 => ⟨S8x2048x128, .f32⟩
  | 48 => ⟨S1x1x128, .f32⟩
  | 49 => ⟨S8x2048x128, .f32⟩
  | 50 => ⟨S8x2048x128, .f32⟩
  | _ => ⟨S8x2048x2, .f32⟩

abbrev hbmTy (i : Nat) : BufTy := match i / 128 with
  | 0 => hbmTy0_0 i
  | 1 => hbmTy0_1 i
  | _ => ⟨S8x2048x2, .f32⟩

abbrev bufTy : (tb : Table) → Fin (tcTables nBuf tb) → BufTy
  | .hbm, ⟨i, _⟩ => hbmTy i
  | _, _ => ⟨S8x2048x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_call1_v0 : Ref sig .tc := ⟨.hbm, 30, rfl⟩
abbrev main_call1_v1 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_5 : Ref sig .tc := ⟨.hbm, 67, rfl⟩
abbrev main_v48 : Ref sig .tc := ⟨.hbm, 68, rfl⟩
abbrev main_v49 : Ref sig .tc := ⟨.hbm, 69, rfl⟩
abbrev main_cst_6 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_7 : Ref sig .tc := ⟨.hbm, 79, rfl⟩
abbrev main_v58 : Ref sig .tc := ⟨.hbm, 80, rfl⟩
abbrev main_v59 : Ref sig .tc := ⟨.hbm, 81, rfl⟩
abbrev main_cst_8 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_9 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_cst_10 : Ref sig .tc := ⟨.hbm, 108, rfl⟩
abbrev main_v84 : Ref sig .tc := ⟨.hbm, 109, rfl⟩
abbrev main_v85 : Ref sig .tc := ⟨.hbm, 110, rfl⟩
abbrev main_cst_11 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_cst_12 : Ref sig .tc := ⟨.hbm, 120, rfl⟩
abbrev main_v94 : Ref sig .tc := ⟨.hbm, 121, rfl⟩
abbrev main_v95 : Ref sig .tc := ⟨.hbm, 122, rfl⟩
abbrev main_cst_13 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_cst_14 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_cst_15 : Ref sig .tc := ⟨.hbm, 149, rfl⟩
abbrev main_v120 : Ref sig .tc := ⟨.hbm, 150, rfl⟩
abbrev main_v121 : Ref sig .tc := ⟨.hbm, 151, rfl⟩
abbrev main_cst_16 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_cst_17 : Ref sig .tc := ⟨.hbm, 161, rfl⟩
abbrev main_v130 : Ref sig .tc := ⟨.hbm, 162, rfl⟩
abbrev main_v131 : Ref sig .tc := ⟨.hbm, 163, rfl⟩
abbrev main_cst_18 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_cst_19 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩

abbrev nD : Nat := 1
abbrev τ : Topo := Topo.v7x

variable {F : FTy → Type} [FloatOps F]

class Facts₀ : Prop where
  reducesTo_S8x2048x2_S8x2048_d2 : S8x2048x2.ReducesTo [2] S8x2048
  h_S_ : 0 < S_.numel
  bcast_S8x2048_S8x2048x1_0_1 : S8x2048.BroadcastsInDim S8x2048x1 (![0, 1] : Fin 2 → Fin S8x2048x1.rank)
  bcast_S8x2048_S8x1x2048_0_2 : S8x2048.BroadcastsInDim S8x1x2048 (![0, 2] : Fin 2 → Fin S8x1x2048.rank)
  bcast_S8x2048x1_S8x2048x2048_0_1_2 : S8x2048x1.BroadcastsInDim S8x2048x2048 (![0, 1, 2] : Fin 3 → Fin S8x2048x2048.rank)
  bcast_S8x1x2048_S8x2048x2048_0_1_2 : S8x1x2048.BroadcastsInDim S8x2048x2048 (![0, 1, 2] : Fin 3 → Fin S8x2048x2048.rank)
  bcast_S_S8x2048x2048 : S_.BroadcastsInDim S8x2048x2048 (![] : Fin 0 → Fin S8x2048x2048.rank)
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S1x2048x2048_S8x2048x2048_0_1_2 : S1x2048x2048.BroadcastsInDim S8x2048x2048 (![0, 1, 2] : Fin 3 → Fin S8x2048x2048.rank)
  reducesTo_S8x2048x2048_S8x2048_d2 : S8x2048x2048.ReducesTo [2] S8x2048
  bcast_S128_S1x1x128_2 : S128.BroadcastsInDim S1x1x128 (![2] : Fin 1 → Fin S1x1x128.rank)
  bcast_S1x1x128_S8x2048x128_0_1_2 : S1x1x128.BroadcastsInDim S8x2048x128 (![0, 1, 2] : Fin 3 → Fin S8x2048x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  reducesTo_S8x2048x128_S8x128_d1 : S8x2048x128.ReducesTo [1] S8x128
  bcast_S8x128_S8x1x128_0_2 : S8x128.BroadcastsInDim S8x1x128 (![0, 2] : Fin 2 → Fin S8x1x128.rank)
  bcast_S_S8x1x128 : S_.BroadcastsInDim S8x1x128 (![] : Fin 0 → Fin S8x1x128.rank)
  bcast_S1x1x128_S8x1x128_0_1_2 : S1x1x128.BroadcastsInDim S8x1x128 (![0, 1, 2] : Fin 3 → Fin S8x1x128.rank)
  bcast_S8x1x128_S8x2048x128_0_1_2 : S8x1x128.BroadcastsInDim S8x2048x128 (![0, 1, 2] : Fin 3 → Fin S8x2048x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  dot_S8x2048x2_S8x2048x2_S8x2048x2048_2_2_1_1_0_0_wf : DotDims.WF S8x2048x2 S8x2048x2 S8x2048x2048 [2] [2] [1] [1] [0] [0]
  dot_S8x2048x2_S128x2_S8x2048x128_2_1_01_0_n_n_wf : DotDims.WF S8x2048x2 S128x2 S8x2048x128 [2] [1] [0, 1] [0] [] []
  dot_S8x2048x128_S128x128_S8x2048x128_2_1_01_0_n_n_wf : DotDims.WF S8x2048x128 S128x128 S8x2048x128 [2] [1] [0, 1] [0] [] []
  dot_S8x2048x2048_S8x2048x128_S8x2048x128_2_1_1_2_0_0_wf : DotDims.WF S8x2048x2048 S8x2048x128 S8x2048x128 [2] [1] [1] [2] [0] [0]

variable [Facts₀]

def dot_S8x2048x2_S8x2048x2_S8x2048x2048_2_2_1_1_0_0 : DotDims S8x2048x2 S8x2048x2 S8x2048x2048 where
  lhsContracting := [2]
  rhsContracting := [2]
  lhsNonContracting := [1]
  rhsNonContracting := [1]
  lhsBatch := [0]
  rhsBatch := [0]
  wf := dot_S8x2048x2_S8x2048x2_S8x2048x2048_2_2_1_1_0_0_wf
def dot_S8x2048x2_S128x2_S8x2048x128_2_1_01_0_n_n : DotDims S8x2048x2 S128x2 S8x2048x128 where
  lhsContracting := [2]
  rhsContracting := [1]
  lhsNonContracting := [0, 1]
  rhsNonContracting := [0]
  lhsBatch := []
  rhsBatch := []
  wf := dot_S8x2048x2_S128x2_S8x2048x128_2_1_01_0_n_n_wf
def dot_S8x2048x128_S128x128_S8x2048x128_2_1_01_0_n_n : DotDims S8x2048x128 S128x128 S8x2048x128 where
  lhsContracting := [2]
  rhsContracting := [1]
  lhsNonContracting := [0, 1]
  rhsNonContracting := [0]
  lhsBatch := []
  rhsBatch := []
  wf := dot_S8x2048x128_S128x128_S8x2048x128_2_1_01_0_n_n_wf
def dot_S8x2048x2048_S8x2048x128_S8x2048x128_2_1_1_2_0_0 : DotDims S8x2048x2048 S8x2048x128 S8x2048x128 where
  lhsContracting := [2]
  rhsContracting := [1]
  lhsNonContracting := [1]
  rhsNonContracting := [2]
  lhsBatch := [0]
  rhsBatch := [0]
  wf := dot_S8x2048x2048_S8x2048x128_S8x2048x128_2_1_1_2_0_0_wf

class Facts : Prop extends Facts₀ where

variable [Facts]
-- ==== Proof.Spec.lean ====
/-
  The graph network both programs compute, for ONE graph (one batch entry), as functions of plain coordinates over the
  extended reals.

  The nodes are 2048 points of the plane, X n 0 and X n 1 the coordinates of node n. The edge weight between two nodes is
  their Euclidean distance, taken as the square root of  |x_n|² + |x_m|² − 2·⟨x_n, x_m⟩  where that number is positive
  and as 0 elsewhere. Every node also has a self-loop of weight 1. With deg the row sums of these weights and
  dinv = deg^(−1/2), one layer sends the node features h (2048 × 128) to

      post( dinv_n · Σ_m (dist(n,m) + [n = m]) · dinv_m · (h·Wᵀ)(m, ·) )

  where post adds the layer's bias, applies tanh, adds h back, and normalises each of the 128 feature columns over the
  2048 nodes (subtract gna · mean, divide by the root of the mean square of what is left plus a small constant, scale by
  gnw, shift by gnb). Three layers follow the input projection h0 = X·Wnᵀ + bn.

  Two arrangements of the same numbers are written down: the blocked one sums over the nodes in four blocks of 512,
  keeps the self-loop apart as dinv_n² · (h·Wᵀ)(n, ·) and applies dinv_m to the features before the sum and dinv_n after
  it; the dense one sums (dinv_n · (dist + [n = m])) · dinv_m · (h·Wᵀ)(m, ·) over all 2048 nodes at once.
  On real (finite) data the two agree: that is the distributive law, and it is the only place finiteness is needed.
-/
import Idealize.ShloMosaic.PureOps.Ideal
import Idealize.ShloMosaic.PureOps.Ideal.Laws
import Idealize.ShloMosaic.Lib.ValueIdx

noncomputable section

namespace Cert.Gnn

open Idealize.ShloMosaic Idealize.ShloMosaic.ValueIdx
open scoped BigOperators

/-- The values of the five float words the programs use: 0, 1, 2, 2048 and the small constant under the root. -/
abbrev wZero : EReal := Ideal.ofBits .f32 0x00000000#32
abbrev wOne : EReal := Ideal.ofBits .f32 0x3F800000#32
abbrev wTwo : EReal := Ideal.ofBits .f32 0x40000000#32
abbrev wRows : EReal := Ideal.ofBits .f32 0x45000000#32
abbrev wEps : EReal := Ideal.ofBits .f32 0x3727C5AC#32

/-- Node k of block j, the blocks being 512 consecutive nodes each. -/
def blk (j : Fin 4) (k : Fin 512) : Fin 2048 := ⟨512 * j.val + k.val, by omega⟩

/-! ## Distances and degrees -/

section dist
variable (X : Fin 2048 → Fin 2 → EReal)

/-- The squared length of node n. -/
def sqn (n : Fin 2048) : EReal := X n 0 * X n 0 + X n 1 * X n 1

/-- |x_n|² + |x_m|² − 2⟨x_n, x_m⟩. -/
def d2 (n m : Fin 2048) : EReal := (sqn X n + sqn X m) - wTwo * (X n 0 * X m 0 + X n 1 * X m 1)

/-- The guarded root: the root of d where d is positive (the inner guard feeds the root a 1 elsewhere), 0 elsewhere. -/
def distE (d : EReal) : EReal :=
  Scalar.select (Ideal.cmp .ogt d wZero) (Ideal.sqrt (Scalar.select (Ideal.cmp .ogt d wZero) d wOne)) wZero

/-- The edge weight between nodes n and m. -/
def dist (n m : Fin 2048) : EReal := distE (d2 X n m)

/-- The self-loop weights: 1 on the diagonal. -/
def eye (n m : Fin 2048) : EReal := if n = m then 1 else 0

/-- The degree of node n, blocked: the four blocks' sums added one after the other, then the self-loop's 1. -/
def degK (n : Fin 2048) : EReal :=
  ((((∑ k : Fin 512, dist X n (blk 0 k)) + ∑ k : Fin 512, dist X n (blk 1 k)) + ∑ k : Fin 512, dist X n (blk 2 k))
    + ∑ k : Fin 512, dist X n (blk 3 k)) + wOne

/-- The degree of node n, dense: the row sum of distance plus self-loop. -/
def degR (n : Fin 2048) : EReal := ∑ m : Fin 2048, (dist X n m + eye n m)

def dinvK (n : Fin 2048) : EReal := Ideal.rsqrt (degK X n)
def dinvR (n : Fin 2048) : EReal := Ideal.rsqrt (degR X n)

/-- The input projection X·Wnᵀ + bn. -/
def h0 (Wn : Fin 128 → Fin 2 → EReal) (bn : Fin 128 → EReal) (n : Fin 2048) (e : Fin 128) : EReal :=
  (∑ k : Fin 2, X n k * Wn e k) + bn e

end dist

/-! ## One layer -/

/-- h·Wᵀ. -/
def lin (W : Fin 128 → Fin 128 → EReal) (h : Fin 2048 → Fin 128 → EReal) (n : Fin 2048) (e : Fin 128) : EReal :=
  ∑ k : Fin 128, h n k * W e k

/-- Block j's share of the aggregation at (n, e): Σ_k D(n, k) · (g(k, e) · dv(k)) over the block's nodes k. -/
def aggBlk (D : Fin 2048 → Fin 2048 → EReal) (dv : Fin 2048 → EReal) (g : Fin 2048 → Fin 128 → EReal)
    (j : Fin 4) (n : Fin 2048) (e : Fin 128) : EReal :=
  ∑ k : Fin 512, D n (blk j k) * (g (blk j k) e * dv (blk j k))

/-- The aggregation, blocked, the self-loop kept apart. -/
def aggK (D : Fin 2048 → Fin 2048 → EReal) (dv : Fin 2048 → EReal) (g : Fin 2048 → Fin 128 → EReal)
    (n : Fin 2048) (e : Fin 128) : EReal :=
  dv n * (((aggBlk D dv g 0 n e + aggBlk D dv g 1 n e) + aggBlk D dv g 2 n e) + aggBlk D dv g 3 n e)
    + (dv n * dv n) * g n e

/-- The aggregation, dense, against the normalised adjacency (dv_n · (D + eye)) · dv_m. -/
def aggR (D : Fin 2048 → Fin 2048 → EReal) (dv : Fin 2048 → EReal) (g : Fin 2048 → Fin 128 → EReal)
    (n : Fin 2048) (e : Fin 128) : EReal :=
  ∑ m : Fin 2048, ((dv n * (D n m + eye n m)) * dv m) * g m e

section post
variable (bgl gnw gnb gna : Fin 128 → EReal) (agg h : Fin 2048 → Fin 128 → EReal)

/-- Bias, tanh, residual. -/
def act (n : Fin 2048) (e : Fin 128) : EReal := Ideal.tanh (agg n e + bgl e) + h n e

/-- The column mean of the activations. -/
def colMean (e : Fin 128) : EReal := Ideal.div (∑ n : Fin 2048, act bgl agg h n e) wRows

/-- The activations less gna · mean. -/
def centred (n : Fin 2048) (e : Fin 128) : EReal := act bgl agg h n e - gna e * colMean bgl agg h e

/-- The column mean of the squares of what is left. -/
def colVar (e : Fin 128) : EReal :=
  Ideal.div (∑ n : Fin 2048, centred bgl gna agg h n e * centred bgl gna agg h n e) wRows

/-- The layer's output from its aggregation and its input. -/
def post (n : Fin 2048) (e : Fin 128) : EReal :=
  (gnw e * centred bgl gna agg h n e) * Ideal.rsqrt (colVar bgl gna agg h e + wEps) + gnb e

end post

def layerK (D : Fin 2048 → Fin 2048 → EReal) (dv : Fin 2048 → EReal) (W : Fin 128 → Fin 128 → EReal)
    (bgl gnw gnb gna : Fin 128 → EReal) (h : Fin 2048 → Fin 128 → EReal) : Fin 2048 → Fin 128 → EReal :=
  post bgl gnw gnb gna (aggK D dv (lin W h)) h

def layerR (D : Fin 2048 → Fin 2048 → EReal) (dv : Fin 2048 → EReal) (W : Fin 128 → Fin 128 → EReal)
    (bgl gnw gnb gna : Fin 128 → EReal) (h : Fin 2048 → Fin 128 → EReal) : Fin 2048 → Fin 128 → EReal :=
  post bgl gnw gnb gna (aggR D dv (lin W h)) h

/-! ## The network -/

section net
variable (X : Fin 2048 → Fin 2 → EReal) (Wn : Fin 128 → Fin 2 → EReal) (bn : Fin 128 → EReal)
  (Wg : Fin 3 → Fin 128 → Fin 128 → EReal) (bg : Fin 3 → Fin 128 → EReal) (gnw gnb gna : Fin 128 → EReal)

def outK : Fin 2048 → Fin 128 → EReal :=
  layerK (dist X) (dinvK X) (Wg 2) (bg 2) gnw gnb gna
    (layerK (dist X) (dinvK X) (Wg 1) (bg 1) gnw gnb gna
      (layerK (dist X) (dinvK X) (Wg 0) (bg 0) gnw gnb gna (h0 X Wn bn)))

def outR : Fin 2048 → Fin 128 → EReal :=
  layerR (dist X) (dinvR X) (Wg 2) (bg 2) gnw gnb gna
    (layerR (dist X) (dinvR X) (Wg 1) (bg 1) gnw gnb gna
      (layerR (dist X) (dinvR X) (Wg 0) (bg 0) gnw gnb gna (h0 X Wn bn)))

end net

/-! ## The arrays -/

section arrays
variable (a0 : (⟨3, ![8, 2048, 2]⟩ : Shape).Idx → EReal) (a1 : (⟨2, ![128, 2]⟩ : Shape).Idx → EReal)
  (a2 : (⟨1, ![128]⟩ : Shape).Idx → EReal) (a3 : (⟨3, ![3, 128, 128]⟩ : Shape).Idx → EReal)
  (a4 : (⟨2, ![3, 128]⟩ : Shape).Idx → EReal) (a5 a6 a7 : (⟨1, ![128]⟩ : Shape).Idx → EReal)

/-- Graph b's coordinates out of the batched input. -/
def graphOf (b : Fin 8) : Fin 2048 → Fin 2 → EReal := fun n k => a0 (ix3 b n k)
def mat2 : Fin 128 → Fin 2 → EReal := fun e k => a1 (ix2 e k)
def vec1 (v : (⟨1, ![128]⟩ : Shape).Idx → EReal) : Fin 128 → EReal := fun e => v (ix1 e)
def mat3 : Fin 3 → Fin 128 → Fin 128 → EReal := fun l e k => a3 (ix3 l e k)
def rows3 : Fin 3 → Fin 128 → EReal := fun l e => a4 (ix2 l e)

/-- The whole result array, blocked arrangement: graph by graph. -/
def GK : (⟨3, ![8, 2048, 128]⟩ : Shape).Idx → EReal := fun i =>
  outK (graphOf a0 ⟨(i 0).val, (i 0).isLt⟩) (mat2 a1) (vec1 a2) (mat3 a3) (rows3 a4) (vec1 a5) (vec1 a6) (vec1 a7)
    ⟨(i 1).val, (i 1).isLt⟩ ⟨(i 2).val, (i 2).isLt⟩

/-- The whole result array, dense arrangement. -/
def GR : (⟨3, ![8, 2048, 128]⟩ : Shape).Idx → EReal := fun i =>
  outR (graphOf a0 ⟨(i 0).val, (i 0).isLt⟩) (mat2 a1) (vec1 a2) (mat3 a3) (rows3 a4) (vec1 a5) (vec1 a6) (vec1 a7)
    ⟨(i 1).val, (i 1).isLt⟩ ⟨(i 2).val, (i 2).isLt⟩

end arrays

end Cert.Gnn

end
-- ==== Proof.LibRealEntries.lean ====
import Idealize.ShloMosaic.PureOps.Ideal
import Idealize.ShloMosaic.PureOps.Ideal.Laws
import Idealize.ShloMosaic.PureOps.Contract
import Idealize.ShloMosaic.PureOps.ShapeOps
import Idealize.ShloMosaic.PureOps.Vector
import Mathlib.Tactic

/-!
# Real entries are preserved by the host operations

An extended real is *real* when it is the coercion of a real number, that is, neither `⊤` nor
`⊥`. This file shows that the arithmetic of the extended reals keeps real values real (sums,
differences, products, finite sums, quotients by a nonzero real, reciprocal square roots of a
positive real), and lifts this, entry by entry, to vectors: each host operation whose result
entries are entries of its operands (re-indexings: gather, broadcast, reshape, concatenation,
slicing, selection), or sums and products of them (scatter-add, reduction, contraction,
entrywise arithmetic), sends vectors with real entries to a vector with real entries.
-/

noncomputable section

namespace Cert.Lib.RealEntries

open Idealize.ShloMosaic
open scoped BigOperators

/-- An extended real is real: the coercion of a real number. -/
def IsR (x : EReal) : Prop := ∃ r : ℝ, x = (r : EReal)

/-- Every entry of a vector of extended reals is real. -/
def AllR {S : Shape} (v : S.Idx → EReal) : Prop := ∀ i, IsR (v i)

/-! ### Scalars -/

theorem isR_coe (r : ℝ) : IsR (r : EReal) := ⟨r, rfl⟩

theorem isR_zero : IsR 0 := ⟨0, EReal.coe_zero.symm⟩

theorem isR_one : IsR 1 := ⟨1, EReal.coe_one.symm⟩

/-- A real value is neither infinity. -/
theorem IsR.ne_top {x : EReal} (hx : IsR x) : x ≠ ⊤ := by
  obtain ⟨a, rfl⟩ := hx; exact EReal.coe_ne_top a

theorem IsR.ne_bot {x : EReal} (hx : IsR x) : x ≠ ⊥ := by
  obtain ⟨a, rfl⟩ := hx; exact EReal.coe_ne_bot a

/-- An extended real that is neither infinity is real. -/
theorem isR_of_ne {x : EReal} (ht : x ≠ ⊤) (hb : x ≠ ⊥) : IsR x :=
  ⟨x.toReal, (EReal.coe_toReal ht hb).symm⟩

theorem IsR.add {x y : EReal} (hx : IsR x) (hy : IsR y) : IsR (x + y) := by
  obtain ⟨a, rfl⟩ := hx; obtain ⟨b, rfl⟩ := hy; exact ⟨a + b, (EReal.coe_add a b).symm⟩

theorem IsR.sub {x y : EReal} (hx : IsR x) (hy : IsR y) : IsR (x - y) := by
  obtain ⟨a, rfl⟩ := hx; obtain ⟨b, rfl⟩ := hy; exact ⟨a - b, (EReal.coe_sub a b).symm⟩

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.neg {x : EReal} (hx : IsR x) : IsR (-x) := by
  obtain ⟨a, rfl⟩ := hx; exact ⟨-a, (EReal.coe_neg a).symm⟩

/-- A finite sum of real values is real. -/
theorem isR_sum {ι : Type*} (s : Finset ι) (f : ι → EReal) (h : ∀ i ∈ s, IsR (f i)) :
    IsR (∑ i ∈ s, f i) := by
  classical
  induction s using Finset.induction_on with
  | empty => rw [Finset.sum_empty]; exact isR_zero
  | insert a s ha ih =>
    rw [Finset.sum_insert ha]
    exact (h a (Finset.mem_insert_self a s)).add (ih (fun i hi => h i (Finset.mem_insert_of_mem hi)))

/-- A real value divided by a nonzero real number is real. -/
theorem isR_div {x : EReal} (hx : IsR x) {y : ℝ} (hy : y ≠ 0) : IsR (Ideal.div x (y : EReal)) := by
  rw [Ideal.div_coe hy]; exact hx.mul (isR_coe _)

/-- The reciprocal square root of a positive real number is real. -/
theorem isR_rsqrt {r : ℝ} (hr : 0 < r) : IsR (Ideal.rsqrt (r : EReal)) := by
  rw [Ideal.rsqrt_coe, if_neg (not_lt.2 hr.le), if_neg hr.ne']; exact isR_coe _

/-- A choice between two real values is real. -/
theorem isR_ite {c : Prop} [Decidable c] {x y : EReal} (hx : IsR x) (hy : IsR y) :
    IsR (if c then x else y) := by
  split
  · exact hx
  · exact hy

/-! ### Words -/

/-- The single-precision word `0x47C35000` denotes `100000 = (2²³ + 4411392) · 2⁻⁷`. -/
theorem ofBits_47C35000 : Ideal.ofBits .f32 0x47C35000#32 = ((100000 : ℝ) : EReal) := by
  simp [Ideal.ofBits, Ideal.ieee]
  rw [← EReal.coe_mul]
  norm_num

/-- The single-precision word `0x3F800000` denotes `1 = 2²³ · 2⁻²³`. -/
theorem ofBits_3F800000 : Ideal.ofBits .f32 0x3F800000#32 = 1 := by
  simp [Ideal.ofBits, Ideal.ieee]
  rw [← EReal.coe_mul, ← EReal.coe_one]
  norm_num

/-- The single-precision word `0x3727C5AC` denotes a positive real number,
    `(2²³ + 2606508) · 2⁻⁴⁰`. -/
theorem ofBits_3727C5AC : ∃ e : ℝ, 0 < e ∧ Ideal.ofBits .f32 0x3727C5AC#32 = (e : EReal) := by
  refine ⟨10995116 * (2 ^ 40)⁻¹, by positivity, ?_⟩
  simp [Ideal.ofBits, Ideal.ieee]

/-- The words above, and the zero word, denote real numbers. -/
theorem isR_ofBits_00000000 : IsR (Ideal.ofBits .f32 0x00000000#32) := by
  rw [Ideal.ofBits_zero_f32]; exact isR_zero

theorem isR_ofBits_47C35000 : IsR (Ideal.ofBits .f32 0x47C35000#32) := ⟨_, ofBits_47C35000⟩

theorem isR_ofBits_3F800000 : IsR (Ideal.ofBits .f32 0x3F800000#32) := by
  rw [ofBits_3F800000]; exact isR_one

theorem isR_ofBits_3727C5AC : IsR (Ideal.ofBits .f32 0x3727C5AC#32) := by
  obtain ⟨e, _, h⟩ := ofBits_3727C5AC; exact ⟨e, h⟩

/-! ### Vectors

Each statement is at the extended-real instance, for arbitrary shapes and dimension records. -/

/-- `gather` re-indexes its operand: every result entry is an operand entry. -/
theorem allR_gather {s si t : Shape} {w : Nat} (d : GatherDims s si t) (x : s.Idx → EReal)
    (idx : IVec si w) (hx : AllR x) : AllR (Host.gather d x idx) :=
  fun j => hx (d.operandIdx j idx)

/-- `scatter-add`: every result entry is an operand entry plus a finite sum of update entries. -/
theorem allR_scatterAdd {s si u : Shape} {φ : FTy} {w : Nat} (d : ScatterDims s si u)
    (x : FVec Ideal s φ) (idx : IVec si w) (upd : FVec Ideal u φ) (hx : AllR x) (hu : AllR upd) :
    AllR (Host.scatterAdd (F := Ideal) d x idx upd) := by
  intro i
  show IsR (x i + ∑ j ∈ Finset.univ.filter (fun j => d.resultIdx? j idx = some i), upd j)
  exact (hx i).add (isR_sum _ _ (fun j _ => hu j))

/-- The host sum over axes: every result entry is the initial value plus a finite sum of operand
    entries. -/
theorem allR_reduceAdd {s t u : Shape} {φ : FTy} {axes : List (Fin s.rank)} (x : FVec Ideal s φ)
    (init : u.Idx → Ideal φ) (h : s.ReducesTo axes t) (hu : 0 < u.numel) (hx : AllR x)
    (hi : IsR (init (Shape.Idx.first hu))) : AllR (Host.reduceAdd (F := Ideal) x init h hu) := by
  intro j
  show IsR (init (Shape.Idx.first hu) + ∑ i ∈ Finset.univ.filter (fun i => h.drop i = j), x i)
  exact hi.add (isR_sum _ _ (fun i _ => hx i))

/-- The host sum over axes, with every entry of the initial value real. -/
theorem allR_reduceAdd' {s t u : Shape} {φ : FTy} {axes : List (Fin s.rank)} (x : FVec Ideal s φ)
    (init : u.Idx → Ideal φ) (h : s.ReducesTo axes t) (hu : 0 < u.numel) (hx : AllR x)
    (hi : AllR init) : AllR (Host.reduceAdd (F := Ideal) x init h hu) :=
  allR_reduceAdd x init h hu hx (hi _)

/-- The host contraction: every result entry is a finite sum of products of operand entries. -/
theorem allR_dotGeneral {sl sr so : Shape} {φ₁ φ₂ : FTy} (D : DotDims sl sr so)
    (prec : Option ContractPrecision) (x : FVec Ideal sl φ₁) (w : FVec Ideal sr φ₂)
    (hx : AllR x) (hw : AllR w) : AllR (Host.dotGeneral (F := Ideal) D prec x w) := by
  intro j
  show IsR (FloatOps.dotGeneral D prec .single x w j)
  rw [Ideal.dotGeneral_apply]
  exact isR_sum _ _ (fun k _ => (hx _).mul (hw _))

theorem allR_mulf {S : Shape} {φ : FTy} (x y : FVec Ideal S φ) (hx : AllR x) (hy : AllR y) :
    AllR (mulf (F := Ideal) x y) :=
  fun i => (hx i).mul (hy i)

theorem allR_addf {S : Shape} {φ : FTy} (x y : FVec Ideal S φ) (hx : AllR x) (hy : AllR y) :
    AllR (addf (F := Ideal) x y) :=
  fun i => (hx i).add (hy i)

theorem allR_subf {S : Shape} {φ : FTy} (x y : FVec Ideal S φ) (hx : AllR x) (hy : AllR y) :
    AllR (subf (F := Ideal) x y) :=
  fun i => (hx i).sub (hy i)

theorem allR_negf {S : Shape} {φ : FTy} (x : FVec Ideal S φ) (hx : AllR x) :
    AllR (negf (F := Ideal) x) :=
  fun i => (hx i).neg

/-- A selection between two vectors with real entries has real entries, whatever the mask. -/
theorem allR_select {S : Shape} (c : IVec S 1) (x y : S.Idx → EReal) (hx : AllR x) (hy : AllR y) :
    AllR (select c x y) := by
  intro i
  show IsR (if c i = 1 then x i else y i)
  exact isR_ite (hx i) (hy i)

/-- `broadcast_in_dim` re-indexes its operand. -/
theorem allR_broadcastInDim {s : Shape} (t : Shape) (dims : Fin s.rank → Fin t.rank)
    (h : s.BroadcastsInDim t dims) (x : s.Idx → EReal) (hx : AllR x) :
    AllR (broadcastInDim t dims h x) :=
  fun _ => hx _

/-- A broadcast of a vector along leading axes re-indexes its operand. -/
theorem allR_broadcastTo {s : Shape} (t : Shape) (x : s.Idx → EReal) (h : s.Broadcasts t)
    (hx : AllR x) : AllR (broadcastTo t x h) :=
  fun _ => hx _

/-- A broadcast of a real scalar has real entries. -/
theorem allR_broadcast (t : Shape) (x : EReal) (hx : IsR x) : AllR (broadcast t x) :=
  fun _ => hx

/-- A reshape re-indexes its operand. -/
theorem allR_shapeCast {s : Shape} (t : Shape) (x : s.Idx → EReal) (h : s.ShapeCasts t)
    (hx : AllR x) : AllR (shapeCast t x h) :=
  fun _ => hx _

/-- A slice re-indexes its operand. -/
theorem allR_extractStridedSlice {s : Shape} (t : Shape) (off : Fin s.rank → Nat)
    (x : s.Idx → EReal) (h : s.Slices off t) (hx : AllR x) :
    AllR (extractStridedSlice t off x h) :=
  fun _ => hx _

/-- A strided slice re-indexes its operand. -/
theorem allR_hostSlice {s : Shape} (t : Shape) (start strides : Fin s.rank → Nat)
    (x : s.Idx → EReal) (h : s.SlicesBy start strides t) (hx : AllR x) :
    AllR (Host.slice t start strides x h) :=
  fun _ => hx _

/-- A transposition re-indexes its operand. -/
theorem allR_transpose {s : Shape} (t : Shape) (perm : List (Fin s.rank)) (x : s.Idx → EReal)
    (h : s.Transposes perm t) (hx : AllR x) : AllR (transpose t perm x h) :=
  fun _ => hx _

/-- A concatenation of vectors with real entries has real entries: every result entry is an
    entry of one of the pieces. -/
theorem allR_concatenate_list (t : Shape) (a : Fin t.rank)
    (xs : List ((s : Shape) × (s.Idx → EReal))) (h : Shape.Concatenates (xs.map (·.1)) t a)
    (hxs : ∀ p ∈ xs, AllR p.2) : AllR (concatenate t a xs h) := by
  intro j
  unfold concatenate
  exact hxs _ (List.getElem_mem _) _

/-- A concatenation of two vectors with real entries has real entries. -/
theorem allR_concatenate {s₁ s₂ : Shape} (t : Shape) (a : Fin t.rank) (x₁ : s₁.Idx → EReal)
    (x₂ : s₂.Idx → EReal)
    (h : Shape.Concatenates
      (([⟨s₁, x₁⟩, ⟨s₂, x₂⟩] : List ((s : Shape) × (s.Idx → EReal))).map (·.1)) t a)
    (h₁ : AllR x₁) (h₂ : AllR x₂) :
    AllR (concatenate t a [⟨s₁, x₁⟩, ⟨s₂, x₂⟩] h) := by
  apply allR_concatenate_list
  intro p hp
  simp only [List.mem_cons, List.not_mem_nil, or_false] at hp
  rcases hp with rfl | rfl
  · exact h₁
  · exact h₂

/-- The entrywise host quotient of a vector with real entries by a vector whose entries are
    nonzero real numbers has real entries. -/
theorem allR_hostDivf {S : Shape} {φ : FTy} (x y : FVec Ideal S φ) (hx : AllR x)
    (hy : ∀ i, ∃ r : ℝ, r ≠ 0 ∧ y i = (r : EReal)) : AllR (Host.divf (F := Ideal) x y) := by
  intro i
  obtain ⟨r, hr, hyi⟩ := hy i
  show IsR (Ideal.div (x i) (y i))
  rw [hyi]
  exact isR_div (hx i) hr

/-- The entrywise quotient, likewise. -/
theorem allR_divf {S : Shape} {φ : FTy} (x y : FVec Ideal S φ) (hx : AllR x)
    (hy : ∀ i, ∃ r : ℝ, r ≠ 0 ∧ y i = (r : EReal)) : AllR (divf (F := Ideal) x y) := by
  intro i
  obtain ⟨r, hr, hyi⟩ := hy i
  show IsR (Ideal.div (x i) (y i))
  rw [hyi]
  exact isR_div (hx i) hr

/-- The entrywise host reciprocal square root of a vector whose entries are positive real
    numbers has real entries. -/
theorem allR_hostRsqrt {S : Shape} {φ : FTy} (x : FVec Ideal S φ)
    (hx : ∀ i, ∃ r : ℝ, 0 < r ∧ x i = (r : EReal)) : AllR (Host.rsqrt (F := Ideal) x) := by
  intro i
  obtain ⟨r, hr, hxi⟩ := hx i
  show IsR (Ideal.rsqrt (x i))
  rw [hxi]
  exact isR_rsqrt hr

/-- The entrywise reciprocal square root, likewise. -/
theorem allR_rsqrt {S : Shape} {φ : FTy} (x : FVec Ideal S φ)
    (hx : ∀ i, ∃ r : ℝ, 0 < r ∧ x i = (r : EReal)) : AllR (rsqrt (F := Ideal) x) := by
  intro i
  obtain ⟨r, hr, hxi⟩ := hx i
  show IsR (Ideal.rsqrt (x i))
  rw [hxi]
  exact isR_rsqrt hr

/-- A constant vector whose word denotes a real number has real entries. -/
theorem allR_constant (S : Shape) (φ : FTy) (w : BitVec φ.bits) (h : IsR (Ideal.ofBits φ w)) :
    AllR (constant (F := Ideal) S φ w) :=
  fun _ => h

end Cert.Lib.RealEntries

end
-- ==== Proof.AlgebraWords.lean ====
import proofs.«155582_j41644002902305_2_alg».proof.Proof.Spec
import proofs.«155582_j41644002902305_2_alg».proof.Proof.LibRealEntries
import Mathlib.Tactic

/-!
# The constants, the guarded root, and the split of a sum over 2048 nodes into four blocks

The five float words denote the real numbers 0, 1, 2, 2048 and a positive real. The guarded root of
a real number is a nonnegative real number. A sum over the 2048 nodes is the sum of the four sums
over the blocks of 512 consecutive nodes (in any commutative additive monoid).
-/

noncomputable section

namespace Cert.Gnn

open Idealize.ShloMosaic
open Cert.Lib.RealEntries
open scoped BigOperators

/-! ### The words -/

theorem wZero_eq : wZero = 0 := Ideal.ofBits_zero_f32

theorem wOne_eq : wOne = 1 := ofBits_3F800000

/-- The word `0x40000000` denotes `2 = 2²³ · 2⁻²²`. -/
theorem wTwo_eq : wTwo = ((2 : ℝ) : EReal) := by
  simp [Ideal.ofBits, Ideal.ieee]
  rw [← EReal.coe_mul]
  norm_num

/-- The word `0x45000000` denotes `2048 = 2²³ · 2⁻¹²`. -/
theorem wRows_eq : wRows = ((2048 : ℝ) : EReal) := by
  simp [Ideal.ofBits, Ideal.ieee]
  rw [← EReal.coe_mul]
  norm_num

theorem wEps_pos : ∃ e : ℝ, 0 < e ∧ wEps = (e : EReal) := ofBits_3727C5AC

/-! ### The guarded root -/

/-- The guarded root of a real number: its square root where it is positive, 0 elsewhere. -/
theorem distE_coe (r : ℝ) : distE (r : EReal) = ((if 0 < r then Real.sqrt r else 0 : ℝ) : EReal) := by
  unfold distE
  rw [wZero_eq]
  by_cases h : 0 < r
  · have hc : Ideal.cmp .ogt (r : EReal) 0 = 1 := by
      simp [Ideal.cmp, h]
    rw [hc]
    simp only [Scalar.select, if_true, Ideal.sqrt_coe, if_neg (not_lt.2 h.le), if_pos h]
  · have hc : Ideal.cmp .ogt (r : EReal) 0 ≠ 1 := by
      simp [Ideal.cmp, h]
    simp only [Scalar.select, if_neg hc, if_neg h, EReal.coe_zero]

/-- The guarded root of a real number is a nonnegative real number. -/
theorem distE_real {d : EReal} (hd : IsR d) : ∃ s : ℝ, 0 ≤ s ∧ distE d = (s : EReal) := by
  obtain ⟨r, rfl⟩ := hd
  refine ⟨if 0 < r then Real.sqrt r else 0, ?_, distE_coe r⟩
  split
  · exact Real.sqrt_nonneg r
  · exact le_refl 0

/-! ### The four blocks -/

/-- The nodes, as pairs (block, place in the block). -/
def blkEquiv : Fin 4 × Fin 512 ≃ Fin 2048 where
  toFun p := blk p.1 p.2
  invFun m := (⟨m.val / 512, by have := m.isLt; omega⟩, ⟨m.val % 512, by omega⟩)
  left_inv p := by
    rcases p with ⟨⟨j, hj⟩, ⟨k, hk⟩⟩
    simp only [blk, Prod.mk.injEq, Fin.mk.injEq]
    constructor <;> omega
  right_inv m := by
    rcases m with ⟨m, hm⟩
    simp only [blk, Fin.mk.injEq]
    omega

/-- A sum over the 2048 nodes is the sum of the four block sums, added one after the other. -/
theorem sum_blk {M : Type*} [AddCommMonoid M] (f : Fin 2048 → M) :
    ∑ m : Fin 2048, f m
      = (((∑ k : Fin 512, f (blk 0 k)) + ∑ k : Fin 512, f (blk 1 k)) + ∑ k : Fin 512, f (blk 2 k))
        + ∑ k : Fin 512, f (blk 3 k) := by
  rw [← Fin.sum_univ_four (fun j : Fin 4 => ∑ k : Fin 512, f (blk j k)), ← Fintype.sum_prod_type']
  exact (Fintype.sum_equiv blkEquiv (fun p => f (blk p.1 p.2)) f (fun _ => rfl)).symm

end Cert.Gnn

end
-- ==== Proof.LibBatchMoments.lean ====
import Idealize.ShloMosaic.PureOps.Ideal
import Mathlib.Tactic

/-!
# Batch moments on the extended reals

For a finite family of real numbers `r : Fin n → ℝ` with `n = N ≠ 0`, the mean of the squared
deviations from the mean equals the mean of the squares minus the square of the mean:

  `(∑ (r p - μ)²) / N = (∑ (r p)²) / N - μ²`,   `μ = (∑ r p) / N`.

The identity is stated on the extended reals, with the division `Ideal.div`; since every entry is
the coercion of a real number and the divisor is a nonzero real, every intermediate value is the
coercion of a real number, and the identity is the one of real arithmetic. On the extended reals at
large the two sides differ (an infinite entry makes one side `⊥` and the other not), so the
hypothesis that the entries are real cannot be dropped.
-/

noncomputable section

namespace Cert.Lib.BatchMoments

open Idealize.ShloMosaic
open scoped BigOperators

/-- A finite sum of coercions of real numbers is the coercion of the real sum. -/
theorem coe_finset_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The quotient of a real number by a nonzero real number, taken on the extended reals, is the
    coercion of the real quotient. -/
theorem div_coe_coe (x : ℝ) {y : ℝ} (hy : y ≠ 0) :
    Ideal.div (x : EReal) (y : EReal) = ((x / y : ℝ) : EReal) := by
  rw [Ideal.div_coe hy, ← EReal.coe_mul, mul_one_div]

/-- The mean of a real family, taken on the extended reals, is the coercion of the real mean. -/
theorem mean_coe {n : ℕ} {N : ℝ} (hN : N ≠ 0) (r : Fin n → ℝ) :
    Ideal.div (∑ p, ((r p : ℝ) : EReal)) (N : EReal) = (((∑ p, r p) / N : ℝ) : EReal) := by
  rw [coe_finset_sum, div_coe_coe _ hN]

/-- The identity on the real numbers: with `m = (∑ r p) / N` and `n = N ≠ 0`,
    `(∑ (r p - m)²) / N = (∑ (r p)²) / N - m²`. Expanding the square,
    `∑ (r p - m)² = ∑ (r p)² - 2 m ∑ r p + N m²` and `∑ r p = N m`. -/
theorem real_mean_sq_dev {n : ℕ} {N : ℝ} (hN : N ≠ 0) (hn : (n : ℝ) = N) (r : Fin n → ℝ) :
    (∑ p, (r p - (∑ q, r q) / N) * (r p - (∑ q, r q) / N)) / N
      = (∑ p, r p * r p) / N - ((∑ q, r q) / N) * ((∑ q, r q) / N) := by
  have h1 : ∀ m : ℝ, ∑ p, (r p - m) * (r p - m)
      = (∑ p, r p * r p) - 2 * m * (∑ p, r p) + N * (m * m) := by
    intro m
    have h2 : ∀ p, (r p - m) * (r p - m) = r p * r p - 2 * m * r p + m * m := fun p => by ring
    simp only [h2]
    rw [Finset.sum_add_distrib, Finset.sum_sub_distrib, ← Finset.mul_sum, Finset.sum_const,
      Finset.card_univ, Fintype.card_fin, nsmul_eq_mul, hn]
  rw [h1]
  field_simp
  ring

/-- The sum of the squared deviations of real entries from a real centre, on the extended reals,
    is the coercion of the real sum of squared deviations. -/
theorem sum_sq_dev_coe {n : ℕ} (r : Fin n → ℝ) (m : ℝ) :
    (∑ p, (((r p : ℝ) : EReal) - (m : EReal)) * (((r p : ℝ) : EReal) - (m : EReal)))
      = ((∑ p, (r p - m) * (r p - m) : ℝ) : EReal) := by
  rw [← coe_finset_sum]
  refine Finset.sum_congr rfl (fun p _ => ?_)
  rw [← EReal.coe_sub, ← EReal.coe_mul]

/-- The sum of the squares of real entries, on the extended reals, is the coercion of the real
    sum of squares. -/
theorem sum_sq_coe {n : ℕ} (r : Fin n → ℝ) :
    (∑ p, ((r p : ℝ) : EReal) * ((r p : ℝ) : EReal)) = ((∑ p, r p * r p : ℝ) : EReal) := by
  rw [← coe_finset_sum]
  refine Finset.sum_congr rfl (fun p _ => ?_)
  rw [← EReal.coe_mul]

/-- **Variance identity**, with the mean named: for real entries `r p`, a nonzero real count
    `N = n` and `μ = (∑ r p) / N`, the mean squared deviation from `μ` is the mean of the squares
    minus `μ²`, on the extended reals. -/
theorem mean_sq_dev_eq' {n : ℕ} {N : ℝ} (hN : N ≠ 0) (hn : (n : ℝ) = N) (r : Fin n → ℝ)
    (μ : EReal) (hμ : μ = Ideal.div (∑ p, ((r p : ℝ) : EReal)) (N : EReal)) :
    Ideal.div (∑ p, (((r p : ℝ) : EReal) - μ) * (((r p : ℝ) : EReal) - μ)) (N : EReal)
      = Ideal.div (∑ p, ((r p : ℝ) : EReal) * ((r p : ℝ) : EReal)) (N : EReal) - μ * μ := by
  rw [hμ, mean_coe hN, sum_sq_dev_coe, sum_sq_coe, div_coe_coe _ hN, div_coe_coe _ hN,
    ← EReal.coe_mul, ← EReal.coe_sub, real_mean_sq_dev hN hn]

/-- **Variance identity**: for real entries `r p` and a nonzero real count `N = n`, with
    `μ = (∑ r p) / N`: `(∑ (r p - μ)²) / N = (∑ (r p)²) / N - μ²` on the extended reals. -/
theorem mean_sq_dev_eq {n : ℕ} {N : ℝ} (hN : N ≠ 0) (hn : (n : ℝ) = N) (r : Fin n → ℝ) :
    Ideal.div (∑ p, (((r p : ℝ) : EReal) - Ideal.div (∑ q, ((r q : ℝ) : EReal)) (N : EReal))
        * (((r p : ℝ) : EReal) - Ideal.div (∑ q, ((r q : ℝ) : EReal)) (N : EReal))) (N : EReal)
      = Ideal.div (∑ p, ((r p : ℝ) : EReal) * ((r p : ℝ) : EReal)) (N : EReal)
        - Ideal.div (∑ q, ((r q : ℝ) : EReal)) (N : EReal)
          * Ideal.div (∑ q, ((r q : ℝ) : EReal)) (N : EReal) :=
  mean_sq_dev_eq' hN hn r _ rfl

/-- The mean squared deviation of real entries from their mean is a nonnegative real number
    (mean named): a sum of squares divided by a positive count. -/
theorem mean_sq_dev_nonneg' {n : ℕ} {N : ℝ} (hN : 0 < N) (r : Fin n → ℝ)
    (μ : EReal) (hμ : μ = Ideal.div (∑ p, ((r p : ℝ) : EReal)) (N : EReal)) :
    ∃ v : ℝ, 0 ≤ v ∧
      Ideal.div (∑ p, (((r p : ℝ) : EReal) - μ) * (((r p : ℝ) : EReal) - μ)) (N : EReal)
        = (v : EReal) := by
  refine ⟨(∑ p, (r p - (∑ q, r q) / N) * (r p - (∑ q, r q) / N)) / N, ?_, ?_⟩
  · exact div_nonneg (Finset.sum_nonneg (fun p _ => mul_self_nonneg _)) hN.le
  · rw [hμ, mean_coe hN.ne', sum_sq_dev_coe, div_coe_coe _ hN.ne']

/-- The mean squared deviation of real entries from their mean is a nonnegative real number. -/
theorem mean_sq_dev_nonneg {n : ℕ} {N : ℝ} (hN : 0 < N) (r : Fin n → ℝ) :
    ∃ v : ℝ, 0 ≤ v ∧
      Ideal.div (∑ p, (((r p : ℝ) : EReal) - Ideal.div (∑ q, ((r q : ℝ) : EReal)) (N : EReal))
          * (((r p : ℝ) : EReal) - Ideal.div (∑ q, ((r q : ℝ) : EReal)) (N : EReal))) (N : EReal)
        = (v : EReal) :=
  mean_sq_dev_nonneg' hN r _ rfl

/-- The moments in the two spellings that occur: the entries are extended reals known to be real,
    and a sum may carry a leading `0 +` (the initial value of a reduction). For such entries and a
    positive real count `N = n`: the mean with and without the leading zero agree; the mean of the
    squares minus the square of the mean is the mean of the squared deviations from the mean; the
    mean is a real number; and the mean of the squared deviations is a nonnegative real number. -/
theorem moments_bridge {n : ℕ} {N : ℝ} (hN : 0 < N) (hn : (n : ℝ) = N) (f : Fin n → EReal)
    (hf : ∀ p, ∃ r : ℝ, f p = (r : EReal)) :
    Ideal.div (∑ p, f p) (N : EReal) = Ideal.div (0 + ∑ p, f p) (N : EReal)
    ∧ Ideal.div (∑ p, f p * f p) (N : EReal)
          - Ideal.div (∑ p, f p) (N : EReal) * Ideal.div (∑ p, f p) (N : EReal)
        = Ideal.div (0 + ∑ p, (f p - Ideal.div (0 + ∑ q, f q) (N : EReal))
            * (f p - Ideal.div (0 + ∑ q, f q) (N : EReal))) (N : EReal)
    ∧ (∃ μ : ℝ, Ideal.div (0 + ∑ p, f p) (N : EReal) = (μ : EReal))
    ∧ (∃ v : ℝ, 0 ≤ v ∧
        Ideal.div (0 + ∑ p, (f p - Ideal.div (0 + ∑ q, f q) (N : EReal))
            * (f p - Ideal.div (0 + ∑ q, f q) (N : EReal))) (N : EReal) = (v : EReal)) := by
  choose r hr using hf
  obtain rfl : f = fun p => ((r p : ℝ) : EReal) := funext hr
  simp only [zero_add]
  exact ⟨trivial, (mean_sq_dev_eq hN.ne' hn r).symm, ⟨_, mean_coe hN.ne' r⟩,
    mean_sq_dev_nonneg hN r⟩

end Cert.Lib.BatchMoments

end
-- ==== Proof.AlgebraDeg.lean ====
import proofs.«155582_j41644002902305_2_alg».proof.Proof.AlgebraWords
import proofs.«155582_j41644002902305_2_alg».proof.Proof.LibBatchMoments
import Mathlib.Tactic

/-!
# The degrees

The blocked and the dense degree of a node are the same extended real, whatever the coordinates:
only commutativity and associativity of the sum are used. On real coordinates every edge weight is a
nonnegative real number, so the degree is a real number that is at least 1, and its reciprocal
square root is a real number.
-/

noncomputable section

namespace Cert.Gnn

open Idealize.ShloMosaic
open Cert.Lib.RealEntries
open scoped BigOperators

open Cert.Lib.BatchMoments

/-- A row of the self-loop weights sums to 1. -/
theorem eye_sum (n : Fin 2048) : ∑ m : Fin 2048, eye n m = 1 := by
  simp [eye]

/-- The self-loop weight is the real number 1 or 0. -/
theorem eye_coe (n m : Fin 2048) : eye n m = ((if n = m then (1 : ℝ) else 0 : ℝ) : EReal) := by
  unfold eye
  split <;> simp

theorem eye_isR (n m : Fin 2048) : IsR (eye n m) := ⟨_, eye_coe n m⟩

section
variable (X : Fin 2048 → Fin 2 → EReal)

/-- The two degrees agree for every choice of coordinates. -/
theorem degK_eq_degR (n : Fin 2048) : degK X n = degR X n := by
  unfold degK degR
  rw [Finset.sum_add_distrib, eye_sum, wOne_eq, sum_blk (fun m => dist X n m)]

theorem dinvK_eq_dinvR : dinvK X = dinvR X := by
  funext n
  unfold dinvK dinvR
  rw [degK_eq_degR]

variable (hX : ∀ n k, IsR (X n k))
include hX

theorem d2_isR (n m : Fin 2048) : IsR (d2 X n m) := by
  unfold d2 sqn
  rw [wTwo_eq]
  exact ((((hX n 0).mul (hX n 0)).add ((hX n 1).mul (hX n 1))).add
    (((hX m 0).mul (hX m 0)).add ((hX m 1).mul (hX m 1)))).sub
    ((isR_coe 2).mul (((hX n 0).mul (hX m 0)).add ((hX n 1).mul (hX m 1))))

/-- On real coordinates an edge weight is a nonnegative real number. -/
theorem dist_real (n m : Fin 2048) : ∃ s : ℝ, 0 ≤ s ∧ dist X n m = (s : EReal) :=
  distE_real (d2_isR X hX n m)

theorem dist_isR (n m : Fin 2048) : IsR (dist X n m) := by
  obtain ⟨s, _, h⟩ := dist_real X hX n m
  exact ⟨s, h⟩

/-- On real coordinates the degree is a positive real number (it is at least the self-loop's 1). -/
theorem degR_real (n : Fin 2048) : ∃ r : ℝ, 0 < r ∧ degR X n = (r : EReal) := by
  choose s hs0 hs using fun m => dist_real X hX n m
  refine ⟨(∑ m, s m) + 1, ?_, ?_⟩
  · have := Finset.sum_nonneg (s := Finset.univ) (fun m _ => hs0 m)
    linarith
  · unfold degR
    rw [Finset.sum_add_distrib, eye_sum]
    simp only [hs]
    rw [coe_finset_sum, EReal.coe_add, EReal.coe_one]

theorem dinvR_isR (n : Fin 2048) : IsR (dinvR X n) := by
  obtain ⟨r, hr, h⟩ := degR_real X hX n
  unfold dinvR
  rw [h]
  exact isR_rsqrt hr

end

end Cert.Gnn

end
-- ==== Proof.AlgebraAgg.lean ====
import proofs.«155582_j41644002902305_2_alg».proof.Proof.AlgebraDeg
import Mathlib.Tactic

/-!
# The aggregation

For real edge weights D, real scalings dv and real features g, the blocked aggregation (the four
block sums, scaled after the sum, the self-loop kept apart) and the dense one (the sum over all
nodes against the normalised adjacency) are the same number: in the real numbers this is the
distributive law together with the split of the sum into the four blocks.
-/

noncomputable section

namespace Cert.Gnn

open Idealize.ShloMosaic
open Cert.Lib.RealEntries
open scoped BigOperators

open Cert.Lib.BatchMoments

theorem aggK_eq_aggR (D : Fin 2048 → Fin 2048 → EReal) (dv : Fin 2048 → EReal)
    (g : Fin 2048 → Fin 128 → EReal) (hD : ∀ n m, IsR (D n m)) (hdv : ∀ n, IsR (dv n))
    (hg : ∀ m e, IsR (g m e)) : aggK D dv g = aggR D dv g := by
  choose d hd using hD
  choose v hv using hdv
  choose γ hγ using hg
  obtain rfl : D = fun n m => ((d n m : ℝ) : EReal) := funext fun n => funext fun m => hd n m
  obtain rfl : dv = fun n => ((v n : ℝ) : EReal) := funext hv
  obtain rfl : g = fun m e => ((γ m e : ℝ) : EReal) := funext fun m => funext fun e => hγ m e
  funext n e
  unfold aggK aggR aggBlk
  simp only [eye_coe, ← EReal.coe_mul, ← EReal.coe_add, coe_finset_sum]
  congr 1
  rw [← sum_blk (fun m => d n m * (γ m e * v m))]
  have h2 : ∀ m, v n * (d n m + (if n = m then (1 : ℝ) else 0)) * v m * γ m e
      = v n * (d n m * (γ m e * v m)) + (if n = m then v n * v m * γ m e else 0) := by
    intro m
    split_ifs <;> ring
  simp only [h2, Finset.sum_add_distrib, ← Finset.mul_sum, Finset.sum_ite_eq, Finset.mem_univ,
    if_true]

/-- The dense aggregation of real data is real. -/
theorem aggR_isR (D : Fin 2048 → Fin 2048 → EReal) (dv : Fin 2048 → EReal)
    (g : Fin 2048 → Fin 128 → EReal) (hD : ∀ n m, IsR (D n m)) (hdv : ∀ n, IsR (dv n))
    (hg : ∀ m e, IsR (g m e)) (n : Fin 2048) (e : Fin 128) : IsR (aggR D dv g n e) := by
  unfold aggR
  exact isR_sum _ _ (fun m _ =>
    ((((hdv n).mul ((hD n m).add (eye_isR n m))).mul (hdv m)).mul (hg m e)))

end Cert.Gnn

end
-- ==== Proof.AlgebraPost.lean ====
import proofs.«155582_j41644002902305_2_alg».proof.Proof.AlgebraWords
import proofs.«155582_j41644002902305_2_alg».proof.Proof.LibBatchMoments
import Mathlib.Tactic

/-!
# What follows the aggregation keeps real values real

The product h·Wᵀ of real matrices is real. For real bias, scale, shift and mean weight, a real
aggregation and a real layer input, the layer's output is real: the hyperbolic tangent of a real
number is a real number, the column mean is a real sum divided by 2048, the column mean of the
squares of what is left is a nonnegative real number, and adding the positive constant makes the
number under the reciprocal square root positive.
-/

noncomputable section

namespace Cert.Gnn

open Idealize.ShloMosaic
open Cert.Lib.RealEntries
open scoped BigOperators

open Cert.Lib.BatchMoments

/-- The hyperbolic tangent of a real number is a real number. -/
theorem tanh_isR {x : EReal} (hx : IsR x) : IsR (Ideal.tanh x) := by
  obtain ⟨r, rfl⟩ := hx
  exact ⟨Real.tanh r, Ideal.tanh_coe r⟩

theorem lin_isR (W : Fin 128 → Fin 128 → EReal) (h : Fin 2048 → Fin 128 → EReal)
    (hW : ∀ e k, IsR (W e k)) (hh : ∀ n k, IsR (h n k)) (n : Fin 2048) (e : Fin 128) :
    IsR (lin W h n e) := by
  unfold lin
  exact isR_sum _ _ (fun k _ => (hh n k).mul (hW e k))

theorem h0_isR (X : Fin 2048 → Fin 2 → EReal) (Wn : Fin 128 → Fin 2 → EReal) (bn : Fin 128 → EReal)
    (hX : ∀ n k, IsR (X n k)) (hWn : ∀ e k, IsR (Wn e k)) (hbn : ∀ e, IsR (bn e))
    (n : Fin 2048) (e : Fin 128) : IsR (h0 X Wn bn n e) := by
  unfold h0
  exact (isR_sum _ _ (fun k _ => (hX n k).mul (hWn e k))).add (hbn e)

section post
variable (bgl gnw gnb gna : Fin 128 → EReal) (agg h : Fin 2048 → Fin 128 → EReal)
variable (hb : ∀ e, IsR (bgl e)) (hw : ∀ e, IsR (gnw e)) (hs : ∀ e, IsR (gnb e)) (ha : ∀ e, IsR (gna e))
  (hagg : ∀ n e, IsR (agg n e)) (hh : ∀ n e, IsR (h n e))

include hb hagg hh in
theorem act_isR (n : Fin 2048) (e : Fin 128) : IsR (act bgl agg h n e) := by
  unfold act
  exact (tanh_isR ((hagg n e).add (hb e))).add (hh n e)

include hb hagg hh in
theorem colMean_isR (e : Fin 128) : IsR (colMean bgl agg h e) := by
  unfold colMean
  rw [wRows_eq]
  exact isR_div (isR_sum _ _ (fun n _ => act_isR bgl agg h hb hagg hh n e)) (by norm_num)

include hb ha hagg hh in
theorem centred_isR (n : Fin 2048) (e : Fin 128) : IsR (centred bgl gna agg h n e) := by
  unfold centred
  exact (act_isR bgl agg h hb hagg hh n e).sub ((ha e).mul (colMean_isR bgl agg h hb hagg hh e))

include hb ha hagg hh in
/-- The column mean of the squares is a nonnegative real number. -/
theorem colVar_real (e : Fin 128) : ∃ r : ℝ, 0 ≤ r ∧ colVar bgl gna agg h e = (r : EReal) := by
  choose c hc using fun n => centred_isR bgl gna agg h hb ha hagg hh n e
  refine ⟨(∑ n, c n * c n) / 2048,
    div_nonneg (Finset.sum_nonneg (fun n _ => mul_self_nonneg (c n))) (by norm_num), ?_⟩
  unfold colVar
  rw [wRows_eq]
  simp only [hc]
  rw [sum_sq_coe, div_coe_coe _ (by norm_num)]

include hb hw hs ha hagg hh in
/-- The layer's output is real. -/
theorem post_isR (n : Fin 2048) (e : Fin 128) : IsR (post bgl gnw gnb gna agg h n e) := by
  obtain ⟨r, hr, hv⟩ := colVar_real bgl gna agg h hb ha hagg hh e
  obtain ⟨ε, hε, he⟩ := wEps_pos
  unfold post
  rw [hv, he, ← EReal.coe_add]
  exact (((hw e).mul (centred_isR bgl gna agg h hb ha hagg hh n e)).mul
    (isR_rsqrt (by linarith))).add (hs e)

end post

end Cert.Gnn

end
-- ==== Proof.Algebra.lean ====
import proofs.«155582_j41644002902305_2_alg».proof.Proof.AlgebraAgg
import proofs.«155582_j41644002902305_2_alg».proof.Proof.AlgebraPost
import Mathlib.Tactic

/-!
# The blocked and the dense arrangement agree on real data

The two degrees agree for all coordinates. On real coordinates the edge weights and the reciprocal
square roots of the degrees are real, the input projection is real, and every layer sends real
features to real features; on real data the two aggregations agree, hence the two layers agree,
hence the three-layer networks agree, graph by graph.
-/

noncomputable section

namespace Cert.Gnn

open Idealize.ShloMosaic
open Cert.Lib.RealEntries
open scoped BigOperators

/-- One layer: the two arrangements agree on real data. -/
theorem layerK_eq_layerR (D : Fin 2048 → Fin 2048 → EReal) (dv : Fin 2048 → EReal)
    (W : Fin 128 → Fin 128 → EReal) (bgl gnw gnb gna : Fin 128 → EReal)
    (h : Fin 2048 → Fin 128 → EReal) (hD : ∀ n m, IsR (D n m)) (hdv : ∀ n, IsR (dv n))
    (hW : ∀ e k, IsR (W e k)) (hh : ∀ n e, IsR (h n e)) :
    layerK D dv W bgl gnw gnb gna h = layerR D dv W bgl gnw gnb gna h := by
  unfold layerK layerR
  rw [aggK_eq_aggR D dv (lin W h) hD hdv (lin_isR W h hW hh)]

/-- One layer sends real features to real features. -/
theorem layerR_isR (D : Fin 2048 → Fin 2048 → EReal) (dv : Fin 2048 → EReal)
    (W : Fin 128 → Fin 128 → EReal) (bgl gnw gnb gna : Fin 128 → EReal)
    (h : Fin 2048 → Fin 128 → EReal) (hD : ∀ n m, IsR (D n m)) (hdv : ∀ n, IsR (dv n))
    (hW : ∀ e k, IsR (W e k)) (hb : ∀ e, IsR (bgl e)) (hw : ∀ e, IsR (gnw e))
    (hs : ∀ e, IsR (gnb e)) (ha : ∀ e, IsR (gna e)) (hh : ∀ n e, IsR (h n e)) :
    ∀ n e, IsR (layerR D dv W bgl gnw gnb gna h n e) := by
  unfold layerR
  exact post_isR bgl gnw gnb gna _ h hb hw hs ha
    (aggR_isR D dv (lin W h) hD hdv (lin_isR W h hW hh)) hh

/-- The three-layer networks agree on real data. -/
theorem outK_eq_outR (X : Fin 2048 → Fin 2 → EReal) (Wn : Fin 128 → Fin 2 → EReal)
    (bn : Fin 128 → EReal) (Wg : Fin 3 → Fin 128 → Fin 128 → EReal) (bg : Fin 3 → Fin 128 → EReal)
    (gnw gnb gna : Fin 128 → EReal) (hX : ∀ n k, IsR (X n k)) (hWn : ∀ e k, IsR (Wn e k))
    (hbn : ∀ e, IsR (bn e)) (hWg : ∀ l e k, IsR (Wg l e k)) (hbg : ∀ l e, IsR (bg l e))
    (hw : ∀ e, IsR (gnw e)) (hs : ∀ e, IsR (gnb e)) (ha : ∀ e, IsR (gna e)) :
    outK X Wn bn Wg bg gnw gnb gna = outR X Wn bn Wg bg gnw gnb gna := by
  have hD := dist_isR X hX
  have hdv := dinvR_isR X hX
  have r0 := h0_isR X Wn bn hX hWn hbn
  have r1 := layerR_isR (dist X) (dinvR X) (Wg 0) (bg 0) gnw gnb gna (h0 X Wn bn) hD hdv (hWg 0)
    (hbg 0) hw hs ha r0
  have r2 := layerR_isR (dist X) (dinvR X) (Wg 1) (bg 1) gnw gnb gna _ hD hdv (hWg 1)
    (hbg 1) hw hs ha r1
  unfold outK outR
  rw [dinvK_eq_dinvR,
    layerK_eq_layerR (dist X) (dinvR X) (Wg 0) (bg 0) gnw gnb gna (h0 X Wn bn) hD hdv (hWg 0) r0,
    layerK_eq_layerR (dist X) (dinvR X) (Wg 1) (bg 1) gnw gnb gna _ hD hdv (hWg 1) r1,
    layerK_eq_layerR (dist X) (dinvR X) (Wg 2) (bg 2) gnw gnb gna _ hD hdv (hWg 2) r2]

/-- The dense network's output is real on real data. -/
theorem outR_isR (X : Fin 2048 → Fin 2 → EReal) (Wn : Fin 128 → Fin 2 → EReal)
    (bn : Fin 128 → EReal) (Wg : Fin 3 → Fin 128 → Fin 128 → EReal) (bg : Fin 3 → Fin 128 → EReal)
    (gnw gnb gna : Fin 128 → EReal) (hX : ∀ n k, IsR (X n k)) (hWn : ∀ e k, IsR (Wn e k))
    (hbn : ∀ e, IsR (bn e)) (hWg : ∀ l e k, IsR (Wg l e k)) (hbg : ∀ l e, IsR (bg l e))
    (hw : ∀ e, IsR (gnw e)) (hs : ∀ e, IsR (gnb e)) (ha : ∀ e, IsR (gna e)) :
    ∀ n e, IsR (outR X Wn bn Wg bg gnw gnb gna n e) := by
  have hD := dist_isR X hX
  have hdv := dinvR_isR X hX
  have r0 := h0_isR X Wn bn hX hWn hbn
  have r1 := layerR_isR (dist X) (dinvR X) (Wg 0) (bg 0) gnw gnb gna (h0 X Wn bn) hD hdv (hWg 0)
    (hbg 0) hw hs ha r0
  have r2 := layerR_isR (dist X) (dinvR X) (Wg 1) (bg 1) gnw gnb gna _ hD hdv (hWg 1)
    (hbg 1) hw hs ha r1
  unfold outR
  exact layerR_isR (dist X) (dinvR X) (Wg 2) (bg 2) gnw gnb gna _ hD hdv (hWg 2)
    (hbg 2) hw hs ha r2

open Idealize.ShloMosaic.ValueIdx in
/-- The whole arrays agree on real data. -/
theorem GK_eq_GR (a0 : (⟨3, ![8, 2048, 2]⟩ : Shape).Idx → EReal)
    (a1 : (⟨2, ![128, 2]⟩ : Shape).Idx → EReal) (a2 : (⟨1, ![128]⟩ : Shape).Idx → EReal)
    (a3 : (⟨3, ![3, 128, 128]⟩ : Shape).Idx → EReal) (a4 : (⟨2, ![3, 128]⟩ : Shape).Idx → EReal)
    (a5 a6 a7 : (⟨1, ![128]⟩ : Shape).Idx → EReal)
    (h0 : AllR a0) (h1 : AllR a1) (h2 : AllR a2) (h3 : AllR a3) (h4 : AllR a4) (h5 : AllR a5)
    (h6 : AllR a6) (h7 : AllR a7) :
    GK a0 a1 a2 a3 a4 a5 a6 a7 = GR a0 a1 a2 a3 a4 a5 a6 a7 := by
  funext i
  unfold GK GR
  rw [outK_eq_outR (graphOf a0 ⟨(i 0).val, (i 0).isLt⟩) (mat2 a1) (vec1 a2) (mat3 a3) (rows3 a4)
    (vec1 a5) (vec1 a6) (vec1 a7) (fun n k => h0 _) (fun e k => h1 _) (fun e => h2 _)
    (fun l e k => h3 _) (fun l e => h4 _) (fun e => h5 _) (fun e => h6 _) (fun e => h7 _)]

/-- The whole dense array has real entries on real data. -/
theorem GR_allR (a0 : (⟨3, ![8, 2048, 2]⟩ : Shape).Idx → EReal)
    (a1 : (⟨2, ![128, 2]⟩ : Shape).Idx → EReal) (a2 : (⟨1, ![128]⟩ : Shape).Idx → EReal)
    (a3 : (⟨3, ![3, 128, 128]⟩ : Shape).Idx → EReal) (a4 : (⟨2, ![3, 128]⟩ : Shape).Idx → EReal)
    (a5 a6 a7 : (⟨1, ![128]⟩ : Shape).Idx → EReal)
    (h0 : AllR a0) (h1 : AllR a1) (h2 : AllR a2) (h3 : AllR a3) (h4 : AllR a4) (h5 : AllR a5)
    (h6 : AllR a6) (h7 : AllR a7) : AllR (GR a0 a1 a2 a3 a4 a5 a6 a7) := by
  intro i
  unfold GR
  exact outR_isR (graphOf a0 ⟨(i 0).val, (i 0).isLt⟩) (mat2 a1) (vec1 a2) (mat3 a3) (rows3 a4)
    (vec1 a5) (vec1 a6) (vec1 a7) (fun n k => h0 _) (fun e k => h1 _) (fun e => h2 _)
    (fun l e k => h3 _) (fun l e => h4 _) (fun e => h5 _) (fun e => h6 _) (fun e => h7 _) _ _

end Cert.Gnn

end
-- ==== Proof.Finite.lean ====
import proofs.«155582_j41644002902305_2_alg».proof.Pre_finite_inputs
import proofs.«155582_j41644002902305_2_alg».proof.Proof.Gen.Pre_finite_inputs
import proofs.«155582_j41644002902305_2_alg».proof.Proof.LibRealEntries
import Idealize.ShloMosaic.Lib.ReduceAll
import Idealize.ShloMosaic.Lib.ValueIdx
import Idealize.ShloMosaic.PureOps.Ideal.Laws

/-!
# From the finiteness precondition to real entries

The precondition compares, entry by entry, the absolute value of each of the eight argument
arrays against the word of `+∞`, takes the conjunction of all these comparisons over each
array, and the conjunction of the eight results. Over the extended reals, `|x| < +∞` holds
exactly when `x` is neither `⊤` nor `⊥`, that is, when `x` is a real number. Hence, when
the precondition evaluates to 1, every entry of every argument array is real.
-/

noncomputable section

namespace Cert.Gnn.Finite

open Idealize.ShloMosaic Cert.Lib.RealEntries Cert.Pre_finite_inputs

/-- The single-precision word `0x7F800000` (sign clear, exponent all ones, fraction zero)
    denotes `+∞`. -/
theorem ofBits_7F800000 : Ideal.ofBits .f32 0x7F800000#32 = (⊤ : EReal) := by
  simp [Ideal.ofBits, Ideal.ieee]

/-- A one-bit word built from a Boolean is 1 exactly when the Boolean is true. -/
theorem ofBool_eq_one (b : Bool) : BitVec.ofBool b = 1#1 ↔ b = true := by cases b <;> decide

/-- The element fact: if `|x| < +∞` holds as an ordered comparison of extended reals, where
    `|x| = max x (-x)`, then `x` is a real number. Indeed `|⊥| = |⊤| = ⊤`, which is not
    below `⊤`. -/
theorem isR_of_abs_lt (x : EReal)
    (h : Ideal.cmp .olt (max x (-x)) (Ideal.ofBits .f32 0x7F800000#32) = 1#1) : IsR x := by
  rw [ofBits_7F800000] at h
  unfold Ideal.cmp at h
  rw [ofBool_eq_one] at h
  have hlt : max x (-x) < ⊤ := by simpa using h
  induction x using EReal.rec with
  | bot => simp at hlt
  | top => simp at hlt
  | coe r => exact isR_coe r

/-- The scalar shape has exactly one index. -/
instance subsingleton_S_Idx : Subsingleton S_.Idx := ⟨fun a b => funext fun d => d.elim0⟩

/-- One array: if the conjunction over all entries of `|x i| < +∞` is 1, every entry of `x`
    is real. The conjunction over all axes being 1 gives the comparison at each index, and the
    comparison at an index is the element fact. -/
theorem allR_of_all {S : Shape} {axes : List (Fin S.rank)}
    (hb : S_.BroadcastsInDim S (![] : Fin 0 → Fin S.rank)) (hr : S.ReducesTo axes S_)
    (h0 : 0 < S_.numel) (x : FVec Ideal S .f32) (j : S_.Idx)
    (h : Host.reduce IntOp.andi
          (cmpf .olt (Host.absf x)
            (broadcastInDim S ![] hb (constant (F := Ideal) S_ .f32 0x7F800000#32)))
          (constantI S_ 1 1#1) hr h0 j = 1#1) : AllR x := by
  intro i
  have e := Host.reduce_andi_all _ _ hr h0 j h i
  exact isR_of_abs_lt (x i) e

/-- The precondition being all ones makes every entry of every argument array a real number. -/
theorem allR_of_pre [Cert.Pre_finite_inputs.Facts]
    (x0 : FVec Ideal S8x2048x2 .f32) (x1 : FVec Ideal S128x2 .f32) (x2 : FVec Ideal S128 .f32)
    (x3 : FVec Ideal S3x128x128 .f32) (x4 : FVec Ideal S3x128 .f32)
    (x5 x6 x7 : FVec Ideal S128 .f32)
    (h : Cert.Pre_finite_inputs.fn (F := Ideal) x0 x1 x2 x3 x4 x5 x6 x7 = fun _ => 1#1) :
    AllR x0 ∧ AllR x1 ∧ AllR x2 ∧ AllR x3 ∧ AllR x4 ∧ AllR x5 ∧ AllR x6 ∧ AllR x7 := by
  have h0 := congrFun h ValueIdx.ix0
  dsimp only [Cert.Pre_finite_inputs.fn, Cert.Pre_finite_inputs.fn_part1,
    Cert.Pre_finite_inputs.fn_part2] at h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨allR_of_all _ _ _ x0 _ e0, allR_of_all _ _ _ x1 _ e1, allR_of_all _ _ _ x2 _ e2,
    allR_of_all _ _ _ x3 _ e3, allR_of_all _ _ _ x4 _ e4, allR_of_all _ _ _ x5 _ e5,
    allR_of_all _ _ _ x6 _ e6, allR_of_all _ _ _ x7 _ e7⟩

end Cert.Gnn.Finite

end
-- ==== Proof.LibDense.lean ====
/-
  General facts, at the exact instance (floats as extended reals), about the operations a dense layer and a row softmax
  are made of, each read at an index written by its coordinates:
  a matrix product into a zero accumulator is the sum over the contracted axis of the products of the row's and the
  column's entries; a vector cast to one row and broadcast down the rows is the vector at the column; a vector cast
  to one column and broadcast along the rows is the vector at the row; a sum and a maximum over the second axis of a
  matrix are the sum and the maximum of the row's entries.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibDense

open Idealize.ShloMosaic Idealize.ShloMosaic.ValueIdx

variable {α : Type} {M K N : Nat}

/-- A matrix product of an [M, K] by a [K, N] matrix into the zero accumulator, read at (p, q): the sum over the
    contracted coordinate k of x(p, k) · w(k, q). The four hypotheses say which operand coordinate each of the
    product's index maps takes from the output index and which from the contraction index. -/
theorem matmul_zero_rc {φ₁ φ₂ : FTy} (D : DotDims ⟨2, ![M, K]⟩ ⟨2, ![K, N]⟩ ⟨2, ![M, N]⟩) (hr : D.contr.rank = 1)
    (hs : D.contr.size ⟨0, by omega⟩ = K)
    (hl0 : ∀ (i : (⟨2, ![M, N]⟩ : Shape).Idx) (c : D.contr.Idx), (D.lhsIdx i c 0).val = (i 0).val)
    (hl1 : ∀ (i : (⟨2, ![M, N]⟩ : Shape).Idx) (c : D.contr.Idx), (D.lhsIdx i c 1).val = (c ⟨0, by omega⟩).val)
    (hr0 : ∀ (i : (⟨2, ![M, N]⟩ : Shape).Idx) (c : D.contr.Idx), (D.rhsIdx i c 0).val = (c ⟨0, by omega⟩).val)
    (hr1 : ∀ (i : (⟨2, ![M, N]⟩ : Shape).Idx) (c : D.contr.Idx), (D.rhsIdx i c 1).val = (i 1).val)
    (prec : Option ContractPrecision)
    (x : FVec Ideal ⟨2, ![M, K]⟩ φ₁) (w : FVec Ideal ⟨2, ![K, N]⟩ φ₂) (p : Fin M) (q : Fin N) :
    matmul D prec x w (constant ⟨2, ![M, N]⟩ .f32 0x00000000#32) (ix2 p q) = ∑ k : Fin K, x (ix2 p k) * w (ix2 k q) := by
  refine (Ideal.matmul_constant_zero_apply D prec x w (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- An [N] vector cast to one row [1, N] and broadcast to [M, N] reads, at (p, q), the vector at q. -/
theorem rowBroadcast_rc (b : (⟨1, ![N]⟩ : Shape).Idx → α) (h1 : (⟨1, ![N]⟩ : Shape).ShapeCasts ⟨2, ![1, N]⟩)
    (h2 : (⟨2, ![1, N]⟩ : Shape).Broadcasts ⟨2, ![M, N]⟩) (p : Fin M) (q : Fin N) :
    broadcastTo ⟨2, ![M, N]⟩ (shapeCast ⟨2, ![1, N]⟩ b h1) h2 (ix2 p q) = b (ix1 q) :=
  (broadcastTo_1b_ab_apply _ h2 p q).trans (shapeCast_a_1a_apply b h1 0 q)

/-- An [M] vector cast to one column [M, 1] reads, at (p, u), the vector at p. -/
theorem shapeCast_a_a1_apply (v : (⟨1, ![M]⟩ : Shape).Idx → α) (h : (⟨1, ![M]⟩ : Shape).ShapeCasts ⟨2, ![M, 1]⟩)
    (p : Fin M) (u : Fin 1) : shapeCast ⟨2, ![M, 1]⟩ v h (ix2 p u) = v (ix1 p) :=
  shapeCast_apply v h _ _ (by
    have hu : u.val = 0 := by omega
    rw [Shape.rowMajor_val_two, Shape.rowMajor_val_one]
    show p.val = p.val * 1 + u.val
    omega)

/-- An [M, 1] column cast to the [M] vector reads, at p, the column at (p, 0). -/
theorem shapeCast_a1_a_apply (v : (⟨2, ![M, 1]⟩ : Shape).Idx → α) (h : (⟨2, ![M, 1]⟩ : Shape).ShapeCasts ⟨1, ![M]⟩)
    (p : Fin M) : shapeCast ⟨1, ![M]⟩ v h (ix1 p) = v (ix2 p (0 : Fin 1)) :=
  shapeCast_apply v h _ _ (by
    rw [Shape.rowMajor_val_two, Shape.rowMajor_val_one]
    show p.val * 1 + 0 = p.val
    omega)

/-- An [M, 1] column broadcast along the rows to [M, N] reads, at (p, q), the column at (p, 0). -/
theorem broadcastTo_a1_ab_apply (v : (⟨2, ![M, 1]⟩ : Shape).Idx → α) (h : (⟨2, ![M, 1]⟩ : Shape).Broadcasts ⟨2, ![M, N]⟩)
    (p : Fin M) (q : Fin N) : broadcastTo ⟨2, ![M, N]⟩ v h (ix2 p q) = v (ix2 p (0 : Fin 1)) := by
  refine broadcastTo_apply v h (ix2 p q) (ix2 p (0 : Fin 1)) fun ax => ?_
  match ax with
  | ⟨0, _⟩ =>
    show p.val = if M = 1 then 0 else p.val
    split
    · have := p.isLt; omega
    · rfl
  | ⟨1, _⟩ => rfl

/-- An [M] vector cast to one column and broadcast along the rows to [M, N] reads, at (p, q), the vector at p. -/
theorem colBroadcast_rc (v : (⟨1, ![M]⟩ : Shape).Idx → α) (h1 : (⟨1, ![M]⟩ : Shape).ShapeCasts ⟨2, ![M, 1]⟩)
    (h2 : (⟨2, ![M, 1]⟩ : Shape).Broadcasts ⟨2, ![M, N]⟩) (p : Fin M) (q : Fin N) :
    broadcastTo ⟨2, ![M, N]⟩ (shapeCast ⟨2, ![M, 1]⟩ v h1) h2 (ix2 p q) = v (ix1 p) :=
  (broadcastTo_a1_ab_apply _ h2 p q).trans (shapeCast_a_a1_apply v h1 p 0)

/-- The index of an [M, N] matrix that drops to p when the second axis is reduced, with k put on that axis, is (p, k). -/
theorem lift_row (h : (⟨2, ![M, N]⟩ : Shape).Reduces [1] ⟨1, ![M]⟩) (p : Fin M) (k : Fin N) :
    h.lift (ix1 p) k = ix2 p k := by
  funext a
  apply Fin.ext
  match a with
  | ⟨0, _⟩ => rfl
  | ⟨1, _⟩ => rfl

/-- The sum over the second axis of an [M, N] matrix, read at row p: the sum of the row's entries. -/
theorem rowSum_apply (src : FVec Ideal ⟨2, ![M, N]⟩ .f32) (h : (⟨2, ![M, N]⟩ : Shape).Reduces [1] ⟨1, ![M]⟩)
    (hφ : FKind.Formats .f32) (hacc : (0x00000000#32 : BitVec 32) = 0x00000000#32) (p : Fin M) :
    multiReduction .add [1] ⟨1, ![M]⟩ src 0x00000000#32 h hφ hacc (ix1 p) = ∑ k : Fin N, src (ix2 p k) := by
  refine (Ideal.multiReduction_add_single src 0x00000000#32 h hφ hacc (ix1 p)).trans ?_
  exact Finset.sum_congr rfl fun k _ => congrArg src (lift_row h p k)

/-- The maximum over the second axis of an [M, N] matrix, read at row p: the fold of max, from minus infinity's
    pattern, over the row's entries. -/
theorem rowMax_apply (src : FVec Ideal ⟨2, ![M, N]⟩ .f32) (h : (⟨2, ![M, N]⟩ : Shape).Reduces [1] ⟨1, ![M]⟩)
    (hφ : FKind.Formats .f32) (hacc : (0xFF800000#32 : BitVec 32) = 0xFF800000#32) (p : Fin M) :
    multiReduction .maximumf [1] ⟨1, ![M]⟩ src 0xFF800000#32 h hφ hacc (ix1 p)
      = (Finset.univ : Finset (Fin N)).fold max (Ideal.ofBits .f32 0xFF800000#32) (fun k => src (ix2 p k)) := by
  refine (Ideal.multiReduction_maximumf_single src 0xFF800000#32 h hφ hacc (ix1 p)).trans ?_
  have e : (src ∘ h.lift (ix1 p)) = fun k => src (ix2 p k) := funext fun k => congrArg src (lift_row h p k)
  rw [e]
  rfl

/-- The host's reduction by maximum over the second axis of an [M, N] matrix, read at row p: the same fold, from the
    initial value's one element. -/
theorem hostRowMax_apply {u : Shape} (x : (⟨2, ![M, N]⟩ : Shape).Idx → EReal) (init : u.Idx → EReal)
    (h' : (⟨2, ![M, N]⟩ : Shape).ReducesTo [1] ⟨1, ![M]⟩) (h : (⟨2, ![M, N]⟩ : Shape).Reduces [1] ⟨1, ![M]⟩)
    (hu : 0 < u.numel) (p : Fin M) :
    Host.reduce (FloatOps.maximumf (F := Ideal) (φ := .f32)) x init h' hu (ix1 p)
      = (Finset.univ : Finset (Fin N)).fold max (init (Shape.Idx.first hu)) (fun k => x (ix2 p k)) := by
  refine (Host.reduce_eq_fold_single _ x init h' h hu (ix1 p)).trans ?_
  have e : (x ∘ h.lift (ix1 p)) = fun k => x (ix2 p k) := funext fun k => congrArg x (lift_row h p k)
  rw [e]
  rfl

/-! ## What a dense layer and a row softmax compute -/

/-- The f32 zero word's value (the rectifier's threshold and the sums' initial value). -/
abbrev zeroWord : EReal := Ideal.ofBits .f32 0x00000000#32

/-- Minus infinity's f32 word's value (the maximum's initial value). -/
abbrev negInfWord : EReal := Ideal.ofBits .f32 0xFF800000#32

/-- An affine map's entry: at (r, j), the sum over k of x(r, k) · w(k, j), plus b(j). -/
def affine (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal :=
  fun i => ∑ k : Fin K, x (ix2 (n0 := M) (n1 := K) ⟨(i 0).val, (i 0).isLt⟩ k) * w (ix2 (n0 := K) (n1 := N) k ⟨(i 1).val, (i 1).isLt⟩)
    + b (ix1 (n := N) ⟨(i 1).val, (i 1).isLt⟩)

theorem affine_apply (x : (⟨2, ![M, K]⟩ : Shape).Idx → EReal) (w : (⟨2, ![K, N]⟩ : Shape).Idx → EReal)
    (b : (⟨1, ![N]⟩ : Shape).Idx → EReal) (p : Fin M) (q : Fin N) :
    affine x w b (ix2 p q) = ∑ k : Fin K, x (ix2 p k) * w (ix2 k q) + b (ix1 q) := rfl

/-- One dense layer with the rectifier: the affine map's entry or the zero word's value, whichever is larger. -/
def layer (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal :=
  fun i => max (affine x w b i) zeroWord

theorem layer_apply (x : (⟨2, ![M, K]⟩ : Shape).Idx → EReal) (w : (⟨2, ![K, N]⟩ : Shape).Idx → EReal)
    (b : (⟨1, ![N]⟩ : Shape).Idx → EReal) (p : Fin M) (q : Fin N) :
    layer x w b (ix2 p q) = max (∑ k : Fin K, x (ix2 p k) * w (ix2 k q) + b (ix1 q)) zeroWord := rfl

/-- A row's largest logit as both programs take it: the fold of max from minus infinity's word over the row, once more
    against that word. -/
def rowTop (l : Fin N → EReal) : EReal := max negInfWord ((Finset.univ : Finset (Fin N)).fold max negInfWord l)

/-- A softmax row as both programs compute it: each logit less the row's largest, exponentiated, over the sum of those
    exponentials (the exact quotient of extended reals). -/
def softmaxRow (l : Fin N → EReal) (v : Fin N) : EReal :=
  Ideal.div (Ideal.exp (l v - rowTop l)) (∑ u : Fin N, Ideal.exp (l u - rowTop l))

end Cert.LibDense

end
-- ==== Proof.LibRowDot.lean ====
/-
  General facts, at the exact instance (floats as extended reals), about a matrix product whose two operands are both
  contracted along their SECOND axis (x of [M, K] against w of [N, K], the product x · wᵀ of [M, N]), read at an index
  written by its coordinates, and about one row broadcast down a matrix.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibRowDot

open Idealize.ShloMosaic Idealize.ShloMosaic.ValueIdx

variable {α : Type} {M K N : Nat}

/-- A matrix product of an [M, K] matrix by the transpose of an [N, K] matrix into the zero accumulator, read at
    (p, q): the sum over the contracted coordinate k of x(p, k) · w(q, k). The four hypotheses say which operand
    coordinate each of the product's index maps takes from the output index and which from the contraction index. -/
theorem matmul_zero_rr {φ₁ φ₂ : FTy} (D : DotDims ⟨2, ![M, K]⟩ ⟨2, ![N, K]⟩ ⟨2, ![M, N]⟩) (hr : D.contr.rank = 1)
    (hs : D.contr.size ⟨0, by omega⟩ = K)
    (hl0 : ∀ (i : (⟨2, ![M, N]⟩ : Shape).Idx) (c : D.contr.Idx), (D.lhsIdx i c 0).val = (i 0).val)
    (hl1 : ∀ (i : (⟨2, ![M, N]⟩ : Shape).Idx) (c : D.contr.Idx), (D.lhsIdx i c 1).val = (c ⟨0, by omega⟩).val)
    (hr0 : ∀ (i : (⟨2, ![M, N]⟩ : Shape).Idx) (c : D.contr.Idx), (D.rhsIdx i c 0).val = (i 1).val)
    (hr1 : ∀ (i : (⟨2, ![M, N]⟩ : Shape).Idx) (c : D.contr.Idx), (D.rhsIdx i c 1).val = (c ⟨0, by omega⟩).val)
    (prec : Option ContractPrecision)
    (x : FVec Ideal ⟨2, ![M, K]⟩ φ₁) (w : FVec Ideal ⟨2, ![N, K]⟩ φ₂) (p : Fin M) (q : Fin N) :
    matmul D prec x w (constant ⟨2, ![M, N]⟩ .f32 0x00000000#32) (ix2 p q) = ∑ k : Fin K, x (ix2 p k) * w (ix2 q k) := by
  refine (Ideal.matmul_constant_zero_apply D prec x w (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 q k := funext fun a => Fin.ext (by
    match a with
    | ⟨0, _⟩ => exact hr0 _ _
    | ⟨1, _⟩ => exact (hr1 _ _).trans hk)
  rw [el, er]

/-- A [1, N] row, cast to its own shape and broadcast down to [M, N], reads at (p, q) the row at (0, q). -/
theorem rowDown_rc (v : (⟨2, ![1, N]⟩ : Shape).Idx → α) (h1 : (⟨2, ![1, N]⟩ : Shape).ShapeCasts ⟨2, ![1, N]⟩)
    (h2 : (⟨2, ![1, N]⟩ : Shape).Broadcasts ⟨2, ![M, N]⟩) (p : Fin M) (q : Fin N) :
    broadcastTo ⟨2, ![M, N]⟩ (shapeCast ⟨2, ![1, N]⟩ v h1) h2 (ix2 p q) = v (ix2 (0 : Fin 1) q) := by
  rw [shapeCast_self]
  exact broadcastTo_1b_ab_apply v h2 p q

end Cert.LibRowDot

end
-- ==== Proof.KLayer.lean ====
/-
  The kernel's vector operations of one layer, read at an index.

  Three facts about the matrix products the body uses (a product with the transpose of a weight matrix, and a product of
  a 2048 × 512 distance tile with 512 rows of the scaled features), the column sum over the 2048 nodes, and then the two
  halves of a layer as vector expressions over arbitrary operands:
    * the pre-activation  dinv · (Σ over four tiles) + dinv² · g + bias  at (n, e) is the blocked aggregation of the
      specification over the four tiles laid side by side, plus the bias;
    * the column normalisation of an activation array at (n, e) is the specification's normalisation of its entries.
-/
import proofs.«155582_j41644002902305_2_alg».proof.Proof.Gen.KernelIdeal.Skeleton
import proofs.«155582_j41644002902305_2_alg».proof.Proof.Spec
import proofs.«155582_j41644002902305_2_alg».proof.Proof.LibDense
import proofs.«155582_j41644002902305_2_alg».proof.Proof.LibRowDot
import Idealize.ShloMosaic.Lib.ValueIdx
import Idealize.ShloMosaic.Lib.ValueLayout
import Idealize.ShloMosaic.Lib.Pipeline.Value
import Idealize.ShloMosaic.PureOps.Ideal.Laws

noncomputable section

namespace Cert.Gnn.KLayer

open Cert.KernelIdeal Cert.KernelIdeal.Facts₀ Idealize.ShloMosaic Idealize.ShloMosaic.ValueIdx Cert.Gnn
open scoped BigOperators

variable [Cert.KernelIdeal.Facts]

/-! ## The three matrix products -/

/-- x · wᵀ for the input projection: at (p, q), Σ_k x(p, k) · w(q, k) over the two coordinates. -/
theorem proj_apply (x : FVec Ideal S2048x2 .f32) (w : FVec Ideal S128x2 .f32) (p : Fin 2048) (q : Fin 128) :
    matmul dot_S2048x2_S128x2_S2048x128_1_1_0_0_n_n none x w (constant S2048x128 .f32 0x00000000#32) (ix2 p q)
      = ∑ k : Fin 2, x (ix2 p k) * w (ix2 q k) := by
  refine Cert.LibRowDot.matmul_zero_rr (M := 2048) (K := 2) (N := 128) dot_S2048x2_S128x2_S2048x128_1_1_0_0_n_n rfl rfl
    (fun i c => ?_) (fun i c => ?_) (fun i c => ?_) (fun i c => ?_) none x w p q
  · unfold DotDims.lhsIdx
    rw [dif_neg (show ¬(0 : Fin S2048x2.rank) ∈ dot_S2048x2_S128x2_S2048x128_1_1_0_0_n_n.lhsBatch by decide),
      dif_pos (show (0 : Fin S2048x2.rank) ∈ dot_S2048x2_S128x2_S2048x128_1_1_0_0_n_n.lhsNonContracting by decide)]
    rfl
  · exact dot_S2048x2_S128x2_S2048x128_1_1_0_0_n_n.lhsIdx_val_of_single rfl i c
  · unfold DotDims.rhsIdx
    rw [dif_neg (show ¬(0 : Fin S128x2.rank) ∈ dot_S2048x2_S128x2_S2048x128_1_1_0_0_n_n.rhsBatch by decide),
      dif_pos (show (0 : Fin S128x2.rank) ∈ dot_S2048x2_S128x2_S2048x128_1_1_0_0_n_n.rhsNonContracting by decide)]
    rfl
  · exact dot_S2048x2_S128x2_S2048x128_1_1_0_0_n_n.rhsIdx_val_of_single rfl i c

/-- h · Wᵀ for a layer's linear map: at (p, q), Σ_k h(p, k) · W(q, k) over the 128 features. -/
theorem lin_apply (x : FVec Ideal S2048x128 .f32) (w : FVec Ideal S128x128 .f32) (p : Fin 2048) (q : Fin 128) :
    matmul dot_S2048x128_S128x128_S2048x128_1_1_0_0_n_n none x w (constant S2048x128 .f32 0x00000000#32) (ix2 p q)
      = ∑ k : Fin 128, x (ix2 p k) * w (ix2 q k) := by
  refine Cert.LibRowDot.matmul_zero_rr (M := 2048) (K := 128) (N := 128) dot_S2048x128_S128x128_S2048x128_1_1_0_0_n_n rfl rfl
    (fun i c => ?_) (fun i c => ?_) (fun i c => ?_) (fun i c => ?_) none x w p q
  · unfold DotDims.lhsIdx
    rw [dif_neg (show ¬(0 : Fin S2048x128.rank) ∈ dot_S2048x128_S128x128_S2048x128_1_1_0_0_n_n.lhsBatch by decide),
      dif_pos (show (0 : Fin S2048x128.rank) ∈ dot_S2048x128_S128x128_S2048x128_1_1_0_0_n_n.lhsNonContracting by decide)]
    rfl
  · exact dot_S2048x128_S128x128_S2048x128_1_1_0_0_n_n.lhsIdx_val_of_single rfl i c
  · unfold DotDims.rhsIdx
    rw [dif_neg (show ¬(0 : Fin S128x128.rank) ∈ dot_S2048x128_S128x128_S2048x128_1_1_0_0_n_n.rhsBatch by decide),
      dif_pos (show (0 : Fin S128x128.rank) ∈ dot_S2048x128_S128x128_S2048x128_1_1_0_0_n_n.rhsNonContracting by decide)]
    rfl
  · exact dot_S2048x128_S128x128_S2048x128_1_1_0_0_n_n.rhsIdx_val_of_single rfl i c

/-- A distance tile times 512 rows: at (p, q), Σ_k T(p, k) · g(k, q) over the tile's 512 columns. -/
theorem tileMat_apply (T : FVec Ideal S2048x512 .f32) (g : FVec Ideal S512x128 .f32) (p : Fin 2048) (q : Fin 128) :
    matmul dot_S2048x512_S512x128_S2048x128_1_0_0_1_n_n (some .fp32) T g (constant S2048x128 .f32 0x00000000#32) (ix2 p q)
      = ∑ k : Fin 512, T (ix2 p k) * g (ix2 k q) := by
  refine Cert.LibDense.matmul_zero_rc (M := 2048) (K := 512) (N := 128) dot_S2048x512_S512x128_S2048x128_1_0_0_1_n_n rfl rfl
    (fun i c => ?_) (fun i c => ?_) (fun i c => ?_) (fun i c => ?_) (some .fp32) T g p q
  · unfold DotDims.lhsIdx
    rw [dif_neg (show ¬(0 : Fin S2048x512.rank) ∈ dot_S2048x512_S512x128_S2048x128_1_0_0_1_n_n.lhsBatch by decide),
      dif_pos (show (0 : Fin S2048x512.rank) ∈ dot_S2048x512_S512x128_S2048x128_1_0_0_1_n_n.lhsNonContracting by decide)]
    rfl
  · exact dot_S2048x512_S512x128_S2048x128_1_0_0_1_n_n.lhsIdx_val_of_single rfl i c
  · exact dot_S2048x512_S512x128_S2048x128_1_0_0_1_n_n.rhsIdx_val_of_single rfl i c
  · unfold DotDims.rhsIdx
    rw [dif_neg (show ¬(1 : Fin S512x128.rank) ∈ dot_S2048x512_S512x128_S2048x128_1_0_0_1_n_n.rhsBatch by decide),
      dif_pos (show (1 : Fin S512x128.rank) ∈ dot_S2048x512_S512x128_S2048x128_1_0_0_1_n_n.rhsNonContracting by decide)]
    rfl

/-- 512 consecutive rows of a 2048 × 128 array, starting at row off, read at (k, q): the array at (off + k, q). -/
theorem rows_apply (g : FVec Ideal S2048x128 .f32) (off : Nat) (hs : S2048x128.Slices ![off, 0] S512x128)
    (hoff : off + 512 ≤ 2048) (k : Fin 512) (q : Fin 128) :
    extractStridedSlice S512x128 ![off, 0] g hs (ix2 k q) = g (ix2 ⟨off + k.val, by omega⟩ q) := by
  refine extractStridedSlice_apply _ g hs (ix2 k q) (ix2 ⟨off + k.val, by omega⟩ q) (fun a => ?_)
  match a with
  | ⟨0, _⟩ => rfl
  | ⟨1, _⟩ => show q.val = 0 + q.val; omega

/-- The sum over the 2048 nodes of a 2048 × 128 array, read at column q. -/
theorem colSum_apply (v : FVec Ideal S2048x128 .f32) (q : Fin 128) :
    multiReduction .add [0] S128 v 0x00000000#32 reduces_S2048x128_S128 (.inl rfl) rfl (ix1 q)
      = ∑ n : Fin 2048, v (ix2 n q) := by
  refine (Ideal.multiReduction_add_single v 0x00000000#32 reduces_S2048x128_S128 (.inl rfl) rfl (ix1 q)).trans ?_
  refine Finset.sum_congr rfl fun n _ => congrArg v (funext fun a => Fin.ext ?_)
  match a with
  | ⟨0, _⟩ => rfl
  | ⟨1, _⟩ => rfl

/-! ## Four tiles side by side -/

/-- The 2048 × 2048 array whose four 2048 × 512 column blocks are the given tiles. -/
def tilesOf (T0 T1 T2 T3 : FVec Ideal S2048x512 .f32) (n m : Fin 2048) : EReal :=
  if h0 : m.val < 512 then T0 (ix2 n ⟨m.val, h0⟩)
  else if h1 : m.val < 1024 then T1 (ix2 n ⟨m.val - 512, by omega⟩)
  else if h2 : m.val < 1536 then T2 (ix2 n ⟨m.val - 1024, by omega⟩)
  else T3 (ix2 n ⟨m.val - 1536, by have := m.isLt; omega⟩)

theorem blk_val (j : Fin 4) (k : Fin 512) : (blk j k).val = 512 * j.val + k.val := rfl

theorem tilesOf_blk0 (T0 T1 T2 T3 : FVec Ideal S2048x512 .f32) (n : Fin 2048) (k : Fin 512) :
    tilesOf T0 T1 T2 T3 n (blk 0 k) = T0 (ix2 n k) := by
  have hk := k.isLt
  have hv : (blk 0 k).val = k.val := by rw [blk_val]; show 512 * 0 + k.val = k.val; omega
  unfold tilesOf
  rw [dif_pos (by omega)]
  exact congrArg (fun j => T0 (ix2 n j)) (Fin.ext hv)

theorem tilesOf_blk1 (T0 T1 T2 T3 : FVec Ideal S2048x512 .f32) (n : Fin 2048) (k : Fin 512) :
    tilesOf T0 T1 T2 T3 n (blk 1 k) = T1 (ix2 n k) := by
  have hk := k.isLt
  have hv : (blk 1 k).val = 512 + k.val := by rw [blk_val]; show 512 * 1 + k.val = 512 + k.val; omega
  unfold tilesOf
  rw [dif_neg (by omega), dif_pos (by omega)]
  exact congrArg (fun j => T1 (ix2 n j)) (Fin.ext (by show (blk 1 k).val - 512 = k.val; omega))

theorem tilesOf_blk2 (T0 T1 T2 T3 : FVec Ideal S2048x512 .f32) (n : Fin 2048) (k : Fin 512) :
    tilesOf T0 T1 T2 T3 n (blk 2 k) = T2 (ix2 n k) := by
  have hk := k.isLt
  have hv : (blk 2 k).val = 1024 + k.val := by rw [blk_val]; show 512 * 2 + k.val = 1024 + k.val; omega
  unfold tilesOf
  rw [dif_neg (by omega), dif_neg (by omega), dif_pos (by omega)]
  exact congrArg (fun j => T2 (ix2 n j)) (Fin.ext (by show (blk 2 k).val - 1024 = k.val; omega))

theorem tilesOf_blk3 (T0 T1 T2 T3 : FVec Ideal S2048x512 .f32) (n : Fin 2048) (k : Fin 512) :
    tilesOf T0 T1 T2 T3 n (blk 3 k) = T3 (ix2 n k) := by
  have hk := k.isLt
  have hv : (blk 3 k).val = 1536 + k.val := by rw [blk_val]; show 512 * 3 + k.val = 1536 + k.val; omega
  unfold tilesOf
  rw [dif_neg (by omega), dif_neg (by omega), dif_neg (by omega)]
  exact congrArg (fun j => T3 (ix2 n j)) (Fin.ext (by show (blk 3 k).val - 1536 = k.val; omega))

/-- Row off + k of the 2048, off a multiple of 512, is node k of that block. -/
theorem mk_blk (j : Fin 4) (k : Fin 512) (off : Nat) (h : off = 512 * j.val) (hlt : off + k.val < 2048) :
    (⟨off + k.val, hlt⟩ : Fin 2048) = blk j k := Fin.ext (by show off + k.val = (blk j k).val; rw [blk_val, h])

/-! ## The pre-activation -/

/-- The pre-activation as the body's vector expression over arbitrary tiles T0 … T3, inverse-root degrees dv (a column),
    features g and bias b:  dv · (((0 + T0·(g·dv)[0:512]) + T1·(g·dv)[512:1024]) + …) + (dv·dv) · g + b. -/
def hwV (T0 T1 T2 T3 : FVec Ideal S2048x512 .f32) (dv : FVec Ideal S2048x1 .f32) (g : FVec Ideal S2048x128 .f32)
    (b : FVec Ideal S128 .f32) : FVec Ideal S2048x128 .f32 :=
  addf (addf (mulf (broadcastTo S2048x128 dv broadcasts_S2048x1_S2048x128)
      (addf (addf (addf (addf (broadcast S2048x128 (Scalar.ofBits .f32 0x00000000#32))
        (matmul dot_S2048x512_S512x128_S2048x128_1_0_0_1_n_n (some .fp32) T0 (extractStridedSlice S512x128 ![0, 0] (mulf g (broadcastTo S2048x128 dv broadcasts_S2048x1_S2048x128)) slices_S2048x128_o0_0_S512x128) (constant S2048x128 .f32 0x00000000#32)))
        (matmul dot_S2048x512_S512x128_S2048x128_1_0_0_1_n_n (some .fp32) T1 (extractStridedSlice S512x128 ![512, 0] (mulf g (broadcastTo S2048x128 dv broadcasts_S2048x1_S2048x128)) slices_S2048x128_o512_0_S512x128) (constant S2048x128 .f32 0x00000000#32)))
        (matmul dot_S2048x512_S512x128_S2048x128_1_0_0_1_n_n (some .fp32) T2 (extractStridedSlice S512x128 ![1024, 0] (mulf g (broadcastTo S2048x128 dv broadcasts_S2048x1_S2048x128)) slices_S2048x128_o1024_0_S512x128) (constant S2048x128 .f32 0x00000000#32)))
        (matmul dot_S2048x512_S512x128_S2048x128_1_0_0_1_n_n (some .fp32) T3 (extractStridedSlice S512x128 ![1536, 0] (mulf g (broadcastTo S2048x128 dv broadcasts_S2048x1_S2048x128)) slices_S2048x128_o1536_0_S512x128) (constant S2048x128 .f32 0x00000000#32))))
    (mulf (broadcastTo S2048x128 (mulf dv dv) broadcasts_S2048x1_S2048x128) g))
    (broadcastTo S2048x128 (shapeCast S1x128 b shapeCasts_S128_S1x128) broadcasts_S1x128_S2048x128)

/-- One tile's product with its 512 rows of the scaled features, at (n, e). -/
theorem tileTerm_apply (T : FVec Ideal S2048x512 .f32) (dv : FVec Ideal S2048x1 .f32) (g : FVec Ideal S2048x128 .f32)
    (off : Nat) (hs : S2048x128.Slices ![off, 0] S512x128) (hoff : off + 512 ≤ 2048) (n : Fin 2048) (e : Fin 128) :
    matmul dot_S2048x512_S512x128_S2048x128_1_0_0_1_n_n (some .fp32) T
        (extractStridedSlice S512x128 ![off, 0] (mulf g (broadcastTo S2048x128 dv broadcasts_S2048x1_S2048x128)) hs)
        (constant S2048x128 .f32 0x00000000#32) (ix2 n e)
      = ∑ k : Fin 512, T (ix2 n k) * (g (ix2 ⟨off + k.val, by have := k.isLt; omega⟩ e) * dv (ix2 ⟨off + k.val, by have := k.isLt; omega⟩ (0 : Fin 1))) := by
  rw [tileMat_apply]
  refine Finset.sum_congr rfl fun k _ => ?_
  rw [rows_apply _ off hs hoff, mulf_apply, Cert.LibDense.broadcastTo_a1_ab_apply]

theorem hwV_apply (T0 T1 T2 T3 : FVec Ideal S2048x512 .f32) (dv : FVec Ideal S2048x1 .f32) (g : FVec Ideal S2048x128 .f32)
    (b : FVec Ideal S128 .f32) (n : Fin 2048) (e : Fin 128) :
    hwV T0 T1 T2 T3 dv g b (ix2 n e)
      = aggK (tilesOf T0 T1 T2 T3) (fun n => dv (ix2 n (0 : Fin 1))) (fun n e => g (ix2 n e)) n e + b (ix1 e) := by
  have hz : Scalar.ofBits (F := Ideal) .f32 0x00000000#32 = 0 := Ideal.ofBits_zero_f32
  unfold hwV
  simp only [addf_apply, mulf_apply, broadcast_apply, Cert.LibDense.broadcastTo_a1_ab_apply, Cert.LibDense.rowBroadcast_rc]
  rw [tileTerm_apply T0 dv g 0 _ (by omega), tileTerm_apply T1 dv g 512 _ (by omega),
    tileTerm_apply T2 dv g 1024 _ (by omega), tileTerm_apply T3 dv g 1536 _ (by omega), hz, zero_add]
  simp only [mk_blk 0 _ 0 rfl, mk_blk 1 _ 512 rfl, mk_blk 2 _ 1024 rfl, mk_blk 3 _ 1536 rfl]
  unfold aggK aggBlk
  simp only [tilesOf_blk0, tilesOf_blk1, tilesOf_blk2, tilesOf_blk3]

/-! ## The column normalisation -/

/-- The normalisation of an activation array, on entries. -/
def normE (gw gb ga : Fin 128 → EReal) (a : Fin 2048 → Fin 128 → EReal) (n : Fin 2048) (e : Fin 128) : EReal :=
  (gw e * (a n e - ga e * Ideal.div (∑ n' : Fin 2048, a n' e) wRows))
      * Ideal.rsqrt (Ideal.div (∑ n' : Fin 2048, (a n' e - ga e * Ideal.div (∑ n'' : Fin 2048, a n'' e) wRows)
          * (a n' e - ga e * Ideal.div (∑ n'' : Fin 2048, a n'' e) wRows)) wRows + wEps)
    + gb e

theorem post_eq_normE (bgl gw gb ga : Fin 128 → EReal) (agg h : Fin 2048 → Fin 128 → EReal) :
    post bgl gw gb ga agg h = normE gw gb ga (act bgl agg h) := rfl

/-- What is left of the activations after gna · (column mean) is taken away, as the body's vector expression. -/
def subV (ga : FVec Ideal S128 .f32) (a : FVec Ideal S2048x128 .f32) : FVec Ideal S2048x128 .f32 :=
  subf a (broadcastTo S2048x128 (mulf (shapeCast S1x128 ga shapeCasts_S128_S1x128)
    (divf (shapeCast S1x128 (multiReduction .add [0] S128 a 0x00000000#32 reduces_S2048x128_S128 (.inl rfl) rfl) shapeCasts_S128_S1x128)
      (broadcast S1x128 (Scalar.ofBits .f32 0x45000000#32)))) broadcasts_S1x128_S2048x128)

/-- The inverse root of the column mean square plus the small constant, a [1, 128] row. -/
def rstdV (s : FVec Ideal S2048x128 .f32) : FVec Ideal S1x128 .f32 :=
  rsqrt (addf (divf (shapeCast S1x128 (multiReduction .add [0] S128 (mulf s s) 0x00000000#32 reduces_S2048x128_S128 (.inl rfl) rfl) shapeCasts_S128_S1x128)
    (broadcast S1x128 (Scalar.ofBits .f32 0x45000000#32))) (broadcast S1x128 (Scalar.ofBits .f32 0x3727C5AC#32)))

/-- The whole normalisation as the body's vector expression. -/
def normV (gw gb ga : FVec Ideal S128 .f32) (a : FVec Ideal S2048x128 .f32) : FVec Ideal S2048x128 .f32 :=
  addf (mulf (mulf (broadcastTo S2048x128 (shapeCast S1x128 gw shapeCasts_S128_S1x128) broadcasts_S1x128_S2048x128) (subV ga a))
      (broadcastTo S2048x128 (rstdV (subV ga a)) broadcasts_S1x128_S2048x128))
    (broadcastTo S2048x128 (shapeCast S1x128 gb shapeCasts_S128_S1x128) broadcasts_S1x128_S2048x128)

theorem rsqrtV_apply {s : Shape} (v : FVec Ideal s .f32) (i : s.Idx) : rsqrt v i = Ideal.rsqrt (v i) := rfl
theorem tanhV_apply {s : Shape} (v : FVec Ideal s .f32) (i : s.Idx) : tanh v i = Ideal.tanh (v i) := rfl

theorem subV_apply (ga : FVec Ideal S128 .f32) (a : FVec Ideal S2048x128 .f32) (n : Fin 2048) (e : Fin 128) :
    subV ga a (ix2 n e) = a (ix2 n e) - ga (ix1 e) * Ideal.div (∑ n' : Fin 2048, a (ix2 n' e)) wRows := by
  unfold subV
  rw [subf_apply, broadcastTo_1b_ab_apply, mulf_apply, divf_apply, shapeCast_a_1a_apply, shapeCast_a_1a_apply, colSum_apply]
  rfl

theorem rstdV_apply (s : FVec Ideal S2048x128 .f32) (e : Fin 128) :
    rstdV s (ix2 (0 : Fin 1) e) = Ideal.rsqrt (Ideal.div (∑ n' : Fin 2048, s (ix2 n' e) * s (ix2 n' e)) wRows + wEps) := by
  unfold rstdV
  rw [rsqrtV_apply, addf_apply, divf_apply, shapeCast_a_1a_apply, colSum_apply]
  rfl

theorem normV_apply (gw gb ga : FVec Ideal S128 .f32) (a : FVec Ideal S2048x128 .f32) (n : Fin 2048) (e : Fin 128) :
    normV gw gb ga a (ix2 n e)
      = normE (fun e => gw (ix1 e)) (fun e => gb (ix1 e)) (fun e => ga (ix1 e)) (fun n e => a (ix2 n e)) n e := by
  unfold normV
  rw [addf_apply, mulf_apply, mulf_apply, Cert.LibDense.rowBroadcast_rc, Cert.LibDense.rowBroadcast_rc, broadcastTo_1b_ab_apply,
    rstdV_apply, subV_apply]
  simp only [subV_apply]
  rfl

/-! ## One layer -/

/-- One layer as the body's vector expression: the linear map, the pre-activation, tanh and the residual, the
    normalisation. -/
def layerV (T0 T1 T2 T3 : FVec Ideal S2048x512 .f32) (dv : FVec Ideal S2048x1 .f32) (W : FVec Ideal S128x128 .f32)
    (b gw gb ga : FVec Ideal S128 .f32) (h : FVec Ideal S2048x128 .f32) : FVec Ideal S2048x128 .f32 :=
  normV gw gb ga (addf (tanh (hwV T0 T1 T2 T3 dv
    (matmul dot_S2048x128_S128x128_S2048x128_1_1_0_0_n_n none h W (constant S2048x128 .f32 0x00000000#32)) b)) h)

theorem layerV_apply (T0 T1 T2 T3 : FVec Ideal S2048x512 .f32) (dv : FVec Ideal S2048x1 .f32) (W : FVec Ideal S128x128 .f32)
    (b gw gb ga : FVec Ideal S128 .f32) (h : FVec Ideal S2048x128 .f32) (n : Fin 2048) (e : Fin 128) :
    layerV T0 T1 T2 T3 dv W b gw gb ga h (ix2 n e)
      = layerK (tilesOf T0 T1 T2 T3) (fun n => dv (ix2 n (0 : Fin 1))) (fun e k => W (ix2 e k)) (fun e => b (ix1 e))
          (fun e => gw (ix1 e)) (fun e => gb (ix1 e)) (fun e => ga (ix1 e)) (fun n k => h (ix2 n k)) n e := by
  unfold layerV
  rw [normV_apply]
  have hact : (fun n e => (addf (tanh (hwV T0 T1 T2 T3 dv
        (matmul dot_S2048x128_S128x128_S2048x128_1_1_0_0_n_n none h W (constant S2048x128 .f32 0x00000000#32)) b)) h) (ix2 n e))
      = act (fun e => b (ix1 e)) (aggK (tilesOf T0 T1 T2 T3) (fun n => dv (ix2 n (0 : Fin 1)))
          (lin (fun e k => W (ix2 e k)) (fun n k => h (ix2 n k)))) (fun n k => h (ix2 n k)) := by
    funext n e
    rw [addf_apply, tanhV_apply, hwV_apply]
    have hl : (fun n e => (matmul dot_S2048x128_S128x128_S2048x128_1_1_0_0_n_n none h W (constant S2048x128 .f32 0x00000000#32)) (ix2 n e))
        = lin (fun e k => W (ix2 e k)) (fun n k => h (ix2 n k)) := by
      funext n e
      exact lin_apply h W n e
    rw [hl]
    rfl
  rw [hact]
  rfl

end Cert.Gnn.KLayer

end
-- ==== Proof.KDist.lean ====
/-
  The kernel's distance tiles and its inverse-root degree, read at an index.

  The kernel cuts the 2048 × 2048 matrix of edge weights into four tiles of 512 columns. Each tile is one vector
  expression in the two coordinate columns, the column of squared lengths and their transposes, taken at the tile's column
  offset: at (p, q) it is the guarded root of  |x_p|² + |x_m|² − 2·⟨x_p, x_m⟩  with m = offset + q, which is the edge
  weight dist(p, m) of the specification. The degree is the four tiles' row sums added one after the other onto a zero
  column, plus the self-loop's 1; its inverse root is the specification's blocked dinvK.
-/
import proofs.«155582_j41644002902305_2_alg».proof.Proof.Gen.KernelIdeal.Skeleton
import proofs.«155582_j41644002902305_2_alg».proof.Proof.Spec
import proofs.«155582_j41644002902305_2_alg».proof.Proof.LibDense
import Idealize.ShloMosaic.Lib.ValueIdx
import Idealize.ShloMosaic.Lib.ValueLayout
import Idealize.ShloMosaic.Lib.Pipeline.Value
import Idealize.ShloMosaic.PureOps.Ideal.Laws

noncomputable section

namespace Cert.Gnn.KDist

open Cert.KernelIdeal Cert.KernelIdeal.Gen Cert.KernelIdeal.Facts₀ Idealize.ShloMosaic Idealize.ShloMosaic.ValueIdx Cert.Gnn
open scoped BigOperators

variable [Cert.KernelIdeal.Facts]

/-- The coordinates of the graph's nodes, read out of the loaded block. -/
def Xof (P : Vec Ideal S1x2048x2 .f32) : Fin 2048 → Fin 2 → EReal := fun n k => P (ix3 (0 : Fin 1) n k)

/-- The number under the guarded root, as one vector expression over the two coordinate columns c0, c1, the column of
    squared lengths s, their transposes r0, r1, rs, and the column offset of the tile. -/
def tileD (c0 c1 s : FVec Ideal S2048x1 .f32) (r0 r1 rs : FVec Ideal S1x2048 .f32) (off : Nat)
    (hs : S1x2048.Slices ![0, off] S1x512) : FVec Ideal S2048x512 .f32 :=
  subf
    (addf (broadcastTo S2048x512 s Facts₀.broadcasts_S2048x1_S2048x512)
      (broadcastTo S2048x512 (extractStridedSlice S1x512 ![0, off] rs hs) Facts₀.broadcasts_S1x512_S2048x512))
    (mulf (broadcast S2048x512 (Scalar.ofBits .f32 0x40000000#32))
      (addf
        (mulf (broadcastTo S2048x512 c0 Facts₀.broadcasts_S2048x1_S2048x512)
          (broadcastTo S2048x512 (extractStridedSlice S1x512 ![0, off] r0 hs) Facts₀.broadcasts_S1x512_S2048x512))
        (mulf (broadcastTo S2048x512 c1 Facts₀.broadcasts_S2048x1_S2048x512)
          (broadcastTo S2048x512 (extractStridedSlice S1x512 ![0, off] r1 hs) Facts₀.broadcasts_S1x512_S2048x512))))

/-- The number under the root at (p, q) of the tile at offset off: with m = off + q the node the column stands for,
    s(p) + rs(m) − 2 · (c0(p) · r0(m) + c1(p) · r1(m)). -/
theorem tileD_apply (c0 c1 s : FVec Ideal S2048x1 .f32) (r0 r1 rs : FVec Ideal S1x2048 .f32) (off : Nat)
    (hs : S1x2048.Slices ![0, off] S1x512) (p : Fin 2048) (q : Fin 512) (m : Fin 2048) (hm : m.val = off + q.val) :
    tileD c0 c1 s r0 r1 rs off hs (ix2 p q)
      = (s (ix2 p (0 : Fin 1)) + rs (ix2 (0 : Fin 1) m))
        - wTwo * (c0 (ix2 p (0 : Fin 1)) * r0 (ix2 (0 : Fin 1) m) + c1 (ix2 p (0 : Fin 1)) * r1 (ix2 (0 : Fin 1) m)) := by
  unfold tileD
  simp only [subf_apply, addf_apply, mulf_apply, broadcast_apply]
  rw [LibDense.broadcastTo_a1_ab_apply s, LibDense.broadcastTo_a1_ab_apply c0, LibDense.broadcastTo_a1_ab_apply c1,
    broadcastTo_1b_ab_apply, broadcastTo_1b_ab_apply, broadcastTo_1b_ab_apply,
    slice2_axis1_apply off rs hs 0 q m hm, slice2_axis1_apply off r0 hs 0 q m hm, slice2_axis1_apply off r1 hs 0 q m hm]
  rfl

/-- The guarded root of a tile, read at an index, is the guarded root of the number there. -/
theorem guard_apply (d : FVec Ideal S2048x512 .f32) (i : S2048x512.Idx) :
    select (cmpf .ogt d (broadcast S2048x512 (Scalar.ofBits .f32 0x00000000#32)))
        (sqrt (select (cmpf .ogt d (broadcast S2048x512 (Scalar.ofBits .f32 0x00000000#32))) d
          (broadcast S2048x512 (Scalar.ofBits .f32 0x3F800000#32))))
        (broadcast S2048x512 (Scalar.ofBits .f32 0x00000000#32)) i = distE (d i) := rfl

/-! ## The coordinate columns and their transposes -/

variable (P : Vec Ideal S1x2048x2 .f32)

theorem col0_apply (p : Fin 2048) : k0_pay3 P (ix2 p (0 : Fin 1)) = Xof P p 0 := by
  unfold k0_pay3 k0_pay2
  exact (slice2_axis1_apply 0 _ Facts₀.slices_S2048x2_o0_0_S2048x1 p (0 : Fin 1) (0 : Fin 2) rfl).trans
    (shapeCast_1ab_ab_apply P Facts₀.shapeCasts_S1x2048x2_S2048x2 p 0)

theorem col1_apply (p : Fin 2048) : k0_pay4 P (ix2 p (0 : Fin 1)) = Xof P p 1 := by
  unfold k0_pay4 k0_pay2
  exact (slice2_axis1_apply 1 _ Facts₀.slices_S2048x2_o0_1_S2048x1 p (0 : Fin 1) (1 : Fin 2) rfl).trans
    (shapeCast_1ab_ab_apply P Facts₀.shapeCasts_S1x2048x2_S2048x2 p 1)

theorem colS_apply (p : Fin 2048) : k0_pay5 P (ix2 p (0 : Fin 1)) = sqn (Xof P) p := by
  show k0_pay3 P (ix2 p (0 : Fin 1)) * k0_pay3 P (ix2 p (0 : Fin 1))
    + k0_pay4 P (ix2 p (0 : Fin 1)) * k0_pay4 P (ix2 p (0 : Fin 1)) = _
  rw [col0_apply, col1_apply]
  rfl

theorem row0_apply (m : Fin 2048) : k0_pay6 P (ix2 (0 : Fin 1) m) = Xof P m 0 := by
  unfold k0_pay6
  exact (transpose_ix2_apply (k0_pay3 P) Facts₀.transposes_S2048x1_p1_0_S1x2048 (0 : Fin 1) m).trans (col0_apply P m)

theorem row1_apply (m : Fin 2048) : k0_pay7 P (ix2 (0 : Fin 1) m) = Xof P m 1 := by
  unfold k0_pay7
  exact (transpose_ix2_apply (k0_pay4 P) Facts₀.transposes_S2048x1_p1_0_S1x2048 (0 : Fin 1) m).trans (col1_apply P m)

theorem rowS_apply (m : Fin 2048) : k0_pay8 P (ix2 (0 : Fin 1) m) = sqn (Xof P) m := by
  unfold k0_pay8
  exact (transpose_ix2_apply (k0_pay5 P) Facts₀.transposes_S2048x1_p1_0_S1x2048 (0 : Fin 1) m).trans (colS_apply P m)

/-- The tile at offset off of the kernel's own columns and rows, at (p, q), is the edge weight between node p and
    node m = off + q. -/
theorem tile_dist (off : Nat) (hs : S1x2048.Slices ![0, off] S1x512) (p : Fin 2048) (q : Fin 512) (m : Fin 2048)
    (hm : m.val = off + q.val) :
    distE (tileD (k0_pay3 P) (k0_pay4 P) (k0_pay5 P) (k0_pay6 P) (k0_pay7 P) (k0_pay8 P) off hs (ix2 p q))
      = dist (Xof P) p m := by
  rw [tileD_apply _ _ _ _ _ _ off hs p q m hm, col0_apply, col1_apply, colS_apply, row0_apply, row1_apply, rowS_apply]
  rfl

/-! ## The four tiles -/

theorem tile0_apply (p : Fin 2048) (q : Fin 512) :
    k0_pay14 (k0_pay11 P) (k0_pay12 P) (k0_pay13 (F := Ideal)) (ix2 p q) = dist (Xof P) p (blk 0 q) :=
  tile_dist P 0 Facts₀.slices_S1x2048_o0_0_S1x512 p q (blk 0 q) (by simp [blk])

theorem tile1_apply (p : Fin 2048) (q : Fin 512) :
    k0_pay15 (k0_pay3 P) (k0_pay4 P) (k0_pay5 P) (k0_pay6 P) (k0_pay7 P) (k0_pay8 P) (ix2 p q)
      = dist (Xof P) p (blk 1 q) :=
  tile_dist P 512 Facts₀.slices_S1x2048_o0_512_S1x512 p q (blk 1 q) (by simp [blk])

theorem tile2_apply (p : Fin 2048) (q : Fin 512) :
    k0_pay20 (k0_pay18 (k0_pay3 P) (k0_pay4 P) (k0_pay5 P) (k0_pay6 P) (k0_pay7 P) (k0_pay8 P))
        (k0_pay19 (k0_pay3 P) (k0_pay4 P) (k0_pay5 P) (k0_pay6 P) (k0_pay7 P) (k0_pay8 P)) (ix2 p q)
      = dist (Xof P) p (blk 2 q) :=
  tile_dist P 1024 Facts₀.slices_S1x2048_o0_1024_S1x512 p q (blk 2 q) (by simp [blk])

theorem tile3_apply (p : Fin 2048) (q : Fin 512) :
    k0_pay21 (k0_pay3 P) (k0_pay4 P) (k0_pay5 P) (k0_pay6 P) (k0_pay7 P) (k0_pay8 P) (ix2 p q)
      = dist (Xof P) p (blk 3 q) :=
  tile_dist P 1536 Facts₀.slices_S1x2048_o0_1536_S1x512 p q (blk 3 q) (by simp [blk])

/-! ## The degree and its inverse root -/

/-- A tile's row sums, reshaped to a column, read at row p: the sum of the tile's row p. -/
theorem rowsum_apply (T : FVec Ideal S2048x512 .f32) (p : Fin 2048) :
    shapeCast S2048x1 (multiReduction .add [1] S2048 T 0x00000000#32 Facts₀.reduces_S2048x512_S2048 (.inl rfl) rfl)
        Facts₀.shapeCasts_S2048_S2048x1 (ix2 p (0 : Fin 1)) = ∑ k : Fin 512, T (ix2 p k) :=
  (LibDense.shapeCast_a_a1_apply _ Facts₀.shapeCasts_S2048_S2048x1 p 0).trans
    (LibDense.rowSum_apply T Facts₀.reduces_S2048x512_S2048 (.inl rfl) rfl p)

/-- The degree after the first two blocks: nothing, plus block 0's sum, plus block 1's. -/
theorem deg01_apply (p : Fin 2048) :
    k0_pay16 (k0_pay3 P) (k0_pay4 P) (k0_pay5 P) (k0_pay6 P) (k0_pay7 P) (k0_pay8 P) (k0_pay9 (F := Ideal))
        (k0_pay11 P) (k0_pay12 P) (k0_pay13 (F := Ideal)) (ix2 p (0 : Fin 1))
      = (∑ k : Fin 512, dist (Xof P) p (blk 0 k)) + ∑ k : Fin 512, dist (Xof P) p (blk 1 k) := by
  show (Ideal.ofBits .f32 0x00000000#32
      + shapeCast S2048x1 (multiReduction .add [1] S2048 (k0_pay14 (k0_pay11 P) (k0_pay12 P) (k0_pay13 (F := Ideal)))
          0x00000000#32 Facts₀.reduces_S2048x512_S2048 (.inl rfl) rfl) Facts₀.shapeCasts_S2048_S2048x1 (ix2 p (0 : Fin 1)))
    + shapeCast S2048x1 (multiReduction .add [1] S2048
          (k0_pay15 (k0_pay3 P) (k0_pay4 P) (k0_pay5 P) (k0_pay6 P) (k0_pay7 P) (k0_pay8 P))
          0x00000000#32 Facts₀.reduces_S2048x512_S2048 (.inl rfl) rfl) Facts₀.shapeCasts_S2048_S2048x1 (ix2 p (0 : Fin 1)) = _
  rw [rowsum_apply, rowsum_apply, Ideal.ofBits_zero_f32, zero_add]
  simp only [tile0_apply, tile1_apply]

theorem dinv_apply (p : Fin 2048) :
    k0_pay22 (k0_pay3 P) (k0_pay4 P) (k0_pay5 P) (k0_pay6 P) (k0_pay7 P) (k0_pay8 P)
        (k0_pay16 (k0_pay3 P) (k0_pay4 P) (k0_pay5 P) (k0_pay6 P) (k0_pay7 P) (k0_pay8 P) (k0_pay9 (F := Ideal))
          (k0_pay11 P) (k0_pay12 P) (k0_pay13 (F := Ideal)))
        (k0_pay18 (k0_pay3 P) (k0_pay4 P) (k0_pay5 P) (k0_pay6 P) (k0_pay7 P) (k0_pay8 P))
        (k0_pay19 (k0_pay3 P) (k0_pay4 P) (k0_pay5 P) (k0_pay6 P) (k0_pay7 P) (k0_pay8 P)) (ix2 p (0 : Fin 1))
      = dinvK (Xof P) p := by
  show Ideal.rsqrt
    (((k0_pay16 (k0_pay3 P) (k0_pay4 P) (k0_pay5 P) (k0_pay6 P) (k0_pay7 P) (k0_pay8 P) (k0_pay9 (F := Ideal))
          (k0_pay11 P) (k0_pay12 P) (k0_pay13 (F := Ideal)) (ix2 p (0 : Fin 1))
        + shapeCast S2048x1 (multiReduction .add [1] S2048
            (k0_pay20 (k0_pay18 (k0_pay3 P) (k0_pay4 P) (k0_pay5 P) (k0_pay6 P) (k0_pay7 P) (k0_pay8 P))
              (k0_pay19 (k0_pay3 P) (k0_pay4 P) (k0_pay5 P) (k0_pay6 P) (k0_pay7 P) (k0_pay8 P)))
            0x00000000#32 Facts₀.reduces_S2048x512_S2048 (.inl rfl) rfl) Facts₀.shapeCasts_S2048_S2048x1 (ix2 p (0 : Fin 1)))
      + shapeCast S2048x1 (multiReduction .add [1] S2048
            (k0_pay21 (k0_pay3 P) (k0_pay4 P) (k0_pay5 P) (k0_pay6 P) (k0_pay7 P) (k0_pay8 P))
            0x00000000#32 Facts₀.reduces_S2048x512_S2048 (.inl rfl) rfl) Facts₀.shapeCasts_S2048_S2048x1 (ix2 p (0 : Fin 1)))
      + wOne) = _
  rw [deg01_apply, rowsum_apply, rowsum_apply]
  simp only [tile2_apply, tile3_apply]
  rfl

end Cert.Gnn.KDist

end
-- ==== Proof.LibLayout3.lean ====
import Idealize.ShloMosaic.Lib.ValueIdx
import Idealize.ShloMosaic.Lib.ValueLayout
import Idealize.ShloMosaic.Lib.Pipeline.Value

/-!
# Unit axes in the middle and at the end of a rank-3 array, read at an index

A shape cast that inserts a unit axis keeps the row-major position, so the element at `(i, 0, j)` of the cast of an
`[a, b]` array is the element at `(i, j)`; a broadcast along a unit axis repeats the slice, so the element at
`(i, k, j)` of the broadcast of an `[a, 1, b]` array to `[a, c, b]` is the element at `(i, 0, j)`. Each lemma states
one such read with every index written by its coordinates.
-/

noncomputable section

namespace Cert.Lib.Layout3

open Idealize.ShloMosaic Idealize.ShloMosaic.ValueIdx

variable {α : Type}

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, c]` array cast to `[a, c, 1]` reads, at `(i, k, u)`, the operand at `(i, k)`. -/
theorem shapeCast_ac_ac1_apply {a c : ℕ} (x : (⟨2, ![a, c]⟩ : Shape).Idx → α)
    (h : (⟨2, ![a, c]⟩ : Shape).ShapeCasts ⟨3, ![a, c, 1]⟩) (i : Fin a) (k : Fin c) (u : Fin 1) :
    shapeCast ⟨3, ![a, c, 1]⟩ x h (ix3 i k u) = x (ix2 i k) :=
  shapeCast_apply x h _ _ (by
    have hu : u.val = 0 := by omega
    rw [Shape.rowMajor_val_three, Shape.rowMajor_val_two]
    show i.val * c + k.val = (i.val * c + k.val) * 1 + u.val
    rw [hu, Nat.mul_one, Nat.add_zero])

/-- An `[a, 1, b]` array broadcast to `[a, c, b]` reads, at `(i, k, j)`, the operand at `(i, 0, j)`. -/
theorem broadcastTo_a1b_acb_apply {a b c : ℕ} (v : (⟨3, ![a, 1, b]⟩ : Shape).Idx → α)
    (h : (⟨3, ![a, 1, b]⟩ : Shape).Broadcasts ⟨3, ![a, c, b]⟩) (i : Fin a) (k : Fin c) (j : Fin b) :
    broadcastTo ⟨3, ![a, c, b]⟩ v h (ix3 i k j) = v (ix3 i (0 : Fin 1) j) := by
  refine broadcastTo_apply v h (ix3 i k j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if b = 1 then 0 else j.val
    split
    · have := j.isLt; omega
    · rfl

/-- A `[1, c, b]` array broadcast to `[a, c, b]` reads, at `(i, k, j)`, the operand at `(0, k, j)`. -/
theorem broadcastTo_1cb_acb_apply {a b c : ℕ} (v : (⟨3, ![1, c, b]⟩ : Shape).Idx → α)
    (h : (⟨3, ![1, c, b]⟩ : Shape).Broadcasts ⟨3, ![a, c, b]⟩) (i : Fin a) (k : Fin c) (j : Fin b) :
    broadcastTo ⟨3, ![a, c, b]⟩ v h (ix3 i k j) = v (ix3 (0 : Fin 1) k j) := by
  refine broadcastTo_apply v h (ix3 i k j) (ix3 (0 : Fin 1) k j) fun ax => ?_
  match ax with
  | ⟨0, _⟩ => rfl
  | ⟨1, _⟩ =>
    show k.val = if c = 1 then 0 else k.val
    split
    · have := k.isLt; omega
    · rfl
  | ⟨2, _⟩ =>
    show j.val = if b = 1 then 0 else j.val
    split
    · have := j.isLt; omega
    · rfl

/-- An `[a, c, 1]` array broadcast to `[a, c, d]` reads, at `(i, k, o)`, the operand at `(i, k, 0)`. -/
theorem broadcastTo_ac1_acd_apply {a c d : ℕ} (v : (⟨3, ![a, c, 1]⟩ : Shape).Idx → α)
    (h : (⟨3, ![a, c, 1]⟩ : Shape).Broadcasts ⟨3, ![a, c, d]⟩) (i : Fin a) (k : Fin c) (o : Fin d) :
    broadcastTo ⟨3, ![a, c, d]⟩ v h (ix3 i k o) = v (ix3 i k (0 : Fin 1)) := by
  refine broadcastTo_apply v h (ix3 i k o) (ix3 i k (0 : Fin 1)) fun ax => ?_
  match ax with
  | ⟨0, _⟩ =>
    show i.val = if a = 1 then 0 else i.val
    split
    · have := i.isLt; omega
    · rfl
  | ⟨1, _⟩ =>
    show k.val = if c = 1 then 0 else k.val
    split
    · have := k.isLt; omega
    · rfl
  | ⟨2, _⟩ => rfl

end Cert.Lib.Layout3

end
-- ==== Proof.KHead.lean ====
/-
  The head of the kernel's body, read at an index: the input projection X·Wnᵀ + bn, the three layers' weight matrices and
  bias rows cut out of the stacked arrays, and the four distance tiles and the inverse-root degree as whole functions of
  the node coordinates — the tiles laid side by side are the specification's edge weights, the degree column its blocked
  dinvK.
-/
import proofs.«155582_j41644002902305_2_alg».proof.Proof.Gen.KernelIdeal.Skeleton
import proofs.«155582_j41644002902305_2_alg».proof.Proof.Spec
import proofs.«155582_j41644002902305_2_alg».proof.Proof.LibDense
import proofs.«155582_j41644002902305_2_alg».proof.Proof.LibRowDot
import proofs.«155582_j41644002902305_2_alg».proof.Proof.LibLayout3
import proofs.«155582_j41644002902305_2_alg».proof.Proof.KDist
import proofs.«155582_j41644002902305_2_alg».proof.Proof.KLayer
import Idealize.ShloMosaic.Lib.ValueIdx
import Idealize.ShloMosaic.Lib.ValueLayout
import Idealize.ShloMosaic.Lib.Pipeline.Value
import Idealize.ShloMosaic.PureOps.Ideal.Laws

noncomputable section

namespace Cert.Gnn.KHead

open Cert.KernelIdeal Cert.KernelIdeal.Gen Idealize.ShloMosaic Idealize.ShloMosaic.ValueIdx Cert.Gnn Cert.Gnn.KDist
open scoped BigOperators

variable [Cert.KernelIdeal.Facts]

/-! ## The input projection -/

/-- The loaded block with its unit axis dropped, at (n, k): coordinate k of node n. -/
theorem flat_apply (P : Vec Ideal S1x2048x2 .f32) (n : Fin 2048) (k : Fin 2) : k0_pay2 P (ix2 n k) = Xof P n k :=
  shapeCast_1ab_ab_apply P Facts₀.shapeCasts_S1x2048x2_S2048x2 n k

theorem h0_apply (P : Vec Ideal S1x2048x2 .f32) (Wn : Vec Ideal S128x2 .f32) (bn : Vec Ideal S128 .f32) (n : Fin 2048)
    (e : Fin 128) :
    k0_pay23 (k0_pay2 P) Wn bn (ix2 n e) = h0 (Xof P) (fun e k => Wn (ix2 e k)) (fun e => bn (ix1 e)) n e := by
  show matmul dot_S2048x2_S128x2_S2048x128_1_1_0_0_n_n none (k0_pay2 P) Wn (constant S2048x128 .f32 0x00000000#32) (ix2 n e)
      + broadcastTo S2048x128 (shapeCast S1x128 bn Facts₀.shapeCasts_S128_S1x128) Facts₀.broadcasts_S1x128_S2048x128 (ix2 n e) = _
  rw [KLayer.proj_apply, LibDense.rowBroadcast_rc]
  simp only [flat_apply]
  rfl

/-! ## The layers' weights and biases out of the stacked arrays -/

theorem wslice0_apply (W : Vec Ideal S3x128x128 .f32) (e k : Fin 128) :
    shapeCast S128x128 (extractStridedSlice S1x128x128 ![0, 0, 0] W Facts₀.slices_S3x128x128_o0_0_0_S1x128x128)
        Facts₀.shapeCasts_S1x128x128_S128x128 (ix2 e k) = W (ix3 (0 : Fin 3) e k) :=
  (shapeCast_1ab_ab_apply _ Facts₀.shapeCasts_S1x128x128_S128x128 e k).trans
    (extractStridedSlice_apply ![0, 0, 0] W Facts₀.slices_S3x128x128_o0_0_0_S1x128x128 (ix3 (0 : Fin 1) e k)
      (ix3 (0 : Fin 3) e k) (fun a => by
        match a with
        | ⟨0, _⟩ => rfl
        | ⟨1, _⟩ => exact (Nat.zero_add _).symm
        | ⟨2, _⟩ => exact (Nat.zero_add _).symm))

theorem bslice0_apply (B : Vec Ideal S3x128 .f32) (e : Fin 128) :
    shapeCast S128 (extractStridedSlice S1x128 ![0, 0] B Facts₀.slices_S3x128_o0_0_S1x128) Facts₀.shapeCasts_S1x128_S128
        (ix1 e) = B (ix2 (0 : Fin 3) e) :=
  (shapeCast_1a_a_apply _ Facts₀.shapeCasts_S1x128_S128 e).trans
    (slice2_axis0_apply 0 B Facts₀.slices_S3x128_o0_0_S1x128 (0 : Fin 1) e (0 : Fin 3) rfl)

theorem wslice1_apply (W : Vec Ideal S3x128x128 .f32) (e k : Fin 128) :
    shapeCast S128x128 (extractStridedSlice S1x128x128 ![1, 0, 0] W Facts₀.slices_S3x128x128_o1_0_0_S1x128x128)
        Facts₀.shapeCasts_S1x128x128_S128x128 (ix2 e k) = W (ix3 (1 : Fin 3) e k) :=
  (shapeCast_1ab_ab_apply _ Facts₀.shapeCasts_S1x128x128_S128x128 e k).trans
    (extractStridedSlice_apply ![1, 0, 0] W Facts₀.slices_S3x128x128_o1_0_0_S1x128x128 (ix3 (0 : Fin 1) e k)
      (ix3 (1 : Fin 3) e k) (fun a => by
        match a with
        | ⟨0, _⟩ => rfl
        | ⟨1, _⟩ => exact (Nat.zero_add _).symm
        | ⟨2, _⟩ => exact (Nat.zero_add _).symm))

theorem bslice1_apply (B : Vec Ideal S3x128 .f32) (e : Fin 128) :
    shapeCast S128 (extractStridedSlice S1x128 ![1, 0] B Facts₀.slices_S3x128_o1_0_S1x128) Facts₀.shapeCasts_S1x128_S128
        (ix1 e) = B (ix2 (1 : Fin 3) e) :=
  (shapeCast_1a_a_apply _ Facts₀.shapeCasts_S1x128_S128 e).trans
    (slice2_axis0_apply 1 B Facts₀.slices_S3x128_o1_0_S1x128 (0 : Fin 1) e (1 : Fin 3) rfl)

theorem wslice2_apply (W : Vec Ideal S3x128x128 .f32) (e k : Fin 128) :
    shapeCast S128x128 (extractStridedSlice S1x128x128 ![2, 0, 0] W Facts₀.slices_S3x128x128_o2_0_0_S1x128x128)
        Facts₀.shapeCasts_S1x128x128_S128x128 (ix2 e k) = W (ix3 (2 : Fin 3) e k) :=
  (shapeCast_1ab_ab_apply _ Facts₀.shapeCasts_S1x128x128_S128x128 e k).trans
    (extractStridedSlice_apply ![2, 0, 0] W Facts₀.slices_S3x128x128_o2_0_0_S1x128x128 (ix3 (0 : Fin 1) e k)
      (ix3 (2 : Fin 3) e k) (fun a => by
        match a with
        | ⟨0, _⟩ => rfl
        | ⟨1, _⟩ => exact (Nat.zero_add _).symm
        | ⟨2, _⟩ => exact (Nat.zero_add _).symm))

theorem bslice2_apply (B : Vec Ideal S3x128 .f32) (e : Fin 128) :
    shapeCast S128 (extractStridedSlice S1x128 ![2, 0] B Facts₀.slices_S3x128_o2_0_S1x128) Facts₀.shapeCasts_S1x128_S128
        (ix1 e) = B (ix2 (2 : Fin 3) e) :=
  (shapeCast_1a_a_apply _ Facts₀.shapeCasts_S1x128_S128 e).trans
    (slice2_axis0_apply 2 B Facts₀.slices_S3x128_o2_0_S1x128 (0 : Fin 1) e (2 : Fin 3) rfl)

/-! ## The tiles and the degree as functions of the coordinates -/

abbrev T0 (P : Vec Ideal S1x2048x2 .f32) : FVec Ideal S2048x512 .f32 :=
  k0_pay14 (k0_pay11 P) (k0_pay12 P) (k0_pay13 (F := Ideal))
abbrev T1 (P : Vec Ideal S1x2048x2 .f32) : FVec Ideal S2048x512 .f32 :=
  k0_pay15 (k0_pay3 P) (k0_pay4 P) (k0_pay5 P) (k0_pay6 P) (k0_pay7 P) (k0_pay8 P)
abbrev T2 (P : Vec Ideal S1x2048x2 .f32) : FVec Ideal S2048x512 .f32 :=
  k0_pay20 (k0_pay18 (k0_pay3 P) (k0_pay4 P) (k0_pay5 P) (k0_pay6 P) (k0_pay7 P) (k0_pay8 P))
    (k0_pay19 (k0_pay3 P) (k0_pay4 P) (k0_pay5 P) (k0_pay6 P) (k0_pay7 P) (k0_pay8 P))
abbrev T3 (P : Vec Ideal S1x2048x2 .f32) : FVec Ideal S2048x512 .f32 :=
  k0_pay21 (k0_pay3 P) (k0_pay4 P) (k0_pay5 P) (k0_pay6 P) (k0_pay7 P) (k0_pay8 P)
abbrev DV (P : Vec Ideal S1x2048x2 .f32) : FVec Ideal S2048x1 .f32 :=
  k0_pay22 (k0_pay3 P) (k0_pay4 P) (k0_pay5 P) (k0_pay6 P) (k0_pay7 P) (k0_pay8 P)
    (k0_pay16 (k0_pay3 P) (k0_pay4 P) (k0_pay5 P) (k0_pay6 P) (k0_pay7 P) (k0_pay8 P) (k0_pay9 (F := Ideal))
      (k0_pay11 P) (k0_pay12 P) (k0_pay13 (F := Ideal)))
    (k0_pay18 (k0_pay3 P) (k0_pay4 P) (k0_pay5 P) (k0_pay6 P) (k0_pay7 P) (k0_pay8 P))
    (k0_pay19 (k0_pay3 P) (k0_pay4 P) (k0_pay5 P) (k0_pay6 P) (k0_pay7 P) (k0_pay8 P))

/-- The four tiles side by side are the edge weights: every node m is node m mod 512 of block m / 512. -/
theorem tiles_eq (P : Vec Ideal S1x2048x2 .f32) : KLayer.tilesOf (T0 P) (T1 P) (T2 P) (T3 P) = dist (Xof P) := by
  funext n m
  have hm := m.isLt
  by_cases h0 : m.val < 512
  · obtain ⟨k, rfl⟩ : ∃ k : Fin 512, m = blk 0 k := ⟨⟨m.val, h0⟩, Fin.ext (by rw [KLayer.blk_val]; show m.val = 512 * 0 + m.val; omega)⟩
    rw [KLayer.tilesOf_blk0]
    exact tile0_apply P n k
  by_cases h1 : m.val < 1024
  · obtain ⟨k, rfl⟩ : ∃ k : Fin 512, m = blk 1 k := ⟨⟨m.val - 512, by omega⟩, Fin.ext (by rw [KLayer.blk_val]; show m.val = 512 * 1 + (m.val - 512); omega)⟩
    rw [KLayer.tilesOf_blk1]
    exact tile1_apply P n k
  by_cases h2 : m.val < 1536
  · obtain ⟨k, rfl⟩ : ∃ k : Fin 512, m = blk 2 k := ⟨⟨m.val - 1024, by omega⟩, Fin.ext (by rw [KLayer.blk_val]; show m.val = 512 * 2 + (m.val - 1024); omega)⟩
    rw [KLayer.tilesOf_blk2]
    exact tile2_apply P n k
  · obtain ⟨k, rfl⟩ : ∃ k : Fin 512, m = blk 3 k := ⟨⟨m.val - 1536, by omega⟩, Fin.ext (by rw [KLayer.blk_val]; show m.val = 512 * 3 + (m.val - 1536); omega)⟩
    rw [KLayer.tilesOf_blk3]
    exact tile3_apply P n k

/-- The degree column is the blocked inverse-root degree. -/
theorem dv_eq (P : Vec Ideal S1x2048x2 .f32) : (fun n : Fin 2048 => DV P (ix2 n (0 : Fin 1))) = dinvK (Xof P) :=
  funext fun n => dinv_apply P n

end Cert.Gnn.KHead

end
-- ==== Proof.KBlock.lean ====
/-
  What ONE grid point's body leaves in its output block: the network of the specification, blocked arrangement, on
  that point's graph.

  The body's stored value is, operation for operation, three applications of the layer's vector expression to the input
  projection, over the four distance tiles and the inverse-root degrees computed from the point's coordinates. Read at
  an index, each layer is the specification's blocked layer; the four tiles side by side are the distance matrix; the
  degrees' inverse roots are those of the specification.
-/
import proofs.«155582_j41644002902305_2_alg».proof.Proof.Gen.KernelIdeal.Frame
import proofs.«155582_j41644002902305_2_alg».proof.Proof.Spec
import proofs.«155582_j41644002902305_2_alg».proof.Proof.KLayer
import proofs.«155582_j41644002902305_2_alg».proof.Proof.KDist
import proofs.«155582_j41644002902305_2_alg».proof.Proof.KHead
import Idealize.ShloMosaic.Lib.ValueIdx
import Idealize.ShloMosaic.Lib.ValueLayout
import Idealize.ShloMosaic.Lib.Pipeline.Value

noncomputable section

namespace Cert.Gnn.KBlock

open Cert.KernelIdeal Cert.KernelIdeal.Facts₀ Idealize.ShloMosaic Idealize.ShloMosaic.ValueIdx Cert.Gnn Cert.Gnn.KLayer
open Cert.Gnn.KDist (Xof)

variable [Cert.KernelIdeal.Facts]

theorem hz1 : (![0] : Fin 1 → Nat) = fun _ => 0 := funext fun a => by match a with | ⟨0, _⟩ => rfl
theorem hz2 : (![0, 0] : Fin 2 → Nat) = fun _ => 0 := funext fun a => by match a with | ⟨0, _⟩ => rfl | ⟨1, _⟩ => rfl
theorem hz3 : (![0, 0, 0] : Fin 3 → Nat) = fun _ => 0 :=
  funext fun a => by match a with | ⟨0, _⟩ => rfl | ⟨1, _⟩ => rfl | ⟨2, _⟩ => rfl

/-- The four distance tiles, the inverse-root degrees and the input projection, as the body computes them from the
    point's coordinates P. -/
abbrev T0 (P : Vec Ideal S1x2048x2 .f32) : FVec Ideal S2048x512 .f32 :=
  Gen.k0_pay14 (Gen.k0_pay11 P) (Gen.k0_pay12 P) (Gen.k0_pay13 (F := Ideal))
abbrev T1 (P : Vec Ideal S1x2048x2 .f32) : FVec Ideal S2048x512 .f32 :=
  Gen.k0_pay15 (Gen.k0_pay3 P) (Gen.k0_pay4 P) (Gen.k0_pay5 P) (Gen.k0_pay6 P) (Gen.k0_pay7 P) (Gen.k0_pay8 P)
abbrev T2 (P : Vec Ideal S1x2048x2 .f32) : FVec Ideal S2048x512 .f32 :=
  Gen.k0_pay20 (Gen.k0_pay18 (Gen.k0_pay3 P) (Gen.k0_pay4 P) (Gen.k0_pay5 P) (Gen.k0_pay6 P) (Gen.k0_pay7 P) (Gen.k0_pay8 P))
    (Gen.k0_pay19 (Gen.k0_pay3 P) (Gen.k0_pay4 P) (Gen.k0_pay5 P) (Gen.k0_pay6 P) (Gen.k0_pay7 P) (Gen.k0_pay8 P))
abbrev T3 (P : Vec Ideal S1x2048x2 .f32) : FVec Ideal S2048x512 .f32 :=
  Gen.k0_pay21 (Gen.k0_pay3 P) (Gen.k0_pay4 P) (Gen.k0_pay5 P) (Gen.k0_pay6 P) (Gen.k0_pay7 P) (Gen.k0_pay8 P)
abbrev DV (P : Vec Ideal S1x2048x2 .f32) : FVec Ideal S2048x1 .f32 :=
  Gen.k0_pay22 (Gen.k0_pay3 P) (Gen.k0_pay4 P) (Gen.k0_pay5 P) (Gen.k0_pay6 P) (Gen.k0_pay7 P) (Gen.k0_pay8 P)
    (Gen.k0_pay16 (Gen.k0_pay3 P) (Gen.k0_pay4 P) (Gen.k0_pay5 P) (Gen.k0_pay6 P) (Gen.k0_pay7 P) (Gen.k0_pay8 P)
      (Gen.k0_pay9 (F := Ideal)) (Gen.k0_pay11 P) (Gen.k0_pay12 P) (Gen.k0_pay13 (F := Ideal)))
    (Gen.k0_pay18 (Gen.k0_pay3 P) (Gen.k0_pay4 P) (Gen.k0_pay5 P) (Gen.k0_pay6 P) (Gen.k0_pay7 P) (Gen.k0_pay8 P))
    (Gen.k0_pay19 (Gen.k0_pay3 P) (Gen.k0_pay4 P) (Gen.k0_pay5 P) (Gen.k0_pay6 P) (Gen.k0_pay7 P) (Gen.k0_pay8 P))
abbrev H0 (P : Vec Ideal S1x2048x2 .f32) (Wn : Vec Ideal S128x2 .f32) (bn : Vec Ideal S128 .f32) : FVec Ideal S2048x128 .f32 :=
  Gen.k0_pay23 (Gen.k0_pay2 P) Wn bn

/-- Layer l's weight matrix and bias row out of the stacked parameters. -/
abbrev Wl0 (W : Vec Ideal S3x128x128 .f32) : FVec Ideal S128x128 .f32 :=
  shapeCast S128x128 (extractStridedSlice S1x128x128 ![0, 0, 0] W Facts₀.slices_S3x128x128_o0_0_0_S1x128x128) Facts₀.shapeCasts_S1x128x128_S128x128
abbrev Wl1 (W : Vec Ideal S3x128x128 .f32) : FVec Ideal S128x128 .f32 :=
  shapeCast S128x128 (extractStridedSlice S1x128x128 ![1, 0, 0] W Facts₀.slices_S3x128x128_o1_0_0_S1x128x128) Facts₀.shapeCasts_S1x128x128_S128x128
abbrev Wl2 (W : Vec Ideal S3x128x128 .f32) : FVec Ideal S128x128 .f32 :=
  shapeCast S128x128 (extractStridedSlice S1x128x128 ![2, 0, 0] W Facts₀.slices_S3x128x128_o2_0_0_S1x128x128) Facts₀.shapeCasts_S1x128x128_S128x128
abbrev Bl0 (B : Vec Ideal S3x128 .f32) : FVec Ideal S128 .f32 :=
  shapeCast S128 (extractStridedSlice S1x128 ![0, 0] B Facts₀.slices_S3x128_o0_0_S1x128) Facts₀.shapeCasts_S1x128_S128
abbrev Bl1 (B : Vec Ideal S3x128 .f32) : FVec Ideal S128 .f32 :=
  shapeCast S128 (extractStridedSlice S1x128 ![1, 0] B Facts₀.slices_S3x128_o1_0_S1x128) Facts₀.shapeCasts_S1x128_S128
abbrev Bl2 (B : Vec Ideal S3x128 .f32) : FVec Ideal S128 .f32 :=
  shapeCast S128 (extractStridedSlice S1x128 ![2, 0] B Facts₀.slices_S3x128_o2_0_S1x128) Facts₀.shapeCasts_S1x128_S128

/-- The three layers over the point's tiles, as one vector expression. -/
def netV (x0 : Vec Ideal S1x2048x2 .f32) (x1 : Vec Ideal S128x2 .f32) (x2 : Vec Ideal S128 .f32) (x3 : Vec Ideal S3x128x128 .f32)
    (x4 : Vec Ideal S3x128 .f32) (x5 x6 x7 : Vec Ideal S128 .f32) : FVec Ideal S2048x128 .f32 :=
  layerV (T0 x0) (T1 x0) (T2 x0) (T3 x0) (DV x0) (Wl2 x3) (Bl2 x4) x5 x6 x7
    (layerV (T0 x0) (T1 x0) (T2 x0) (T3 x0) (DV x0) (Wl1 x3) (Bl1 x4) x5 x6 x7
      (layerV (T0 x0) (T1 x0) (T2 x0) (T3 x0) (DV x0) (Wl0 x3) (Bl0 x4) x5 x6 x7 (H0 x0 x1 x2)))

/-- The body's one store holds the three layers' result, recast to the block's shape: the body's operations ARE the
    layer expression three times over (definitional unfolding of the body's arithmetic). -/
theorem out_eq_netV (x0 : Vec Ideal S1x2048x2 .f32) (x1 : Vec Ideal S128x2 .f32) (x2 : Vec Ideal S128 .f32) (x3 : Vec Ideal S3x128x128 .f32)
    (x4 : Vec Ideal S3x128 .f32) (x5 x6 x7 : Vec Ideal S128 .f32) :
    Gen.out0_8 x0 x1 x2 x3 x4 x5 x6 x7
      = shapeCast S1x2048x128 (netV x0 x1 x2 x3 x4 x5 x6 x7) Facts₀.shapeCasts_S2048x128_S1x2048x128 := by
  unfold Gen.out0_8
  rw [View.canon_unit_zero hz3]
  simp only [View.ld_unit_zero (S := S1x2048x2) hz3, View.ld_unit_zero (S := S128x2) hz2, View.ld_unit_zero (S := S128) hz1,
    View.ld_unit_zero (S := S3x128x128) hz3, View.ld_unit_zero (S := S3x128) hz2]
  rfl

/-- The three layers at an index: the specification's blocked network on the point's graph. -/
theorem netV_apply (x0 : Vec Ideal S1x2048x2 .f32) (x1 : Vec Ideal S128x2 .f32) (x2 : Vec Ideal S128 .f32) (x3 : Vec Ideal S3x128x128 .f32)
    (x4 : Vec Ideal S3x128 .f32) (x5 x6 x7 : Vec Ideal S128 .f32) (n : Fin 2048) (e : Fin 128) :
    netV x0 x1 x2 x3 x4 x5 x6 x7 (ix2 n e)
      = outK (Xof x0) (mat2 x1) (vec1 x2) (mat3 x3) (rows3 x4) (vec1 x5) (vec1 x6) (vec1 x7) n e := by
  have hD : tilesOf (T0 x0) (T1 x0) (T2 x0) (T3 x0) = dist (Xof x0) := Cert.Gnn.KHead.tiles_eq x0
  have hdv : (fun n : Fin 2048 => DV x0 (ix2 n (0 : Fin 1))) = dinvK (Xof x0) := Cert.Gnn.KHead.dv_eq x0
  have hW0 : (fun e k : Fin 128 => Wl0 x3 (ix2 e k)) = mat3 x3 0 := funext fun e => funext fun k => Cert.Gnn.KHead.wslice0_apply x3 e k
  have hW1 : (fun e k : Fin 128 => Wl1 x3 (ix2 e k)) = mat3 x3 1 := funext fun e => funext fun k => Cert.Gnn.KHead.wslice1_apply x3 e k
  have hW2 : (fun e k : Fin 128 => Wl2 x3 (ix2 e k)) = mat3 x3 2 := funext fun e => funext fun k => Cert.Gnn.KHead.wslice2_apply x3 e k
  have hB0 : (fun e : Fin 128 => Bl0 x4 (ix1 e)) = rows3 x4 0 := funext fun e => Cert.Gnn.KHead.bslice0_apply x4 e
  have hB1 : (fun e : Fin 128 => Bl1 x4 (ix1 e)) = rows3 x4 1 := funext fun e => Cert.Gnn.KHead.bslice1_apply x4 e
  have hB2 : (fun e : Fin 128 => Bl2 x4 (ix1 e)) = rows3 x4 2 := funext fun e => Cert.Gnn.KHead.bslice2_apply x4 e
  have hH0 : (fun (n : Fin 2048) (k : Fin 128) => H0 x0 x1 x2 (ix2 n k)) = h0 (Xof x0) (mat2 x1) (vec1 x2) :=
    funext fun n => funext fun k => Cert.Gnn.KHead.h0_apply x0 x1 x2 n k
  have hL0 : (fun (n : Fin 2048) (k : Fin 128) =>
        layerV (T0 x0) (T1 x0) (T2 x0) (T3 x0) (DV x0) (Wl0 x3) (Bl0 x4) x5 x6 x7 (H0 x0 x1 x2) (ix2 n k))
      = layerK (dist (Xof x0)) (dinvK (Xof x0)) (mat3 x3 0) (rows3 x4 0) (vec1 x5) (vec1 x6) (vec1 x7)
          (h0 (Xof x0) (mat2 x1) (vec1 x2)) := by
    funext n k
    rw [layerV_apply, hD, hdv, hW0, hB0, hH0]
    rfl
  have hL1 : (fun (n : Fin 2048) (k : Fin 128) =>
        layerV (T0 x0) (T1 x0) (T2 x0) (T3 x0) (DV x0) (Wl1 x3) (Bl1 x4) x5 x6 x7
          (layerV (T0 x0) (T1 x0) (T2 x0) (T3 x0) (DV x0) (Wl0 x3) (Bl0 x4) x5 x6 x7 (H0 x0 x1 x2)) (ix2 n k))
      = layerK (dist (Xof x0)) (dinvK (Xof x0)) (mat3 x3 1) (rows3 x4 1) (vec1 x5) (vec1 x6) (vec1 x7)
          (layerK (dist (Xof x0)) (dinvK (Xof x0)) (mat3 x3 0) (rows3 x4 0) (vec1 x5) (vec1 x6) (vec1 x7)
            (h0 (Xof x0) (mat2 x1) (vec1 x2))) := by
    funext n k
    rw [layerV_apply, hD, hdv, hW1, hB1, hL0]
    rfl
  unfold netV outK
  rw [layerV_apply, hD, hdv, hW2, hB2, hL1]
  rfl

/-- What one grid point's body leaves in its block, index by index. -/
theorem out_apply (x0 : Vec Ideal S1x2048x2 .f32) (x1 : Vec Ideal S128x2 .f32) (x2 : Vec Ideal S128 .f32) (x3 : Vec Ideal S3x128x128 .f32)
    (x4 : Vec Ideal S3x128 .f32) (x5 x6 x7 : Vec Ideal S128 .f32) (y : S1x2048x128.Idx) :
    Gen.out0_8 x0 x1 x2 x3 x4 x5 x6 x7 y
      = outK (Xof x0) (mat2 x1) (vec1 x2) (mat3 x3) (rows3 x4) (vec1 x5) (vec1 x6) (vec1 x7)
          ⟨(y 1).val, (y 1).isLt⟩ ⟨(y 2).val, (y 2).isLt⟩ := by
  have h0' : (y 0).val < 1 := (y 0).isLt
  have h1 : (y 1).val < 2048 := (y 1).isLt
  have h2 : (y 2).val < 128 := (y 2).isLt
  have hy : y = ix3 (⟨(y 0).val, h0'⟩ : Fin 1) (⟨(y 1).val, h1⟩ : Fin 2048) (⟨(y 2).val, h2⟩ : Fin 128) := by
    funext a
    match a with
    | ⟨0, _⟩ => rfl
    | ⟨1, _⟩ => rfl
    | ⟨2, _⟩ => rfl
  rw [out_eq_netV]
  calc shapeCast S1x2048x128 (netV x0 x1 x2 x3 x4 x5 x6 x7) Facts₀.shapeCasts_S2048x128_S1x2048x128 y
      = shapeCast S1x2048x128 (netV x0 x1 x2 x3 x4 x5 x6 x7) Facts₀.shapeCasts_S2048x128_S1x2048x128
          (ix3 (⟨(y 0).val, h0'⟩ : Fin 1) (⟨(y 1).val, h1⟩ : Fin 2048) (⟨(y 2).val, h2⟩ : Fin 128)) :=
        congrArg (shapeCast S1x2048x128 (netV x0 x1 x2 x3 x4 x5 x6 x7) Facts₀.shapeCasts_S2048x128_S1x2048x128) hy
    _ = netV x0 x1 x2 x3 x4 x5 x6 x7 (ix2 (⟨(y 1).val, h1⟩ : Fin 2048) (⟨(y 2).val, h2⟩ : Fin 128)) :=
        shapeCast_ab_1ab_apply (a := 2048) (b := 128) (netV x0 x1 x2 x3 x4 x5 x6 x7) Facts₀.shapeCasts_S2048x128_S1x2048x128 _ _ _
    _ = _ := netV_apply x0 x1 x2 x3 x4 x5 x6 x7 _ _

end Cert.Gnn.KBlock

end
-- ==== Proof.KArray.lean ====
import proofs.«155582_j41644002902305_2_alg».proof.Proof.KValueP
import proofs.«155582_j41644002902305_2_alg».proof.Proof.Spec
import proofs.«155582_j41644002902305_2_alg».proof.Proof.KDist
import Idealize.ShloMosaic.Lib.Pipeline.Value
import Idealize.ShloMosaic.Lib.ValueIdx

/-!
# From the blocks the grid points write to the whole result array

The kernel runs over a grid of eight points, one graph per point. Point `t` loads block `t` of
the batched coordinates (one graph, 2048 × 2) and the seven parameter arrays whole, and writes
back block `t` of the result (2048 × 128). Given what one point's body leaves in its block as a
function of the blocks it loaded (the hypothesis `hout`: the network of that graph, at the node
and feature of the block's index), the result array after the run is the whole-array function
`GK` of the argument arrays: each point writes the restriction of `GK` to its block, since a
block's entry (0, n, e) sits in the array at (t, n, e) and the coordinate block at point `t` is
graph `t`; and the eight blocks cover the array, the index (b, n, e) lying in block `b`.
-/

noncomputable section

namespace Cert.Gnn.KArray

open Cert.KernelIdeal Cert.KernelIdeal.Gen Idealize.ShloMosaic Idealize.ShloMosaic.TcCoe Idealize.SL.Sem
open Idealize.ShloMosaic.ValueIdx Cert.Gnn
open Idealize.ShloMosaic.Pipeline (Dat)

section blocks

variable (m : (ℓ : Loc nD τ sig) → Buf (Elt Ideal) ℓ)

/-- The block index of every window at every grid point, decided over the eight points: the
    coordinate window and the result window sit at block (t, 0, 0), one graph per point, and the
    seven parameter windows at block 0, the whole array. -/
theorem index_facts : ∀ t : Fin cfg0.N,
    win0_8.index t (0 : Fin 3) = t.val ∧ win0_8.index t (1 : Fin 3) = 0 ∧ win0_8.index t (2 : Fin 3) = 0
    ∧ win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 1) = 0 ∧ win0_6.index t (0 : Fin 1) = 0 ∧ win0_7.index t (0 : Fin 1) = 0 :=
  (by decide +kernel : ∀ t : Fin grid0.N, _)

/-! ## The blocks each point loads -/

/-- The coordinate window's block at point `t` is graph `t` of the batched input: its entry
    (0, n, k) sits in the array at (t · 1 + 0, 0 · 2048 + n, 0 · 2 + k). -/
theorem iblk0_apply (c : Dev nD) (t : Fin cfg0.N) (x : S1x2048x2.Idx) (k : S8x2048x2.Idx)
    (hk0 : (k 0).val = t.val) (hk1 : (k 1).val = (x 1).val) (hk2 : (k 2).val = (x 2).val) :
    (iblk m c 0 t : Vec Ideal S1x2048x2 .f32) x = (V m c main_arg0 : S8x2048x2.Idx → EReal) k := by
  obtain ⟨-, -, -, e0, e1, e2, -⟩ := index_facts t
  unfold iblk
  rw [View.read_apply]
  show (V m c main_arg0 : S8x2048x2.Idx → EReal) _ = V m c main_arg0 k
  congr 1
  funext a
  apply Fin.ext
  have hx0 : (x 0).val < 1 := (x 0).isLt
  match a with
  | ⟨0, _⟩ => show win0_0.index t (0 : Fin 3) * 1 + 1 * (x 0).val = (k 0).val; omega
  | ⟨1, _⟩ => show win0_0.index t (1 : Fin 3) * 2048 + 1 * (x 1).val = (k 1).val; omega
  | ⟨2, _⟩ => show win0_0.index t (2 : Fin 3) * 2 + 1 * (x 2).val = (k 2).val; omega

/-- Each parameter window's block is the whole parameter array, at every point. -/
theorem iblk1_eq (c : Dev nD) (t : Fin cfg0.N) :
    (iblk m c 1 t : Vec Ideal S128x2 .f32) = (V m c main_arg1 : S128x2.Idx → EReal) := by
  obtain ⟨-, -, -, -, -, -, e0, e1, -⟩ := index_facts t
  refine funext fun (x : S128x2.Idx) => ?_
  unfold iblk
  rw [View.read_apply]
  show (V m c main_arg1 : S128x2.Idx → EReal) _ = V m c main_arg1 x
  congr 1
  funext a
  apply Fin.ext
  match a with
  | ⟨0, _⟩ => show win0_1.index t (0 : Fin 2) * 128 + 1 * (x 0).val = (x 0).val; omega
  | ⟨1, _⟩ => show win0_1.index t (1 : Fin 2) * 2 + 1 * (x 1).val = (x 1).val; omega

theorem iblk2_eq (c : Dev nD) (t : Fin cfg0.N) :
    (iblk m c 2 t : Vec Ideal S128 .f32) = (V m c main_arg2 : S128.Idx → EReal) := by
  obtain ⟨-, -, -, -, -, -, -, -, e0, -⟩ := index_facts t
  refine funext fun (x : S128.Idx) => ?_
  unfold iblk
  rw [View.read_apply]
  show (V m c main_arg2 : S128.Idx → EReal) _ = V m c main_arg2 x
  congr 1
  funext a
  apply Fin.ext
  match a with
  | ⟨0, _⟩ => show win0_2.index t (0 : Fin 1) * 128 + 1 * (x 0).val = (x 0).val; omega

theorem iblk3_eq (c : Dev nD) (t : Fin cfg0.N) :
    (iblk m c 3 t : Vec Ideal S3x128x128 .f32) = (V m c main_arg3 : S3x128x128.Idx → EReal) := by
  obtain ⟨-, -, -, -, -, -, -, -, -, e0, e1, e2, -⟩ := index_facts t
  refine funext fun (x : S3x128x128.Idx) => ?_
  unfold iblk
  rw [View.read_apply]
  show (V m c main_arg3 : S3x128x128.Idx → EReal) _ = V m c main_arg3 x
  congr 1
  funext a
  apply Fin.ext
  match a with
  | ⟨0, _⟩ => show win0_3.index t (0 : Fin 3) * 3 + 1 * (x 0).val = (x 0).val; omega
  | ⟨1, _⟩ => show win0_3.index t (1 : Fin 3) * 128 + 1 * (x 1).val = (x 1).val; omega
  | ⟨2, _⟩ => show win0_3.index t (2 : Fin 3) * 128 + 1 * (x 2).val = (x 2).val; omega

theorem iblk4_eq (c : Dev nD) (t : Fin cfg0.N) :
    (iblk m c 4 t : Vec Ideal S3x128 .f32) = (V m c main_arg4 : S3x128.Idx → EReal) := by
  obtain ⟨-, -, -, -, -, -, -, -, -, -, -, -, e0, e1, -⟩ := index_facts t
  refine funext fun (x : S3x128.Idx) => ?_
  unfold iblk
  rw [View.read_apply]
  show (V m c main_arg4 : S3x128.Idx → EReal) _ = V m c main_arg4 x
  congr 1
  funext a
  apply Fin.ext
  match a with
  | ⟨0, _⟩ => show win0_4.index t (0 : Fin 2) * 3 + 1 * (x 0).val = (x 0).val; omega
  | ⟨1, _⟩ => show win0_4.index t (1 : Fin 2) * 128 + 1 * (x 1).val = (x 1).val; omega

theorem iblk5_eq (c : Dev nD) (t : Fin cfg0.N) :
    (iblk m c 5 t : Vec Ideal S128 .f32) = (V m c main_arg5 : S128.Idx → EReal) := by
  obtain ⟨-, -, -, -, -, -, -, -, -, -, -, -, -, -, e0, -⟩ := index_facts t
  refine funext fun (x : S128.Idx) => ?_
  unfold iblk
  rw [View.read_apply]
  show (V m c main_arg5 : S128.Idx → EReal) _ = V m c main_arg5 x
  congr 1
  funext a
  apply Fin.ext
  match a with
  | ⟨0, _⟩ => show win0_5.index t (0 : Fin 1) * 128 + 1 * (x 0).val = (x 0).val; omega

theorem iblk6_eq (c : Dev nD) (t : Fin cfg0.N) :
    (iblk m c 6 t : Vec Ideal S128 .f32) = (V m c main_arg6 : S128.Idx → EReal) := by
  obtain ⟨-, -, -, -, -, -, -, -, -, -, -, -, -, -, -, e0, -⟩ := index_facts t
  refine funext fun (x : S128.Idx) => ?_
  unfold iblk
  rw [View.read_apply]
  show (V m c main_arg6 : S128.Idx → EReal) _ = V m c main_arg6 x
  congr 1
  funext a
  apply Fin.ext
  match a with
  | ⟨0, _⟩ => show win0_6.index t (0 : Fin 1) * 128 + 1 * (x 0).val = (x 0).val; omega

theorem iblk7_eq (c : Dev nD) (t : Fin cfg0.N) :
    (iblk m c 7 t : Vec Ideal S128 .f32) = (V m c main_arg7 : S128.Idx → EReal) := by
  obtain ⟨-, -, -, -, -, -, -, -, -, -, -, -, -, -, -, -, e0⟩ := index_facts t
  refine funext fun (x : S128.Idx) => ?_
  unfold iblk
  rw [View.read_apply]
  show (V m c main_arg7 : S128.Idx → EReal) _ = V m c main_arg7 x
  congr 1
  funext a
  apply Fin.ext
  match a with
  | ⟨0, _⟩ => show win0_7.index t (0 : Fin 1) * 128 + 1 * (x 0).val = (x 0).val; omega

/-! ## One point's block of the result -/

/-- What one point computes, read at an index of the whole result array. When the point's
    coordinate block is graph `i 0` of the batched input and its parameter blocks are the whole
    parameter arrays, the network's value at (node, feature) of the block is the whole-array
    function at the index `i` with the same node and feature. -/
theorem point_eq
    (hout : ∀ (x0 : Vec Ideal S1x2048x2 .f32) (x1 : Vec Ideal S128x2 .f32) (x2 : Vec Ideal S128 .f32)
      (x3 : Vec Ideal S3x128x128 .f32) (x4 : Vec Ideal S3x128 .f32) (x5 x6 x7 : Vec Ideal S128 .f32)
      (y : S1x2048x128.Idx),
      out0_8 x0 x1 x2 x3 x4 x5 x6 x7 y
        = outK (KDist.Xof x0) (mat2 x1) (vec1 x2) (mat3 x3) (rows3 x4) (vec1 x5) (vec1 x6) (vec1 x7)
            ⟨(y 1).val, (y 1).isLt⟩ ⟨(y 2).val, (y 2).isLt⟩)
    (a0 : S8x2048x2.Idx → EReal) (a1 : S128x2.Idx → EReal) (a2 : S128.Idx → EReal)
    (a3 : S3x128x128.Idx → EReal) (a4 : S3x128.Idx → EReal) (a5 a6 a7 : S128.Idx → EReal)
    (x0 : Vec Ideal S1x2048x2 .f32) (x1 : Vec Ideal S128x2 .f32) (x2 : Vec Ideal S128 .f32)
    (x3 : Vec Ideal S3x128x128 .f32) (x4 : Vec Ideal S3x128 .f32) (x5 x6 x7 : Vec Ideal S128 .f32)
    (y : S1x2048x128.Idx) (i : S8x2048x128.Idx)
    (hx0 : ∀ (n : Fin 2048) (k : Fin 2), x0 (ix3 (0 : Fin 1) n k) = a0 (ix3 (⟨(i 0).val, (i 0).isLt⟩ : Fin 8) n k))
    (hx1 : x1 = a1) (hx2 : x2 = a2) (hx3 : x3 = a3) (hx4 : x4 = a4) (hx5 : x5 = a5) (hx6 : x6 = a6)
    (hx7 : x7 = a7) (hi1 : (i 1).val = (y 1).val) (hi2 : (i 2).val = (y 2).val) :
    out0_8 x0 x1 x2 x3 x4 x5 x6 x7 y = GK a0 a1 a2 a3 a4 a5 a6 a7 i := by
  subst hx1 hx2 hx3 hx4 hx5 hx6 hx7
  rw [hout]
  unfold GK
  have hX : KDist.Xof x0 = graphOf a0 ⟨(i 0).val, (i 0).isLt⟩ := by
    funext n k
    exact hx0 n k
  have h1 : (⟨(y 1).val, (y 1).isLt⟩ : Fin 2048) = ⟨(i 1).val, (i 1).isLt⟩ := Fin.ext hi1.symm
  have h2 : (⟨(y 2).val, (y 2).isLt⟩ : Fin 128) = ⟨(i 2).val, (i 2).isLt⟩ := Fin.ext hi2.symm
  rw [hX, h1, h2]

/-- WHAT POINT `t` WRITES BACK is block `t` of the whole-array function of the argument arrays. -/
theorem flushed_eq
    (hout : ∀ (x0 : Vec Ideal S1x2048x2 .f32) (x1 : Vec Ideal S128x2 .f32) (x2 : Vec Ideal S128 .f32)
      (x3 : Vec Ideal S3x128x128 .f32) (x4 : Vec Ideal S3x128 .f32) (x5 x6 x7 : Vec Ideal S128 .f32)
      (y : S1x2048x128.Idx),
      out0_8 x0 x1 x2 x3 x4 x5 x6 x7 y
        = outK (KDist.Xof x0) (mat2 x1) (vec1 x2) (mat3 x3) (rows3 x4) (vec1 x5) (vec1 x6) (vec1 x7)
            ⟨(y 1).val, (y 1).isLt⟩ ⟨(y 2).val, (y 2).isLt⟩)
    (c : Dev nD) (t : Fin cfg0.N) :
    (dats m 0 c).flushed 8 t = ((cfg0.win 8).blk t).view.read (Elt Ideal)
      (GK (V m c main_arg0) (V m c main_arg1) (V m c main_arg2) (V m c main_arg3) (V m c main_arg4)
        (V m c main_arg5) (V m c main_arg6) (V m c main_arg7)) := by
  rw [ValueP.flushed8]
  obtain ⟨e0, e1, e2, -⟩ := index_facts t
  refine funext fun (y : S1x2048x128.Idx) => ?_
  rw [View.read_apply]
  have hy0 : (y 0).val < 1 := (y 0).isLt
  have hi0 : ((((cfg0.win 8).blk t).view.emb y : S8x2048x128.Idx) 0).val = t.val := by
    show win0_8.index t (0 : Fin 3) * 1 + 1 * (y 0).val = t.val
    omega
  have hi1 : ((((cfg0.win 8).blk t).view.emb y : S8x2048x128.Idx) 1).val = (y 1).val := by
    show win0_8.index t (1 : Fin 3) * 2048 + 1 * (y 1).val = (y 1).val
    omega
  have hi2 : ((((cfg0.win 8).blk t).view.emb y : S8x2048x128.Idx) 2).val = (y 2).val := by
    show win0_8.index t (2 : Fin 3) * 128 + 1 * (y 2).val = (y 2).val
    omega
  exact point_eq hout (V m c main_arg0) (V m c main_arg1) (V m c main_arg2) (V m c main_arg3)
    (V m c main_arg4) (V m c main_arg5) (V m c main_arg6) (V m c main_arg7)
    (iblk m c 0 t) (iblk m c 1 t) (iblk m c 2 t) (iblk m c 3 t) (iblk m c 4 t) (iblk m c 5 t)
    (iblk m c 6 t) (iblk m c 7 t) y (((cfg0.win 8).blk t).view.emb y)
    (fun n k => iblk0_apply m c t _ _ hi0 rfl rfl)
    (iblk1_eq m c t) (iblk2_eq m c t) (iblk3_eq m c t) (iblk4_eq m c t) (iblk5_eq m c t)
    (iblk6_eq m c t) (iblk7_eq m c t) hi1 hi2

/-! ## The blocks tile the result array -/

/-- Every graph coordinate is some point's block index. -/
theorem index_onto : ∀ q : Fin 8, ∃ t : Fin cfg0.N,
    win0_8.index t (0 : Fin 3) = q.val ∧ win0_8.index t (1 : Fin 3) = 0 ∧ win0_8.index t (2 : Fin 3) = 0 :=
  (by decide +kernel : ∀ q : Fin 8, ∃ t : Fin grid0.N, _)

/-- An index of the result array is in point `t`'s block iff each coordinate is in the block's
    range on its axis. -/
theorem mem_blk (t : Fin cfg0.N) (i : S8x2048x128.Idx) :
    i ∈ ((cfg0.win 8).blk t).view.set ↔ ∀ a : Fin 3, win0_8.index t a * S1x2048x128.size a ≤ (i a).val
      ∧ (i a).val < win0_8.index t a * S1x2048x128.size a + S1x2048x128.size a := by
  show i ∈ ((View.whole main_v0).slice (win0_8.rect t)).set ↔ _
  rw [View.set_slice_whole, Rect.mem_set_unit]
  exact Iff.rfl

/-- Every index of the result array lies in the block of the point whose block index is the
    index's graph coordinate, and every point writes its block back. -/
theorem cover (i : S8x2048x128.Idx) :
    ∃ t : Fin cfg0.N, (cfg0.win 8).flush t = true ∧ i ∈ ((cfg0.win 8).blk t).view.set := by
  have hi0 : (i 0).val < 8 := (i 0).isLt
  have hi1 : (i 1).val < 2048 := (i 1).isLt
  have hi2 : (i 2).val < 128 := (i 2).isLt
  obtain ⟨t, q0, q1, q2⟩ := index_onto ⟨(i 0).val, hi0⟩
  have q0' : win0_8.index t (0 : Fin 3) = (i 0).val := q0
  refine ⟨t, flush0_8 t, ?_⟩
  rw [mem_blk]
  intro a
  match a with
  | ⟨0, _⟩ =>
    show win0_8.index t (0 : Fin 3) * 1 ≤ (i 0).val ∧ (i 0).val < win0_8.index t (0 : Fin 3) * 1 + 1
    omega
  | ⟨1, _⟩ =>
    show win0_8.index t (1 : Fin 3) * 2048 ≤ (i 1).val
      ∧ (i 1).val < win0_8.index t (1 : Fin 3) * 2048 + 2048
    omega
  | ⟨2, _⟩ =>
    show win0_8.index t (2 : Fin 3) * 128 ≤ (i 2).val ∧ (i 2).val < win0_8.index t (2 : Fin 3) * 128 + 128
    omega

/-! ## The result array after the run -/

/-- THE RESULT ARRAY after the run is the whole-array function of the argument arrays as
    launched: every point writes its block of it, and the blocks cover the array. -/
theorem final
    (hout : ∀ (x0 : Vec Ideal S1x2048x2 .f32) (x1 : Vec Ideal S128x2 .f32) (x2 : Vec Ideal S128 .f32)
      (x3 : Vec Ideal S3x128x128 .f32) (x4 : Vec Ideal S3x128 .f32) (x5 x6 x7 : Vec Ideal S128 .f32)
      (y : S1x2048x128.Idx),
      out0_8 x0 x1 x2 x3 x4 x5 x6 x7 y
        = outK (KDist.Xof x0) (mat2 x1) (vec1 x2) (mat3 x3) (rows3 x4) (vec1 x5) (vec1 x6) (vec1 x7)
            ⟨(y 1).val, (y 1).isLt⟩ ⟨(y 2).val, (y 2).isLt⟩)
    (c : Dev nD) :
    (dats m 0 c).arrAt 8 cfg0.N
      = GK (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7)) :=
  (dats m 0 c).arrAt_eq_of_cover 8 _ (fun t _ => flushed_eq m hout c t) cover

end blocks

/-- The run, read: the result array ends holding the network of every graph, graph by graph, as
    one function of the argument arrays as launched, and the argument arrays end unchanged. -/
theorem run_GK [Cert.KernelIdeal.Facts]
    (hout : ∀ (x0 : Vec Ideal S1x2048x2 .f32) (x1 : Vec Ideal S128x2 .f32) (x2 : Vec Ideal S128 .f32)
      (x3 : Vec Ideal S3x128x128 .f32) (x4 : Vec Ideal S3x128 .f32) (x5 x6 x7 : Vec Ideal S128 .f32)
      (y : S1x2048x128.Idx),
      out0_8 x0 x1 x2 x3 x4 x5 x6 x7 y
        = outK (KDist.Xof x0) (mat2 x1) (vec1 x2) (mat3 x3) (rows3 x4) (vec1 x5) (vec1 x6) (vec1 x7)
            ⟨(y 1).val, (y 1).isLt⟩ ⟨(y 2).val, (y 2).isLt⟩)
    (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v0)
        = GK (m ((c : Thread nD τ).loc main_arg0)) (m ((c : Thread nD τ).loc main_arg1))
            (m ((c : Thread nD τ).loc main_arg2)) (m ((c : Thread nD τ).loc main_arg3))
            (m ((c : Thread nD τ).loc main_arg4)) (m ((c : Thread nD τ).loc main_arg5))
            (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m hout c), (h c).2⟩)
    (ValueP.run_blocks m ρ)

end Cert.Gnn.KArray

end
-- ==== Proof.RefArr.lean ====
import proofs.«155582_j41644002902305_2_alg».proof.Proof.RefReadP
import proofs.«155582_j41644002902305_2_alg».proof.Proof.Spec

noncomputable section

namespace Cert.Gnn.Ref

open Cert.ReferenceIdeal Cert.ReferenceIdeal.ReadP Idealize.ShloMosaic Idealize.ShloMosaic.ValueIdx
open scoped BigOperators

/-! ## Coordinates -/

/-- Coordinates of an index of the 8 × 2048 × 2048 arrays. -/
abbrev gB (i : S8x2048x2048.Idx) : Fin 8 := ⟨(i 0).val, (i 0).isLt⟩
abbrev gN (i : S8x2048x2048.Idx) : Fin 2048 := ⟨(i 1).val, (i 1).isLt⟩
abbrev gM (i : S8x2048x2048.Idx) : Fin 2048 := ⟨(i 2).val, (i 2).isLt⟩
/-- Coordinates of an index of the 8 × 2048 arrays. -/
abbrev jB (j : S8x2048.Idx) : Fin 8 := ⟨(j 0).val, (j 0).isLt⟩
abbrev jN (j : S8x2048.Idx) : Fin 2048 := ⟨(j 1).val, (j 1).isLt⟩
/-- Coordinates of an index of the 8 × 2048 × 128 arrays. -/
abbrev hB (i : S8x2048x128.Idx) : Fin 8 := ⟨(i 0).val, (i 0).isLt⟩
abbrev hN (i : S8x2048x128.Idx) : Fin 2048 := ⟨(i 1).val, (i 1).isLt⟩
abbrev hE (i : S8x2048x128.Idx) : Fin 128 := ⟨(i 2).val, (i 2).isLt⟩
/-- Coordinates of an index of the 8 × 1 × 128 arrays (the column statistics). -/
abbrev cB (c : S8x1x128.Idx) : Fin 8 := ⟨(c 0).val, (c 0).isLt⟩
abbrev cE (c : S8x1x128.Idx) : Fin 128 := ⟨(c 2).val, (c 2).isLt⟩

/-! ## One layer, array by array

The reference's layer, written over whole arrays in its own order of operations: h·Wᵀ, the product with the normalised
adjacency, bias, tanh and residual, the column mean (0 plus a sum over the 2048 nodes, divided by 2048), the centred
activations, the column mean of their squares, and the normalised output. The index functions are those of the
operations themselves (a broadcast reads its operand where the unit axes are 0). -/

section arr
variable (An : S8x2048x2048.Idx → EReal) (h : S8x2048x128.Idx → EReal) (W : S128x128.Idx → EReal)
  (b g1 g2 g3 : S128.Idx → EReal)

/-- h·Wᵀ. -/
def aLin (i : S8x2048x128.Idx) : EReal := ∑ k : Fin 128, h (lidx_main_v39 i k) * W (ridx_main_v39 i k)

/-- The product with the normalised adjacency. -/
def aAgg (i : S8x2048x128.Idx) : EReal := ∑ k : Fin 2048, An (lidx_main_v40 i k) * aLin h W (ridx_main_v40 i k)

/-- Bias, tanh, residual. -/
def aAct (i : S8x2048x128.Idx) : EReal :=
  Ideal.tanh (aAgg An h W i + b (idx_main_v43 (idx_main_v44 i))) + h i

/-- The column mean of the activations. -/
def aMean (c : S8x1x128.Idx) : EReal :=
  Ideal.div (wZero + ∑ k : Fin 2048, aAct An h W b (idx_main_v48 (idx_main_v49 c) k)) wRows

/-- The activations less g3 · mean. -/
def aCen (i : S8x2048x128.Idx) : EReal :=
  aAct An h W b i - g3 (idx_main_v52 (idx_main_v53 (idx_main_v55 i))) * aMean An h W b (idx_main_v55 i)

/-- The column mean of the squares of what is left. -/
def aVar (c : S8x1x128.Idx) : EReal :=
  Ideal.div (wZero + ∑ k : Fin 2048,
    aCen An h W b g3 (idx_main_v58 (idx_main_v59 c) k) * aCen An h W b g3 (idx_main_v58 (idx_main_v59 c) k)) wRows

/-- The layer's output. -/
def layerArr (i : S8x2048x128.Idx) : EReal :=
  (g1 (idx_main_v62 (idx_main_v63 i)) * aCen An h W b g3 i) * Ideal.rsqrt (aVar An h W b g3 (idx_main_v68 i) + wEps)
    + g2 (idx_main_v70 (idx_main_v71 i))

end arr

end Cert.Gnn.Ref

end
-- ==== Proof.RefDist.lean ====
import proofs.«155582_j41644002902305_2_alg».proof.Proof.RefReadP
import proofs.«155582_j41644002902305_2_alg».proof.Proof.Spec
import proofs.«155582_j41644002902305_2_alg».proof.Proof.RefArr

noncomputable section

namespace Cert.Gnn.Ref

open Cert.ReferenceIdeal Cert.ReferenceIdeal.ReadP Idealize.ShloMosaic Idealize.ShloMosaic.ValueIdx
open scoped BigOperators

/-! ## Distances, degrees, the normalised adjacency and the input projection

The reference forms |x_n|² as 0 + Σ_{k<2} x_n(k)·x_n(k), spreads it along rows and along columns, subtracts twice the
Gram matrix Σ_{k<2} x_n(k)·x_m(k), and takes the guarded root; it adds the identity matrix (built from two index
grids compared for equality), sums the rows, takes the inverse root, and scales rows and columns. Read at an index
each of these arrays is the corresponding function of the network. -/

theorem idx_row (i : S8x2048x2048.Idx) (k : Fin 2) :
    idx_main_v1 (idx_main_v2 (idx_main_v4 i)) k = ix3 (gB i) (gN i) k :=
  funext fun a => Fin.ext (by match a with | ⟨0, _⟩ => rfl | ⟨1, _⟩ => rfl | ⟨2, _⟩ => rfl)

theorem idx_col (i : S8x2048x2048.Idx) (k : Fin 2) :
    idx_main_v1 (idx_main_v3 (idx_main_v5 i)) k = ix3 (gB i) (gM i) k :=
  funext fun a => Fin.ext (by match a with | ⟨0, _⟩ => rfl | ⟨1, _⟩ => rfl | ⟨2, _⟩ => rfl)

theorem idx_gl (i : S8x2048x2048.Idx) (k : Fin 2) : lidx_main_v7 i k = ix3 (gB i) (gN i) k :=
  funext fun a => Fin.ext (by match a with | ⟨0, _⟩ => rfl | ⟨1, _⟩ => rfl | ⟨2, _⟩ => rfl)

theorem idx_gr (i : S8x2048x2048.Idx) (k : Fin 2) : ridx_main_v7 i k = ix3 (gB i) (gM i) k :=
  funext fun a => Fin.ext (by match a with | ⟨0, _⟩ => rfl | ⟨1, _⟩ => rfl | ⟨2, _⟩ => rfl)

/-- The difference under the root, at an index. -/
theorem v10_eq (x0 : (⟨S8x2048x2, .f32⟩ : BufTy).Contents (Elt Ideal)) (i : S8x2048x2048.Idx) :
    val_main_v10 (F := Ideal) x0 i = d2 (graphOf x0 (gB i)) (gN i) (gM i) := by
  simp only [val_main_v10_apply, val_main_v6_apply, val_main_v4_apply, val_main_v5_apply, val_main_v2_apply,
    val_main_v3_apply, val_main_v1_apply, val_main_v0_apply, val_main_cst_apply, val_main_v9_apply,
    val_main_v8_apply, val_main_cst_0_apply, val_main_v7_apply, Ideal.mulf_def, Ideal.addf_def, Ideal.subf_def,
    Ideal.ofBits_def, idx_row, idx_col, idx_gl, idx_gr, Fin.sum_univ_two, Ideal.ofBits_zero_f32, zero_add,
    d2, sqn, graphOf]

/-- The guarded root, at an index: the distance between nodes n and m of graph b. -/
theorem v15_eq (x0 : (⟨S8x2048x2, .f32⟩ : BufTy).Contents (Elt Ideal)) (i : S8x2048x2048.Idx) :
    val_main_v15 (F := Ideal) x0 i = dist (graphOf x0 (gB i)) (gN i) (gM i) := by
  simp only [val_main_v15_apply, val_main_v14_apply, val_main_v13_apply, val_main_v12_apply, val_main_v11_apply,
    val_main_cst_1_apply, val_main_call0_v1_apply, val_main_call0_v0_apply, val_main_cst_2_apply,
    val_main_call1_v1_apply, val_main_call1_v0_apply, val_main_cst_3_apply, v10_eq, Ideal.cmpf_def,
    Ideal.hostUnary_sqrt_def, Ideal.ofBits_def, dist, distE]

/-! ### The identity matrix -/

/-- Two numbers below 2048, as 32-bit words, are equal words exactly when they are equal; the one-bit answer read as
    an unsigned number is 1 or 0. -/
theorem eyeWord (n m : Nat) (hn : n < 2048) (hm : m < 2048) :
    (((IntOp.cmpi .eq (IntOp.addi (BitVec.ofNat 32 n) 0#32) (BitVec.ofNat 32 m)).toNat : ℝ) : EReal)
      = if n = m then 1 else 0 := by
  by_cases h : n = m
  · subst h
    simp [IntOp.cmpi, IntOp.addi]
  · have hne : BitVec.ofNat 32 n ≠ BitVec.ofNat 32 m := by
      intro heq
      have := congrArg BitVec.toNat heq
      simp only [BitVec.toNat_ofNat] at this
      omega
    have hb : (BitVec.ofNat 32 n == BitVec.ofNat 32 m) = false := by simpa using hne
    simp [IntOp.cmpi, IntOp.addi, h, hb]

theorem v23_eq (i : S8x2048x2048.Idx) : val_main_v23 (F := Ideal) i = eye (gN i) (gM i) := by
  rw [val_main_v23_apply, val_main_v22_apply, val_main_v21_apply, val_main_v20_apply, val_main_v19_apply,
    val_main_v16_apply, val_main_v17_apply, val_main_v18_apply, val_main_c_apply]
  show (((IntOp.cmpi .eq (IntOp.addi (BitVec.ofNat 32 (i 1).val) 0#32) (BitVec.ofNat 32 (i 2).val)).toNat : ℝ) : EReal)
    = if gN i = gM i then 1 else 0
  rw [eyeWord _ _ (i 1).isLt (i 2).isLt]
  by_cases h : (i 1).val = (i 2).val
  · rw [if_pos h, if_pos (show gN i = gM i from Fin.ext h)]
  · rw [if_neg h, if_neg (fun e : gN i = gM i => h (congrArg Fin.val e))]

/-! ### Degrees and the normalised adjacency -/

theorem v24_eq (x0 : (⟨S8x2048x2, .f32⟩ : BufTy).Contents (Elt Ideal)) (i : S8x2048x2048.Idx) :
    val_main_v24 (F := Ideal) x0 i = dist (graphOf x0 (gB i)) (gN i) (gM i) + eye (gN i) (gM i) := by
  rw [val_main_v24_apply, Ideal.addf_def, v15_eq, v23_eq]

theorem v26_eq (x0 : (⟨S8x2048x2, .f32⟩ : BufTy).Contents (Elt Ideal)) (j : S8x2048.Idx) :
    val_main_v26 (F := Ideal) x0 j = dinvR (graphOf x0 (jB j)) (jN j) := by
  rw [val_main_v26_apply, Ideal.hostUnary_rsqrt_def, val_main_v25_apply, val_main_cst_4_apply, Ideal.ofBits_def,
    Ideal.ofBits_zero_f32, zero_add]
  unfold dinvR degR
  refine congrArg Ideal.rsqrt (Finset.sum_congr rfl fun k _ => ?_)
  rw [v24_eq]

/-- The normalised adjacency at an index. -/
theorem v32_eq (x0 : (⟨S8x2048x2, .f32⟩ : BufTy).Contents (Elt Ideal)) (i : S8x2048x2048.Idx) :
    val_main_v32 (F := Ideal) x0 i
      = (dinvR (graphOf x0 (gB i)) (gN i) * (dist (graphOf x0 (gB i)) (gN i) (gM i) + eye (gN i) (gM i)))
          * dinvR (graphOf x0 (gB i)) (gM i) := by
  rw [val_main_v32_apply, val_main_v29_apply, val_main_v28_apply, val_main_v27_apply, val_main_v31_apply,
    val_main_v30_apply, Ideal.mulf_def, Ideal.mulf_def, v26_eq, v26_eq, v24_eq]

/-! ### The input projection -/

theorem idx_pl (i : S8x2048x128.Idx) (k : Fin 2) : lidx_main_v33 i k = ix3 (hB i) (hN i) k :=
  funext fun a => Fin.ext (by match a with | ⟨0, _⟩ => rfl | ⟨1, _⟩ => rfl | ⟨2, _⟩ => rfl)

theorem idx_pr (i : S8x2048x128.Idx) (k : Fin 2) : ridx_main_v33 i k = ix2 (hE i) k :=
  funext fun a => Fin.ext (by match a with | ⟨0, _⟩ => rfl | ⟨1, _⟩ => rfl)

theorem idx_pb (i : S8x2048x128.Idx) : idx_main_v34 (idx_main_v35 i) = ix1 (hE i) :=
  funext fun a => Fin.ext (by match a with | ⟨0, _⟩ => rfl)

theorem v36_eq (x0 : (⟨S8x2048x2, .f32⟩ : BufTy).Contents (Elt Ideal)) (x1 : (⟨S128x2, .f32⟩ : BufTy).Contents (Elt Ideal)) (x2 : (⟨S128, .f32⟩ : BufTy).Contents (Elt Ideal)) (i : S8x2048x128.Idx) :
    val_main_v36 (F := Ideal) x0 x1 x2 i = h0 (graphOf x0 (hB i)) (mat2 x1) (vec1 x2) (hN i) (hE i) := by
  rw [val_main_v36_apply, Ideal.addf_def, val_main_v33_apply, val_main_v35_apply, val_main_v34_apply, idx_pb]
  unfold h0 graphOf mat2 vec1
  refine congrArg (· + _) (Finset.sum_congr rfl fun k _ => ?_)
  rw [idx_pl, idx_pr]

end Cert.Gnn.Ref

end
-- ==== Proof.RefLayerA.lean ====
import proofs.«155582_j41644002902305_2_alg».proof.Proof.RefReadP
import proofs.«155582_j41644002902305_2_alg».proof.Proof.Spec
import proofs.«155582_j41644002902305_2_alg».proof.Proof.RefArr

noncomputable section

namespace Cert.Gnn.Ref

open Cert.ReferenceIdeal Cert.ReferenceIdeal.ReadP Idealize.ShloMosaic Idealize.ShloMosaic.ValueIdx
open scoped BigOperators

/-! ## The three layers, array by array

Each of the reference's three layers is the array-level layer applied to the normalised adjacency, the previous
layer's output, and that layer's slice of the weights and biases. Only the layer's own operations are opened; the
earlier arrays stay as they are. -/

/-! ### Layer 1 (operations %37 … %72) -/

theorem l1_lin (x0 : (⟨S8x2048x2, .f32⟩ : BufTy).Contents (Elt Ideal)) (x1 : (⟨S128x2, .f32⟩ : BufTy).Contents (Elt Ideal)) (x2 : (⟨S128, .f32⟩ : BufTy).Contents (Elt Ideal)) (x3 : (⟨S3x128x128, .f32⟩ : BufTy).Contents (Elt Ideal)) (x4 : (⟨S3x128, .f32⟩ : BufTy).Contents (Elt Ideal)) (x5 x6 x7 : (⟨S128, .f32⟩ : BufTy).Contents (Elt Ideal)) :
    (val_main_v39 (F := Ideal) x0 x1 x2 x3) = aLin (val_main_v36 (F := Ideal) x0 x1 x2) (val_main_v38 (F := Ideal) x3) := by
  funext i
  rw [val_main_v39_apply]
  rfl

theorem l1_agg (x0 : (⟨S8x2048x2, .f32⟩ : BufTy).Contents (Elt Ideal)) (x1 : (⟨S128x2, .f32⟩ : BufTy).Contents (Elt Ideal)) (x2 : (⟨S128, .f32⟩ : BufTy).Contents (Elt Ideal)) (x3 : (⟨S3x128x128, .f32⟩ : BufTy).Contents (Elt Ideal)) (x4 : (⟨S3x128, .f32⟩ : BufTy).Contents (Elt Ideal)) (x5 x6 x7 : (⟨S128, .f32⟩ : BufTy).Contents (Elt Ideal)) :
    (val_main_v40 (F := Ideal) x0 x1 x2 x3) = aAgg (val_main_v32 (F := Ideal) x0) (val_main_v36 (F := Ideal) x0 x1 x2) (val_main_v38 (F := Ideal) x3) := by
  funext i
  rw [val_main_v40_apply, l1_lin x0 x1 x2 x3 x4 x5 x6 x7]
  rfl

theorem l1_act (x0 : (⟨S8x2048x2, .f32⟩ : BufTy).Contents (Elt Ideal)) (x1 : (⟨S128x2, .f32⟩ : BufTy).Contents (Elt Ideal)) (x2 : (⟨S128, .f32⟩ : BufTy).Contents (Elt Ideal)) (x3 : (⟨S3x128x128, .f32⟩ : BufTy).Contents (Elt Ideal)) (x4 : (⟨S3x128, .f32⟩ : BufTy).Contents (Elt Ideal)) (x5 x6 x7 : (⟨S128, .f32⟩ : BufTy).Contents (Elt Ideal)) :
    (val_main_v47 (F := Ideal) x0 x1 x2 x3 x4) = aAct (val_main_v32 (F := Ideal) x0) (val_main_v36 (F := Ideal) x0 x1 x2) (val_main_v38 (F := Ideal) x3) (val_main_v42 (F := Ideal) x4) := by
  funext i
  simp only [val_main_v47_apply, val_main_v46_apply, val_main_v45_apply, val_main_v44_apply, val_main_v43_apply, l1_agg x0 x1 x2 x3 x4 x5 x6 x7,
    Ideal.addf_def, Ideal.hostUnary_tanh_def]
  rfl

theorem l1_mean (x0 : (⟨S8x2048x2, .f32⟩ : BufTy).Contents (Elt Ideal)) (x1 : (⟨S128x2, .f32⟩ : BufTy).Contents (Elt Ideal)) (x2 : (⟨S128, .f32⟩ : BufTy).Contents (Elt Ideal)) (x3 : (⟨S3x128x128, .f32⟩ : BufTy).Contents (Elt Ideal)) (x4 : (⟨S3x128, .f32⟩ : BufTy).Contents (Elt Ideal)) (x5 x6 x7 : (⟨S128, .f32⟩ : BufTy).Contents (Elt Ideal)) :
    (val_main_v51 (F := Ideal) x0 x1 x2 x3 x4) = aMean (val_main_v32 (F := Ideal) x0) (val_main_v36 (F := Ideal) x0 x1 x2) (val_main_v38 (F := Ideal) x3) (val_main_v42 (F := Ideal) x4) := by
  funext c
  simp only [val_main_v51_apply, val_main_v49_apply, val_main_v48_apply, val_main_cst_5_apply, val_main_v50_apply, val_main_cst_6_apply,
    l1_act x0 x1 x2 x3 x4 x5 x6 x7, Ideal.hostDivf_def, Ideal.ofBits_def]
  rfl

theorem l1_cen (x0 : (⟨S8x2048x2, .f32⟩ : BufTy).Contents (Elt Ideal)) (x1 : (⟨S128x2, .f32⟩ : BufTy).Contents (Elt Ideal)) (x2 : (⟨S128, .f32⟩ : BufTy).Contents (Elt Ideal)) (x3 : (⟨S3x128x128, .f32⟩ : BufTy).Contents (Elt Ideal)) (x4 : (⟨S3x128, .f32⟩ : BufTy).Contents (Elt Ideal)) (x5 x6 x7 : (⟨S128, .f32⟩ : BufTy).Contents (Elt Ideal)) :
    (val_main_v56 (F := Ideal) x0 x1 x2 x3 x4 x7) = aCen (val_main_v32 (F := Ideal) x0) (val_main_v36 (F := Ideal) x0 x1 x2) (val_main_v38 (F := Ideal) x3) (val_main_v42 (F := Ideal) x4) x7 := by
  funext i
  simp only [val_main_v56_apply, val_main_v55_apply, val_main_v54_apply, val_main_v53_apply, val_main_v52_apply, l1_act x0 x1 x2 x3 x4 x5 x6 x7,
    l1_mean x0 x1 x2 x3 x4 x5 x6 x7, Ideal.subf_def, Ideal.mulf_def]
  rfl

theorem l1_var (x0 : (⟨S8x2048x2, .f32⟩ : BufTy).Contents (Elt Ideal)) (x1 : (⟨S128x2, .f32⟩ : BufTy).Contents (Elt Ideal)) (x2 : (⟨S128, .f32⟩ : BufTy).Contents (Elt Ideal)) (x3 : (⟨S3x128x128, .f32⟩ : BufTy).Contents (Elt Ideal)) (x4 : (⟨S3x128, .f32⟩ : BufTy).Contents (Elt Ideal)) (x5 x6 x7 : (⟨S128, .f32⟩ : BufTy).Contents (Elt Ideal)) :
    (val_main_v61 (F := Ideal) x0 x1 x2 x3 x4 x7) = aVar (val_main_v32 (F := Ideal) x0) (val_main_v36 (F := Ideal) x0 x1 x2) (val_main_v38 (F := Ideal) x3) (val_main_v42 (F := Ideal) x4) x7 := by
  funext c
  simp only [val_main_v61_apply, val_main_v59_apply, val_main_v58_apply, val_main_cst_7_apply, val_main_v57_apply, val_main_v60_apply, val_main_cst_8_apply,
    l1_cen x0 x1 x2 x3 x4 x5 x6 x7, Ideal.hostDivf_def, Ideal.mulf_def, Ideal.ofBits_def]
  rfl

theorem l1_out (x0 : (⟨S8x2048x2, .f32⟩ : BufTy).Contents (Elt Ideal)) (x1 : (⟨S128x2, .f32⟩ : BufTy).Contents (Elt Ideal)) (x2 : (⟨S128, .f32⟩ : BufTy).Contents (Elt Ideal)) (x3 : (⟨S3x128x128, .f32⟩ : BufTy).Contents (Elt Ideal)) (x4 : (⟨S3x128, .f32⟩ : BufTy).Contents (Elt Ideal)) (x5 x6 x7 : (⟨S128, .f32⟩ : BufTy).Contents (Elt Ideal)) :
    (val_main_v72 (F := Ideal) x0 x1 x2 x3 x4 x5 x6 x7) = layerArr (val_main_v32 (F := Ideal) x0) (val_main_v36 (F := Ideal) x0 x1 x2) (val_main_v38 (F := Ideal) x3) (val_main_v42 (F := Ideal) x4) x5 x6 x7 := by
  funext i
  simp only [val_main_v72_apply, val_main_v71_apply, val_main_v70_apply, val_main_v69_apply, val_main_v68_apply, val_main_v67_apply, val_main_v66_apply, val_main_v65_apply, val_main_cst_9_apply,
    val_main_v64_apply, val_main_v63_apply, val_main_v62_apply, l1_cen x0 x1 x2 x3 x4 x5 x6 x7, l1_var x0 x1 x2 x3 x4 x5 x6 x7,
    Ideal.addf_def, Ideal.mulf_def, Ideal.hostUnary_rsqrt_def, Ideal.ofBits_def]
  rfl

/-! ### Layer 2 (operations %73 … %108) -/

theorem l2_lin (x0 : (⟨S8x2048x2, .f32⟩ : BufTy).Contents (Elt Ideal)) (x1 : (⟨S128x2, .f32⟩ : BufTy).Contents (Elt Ideal)) (x2 : (⟨S128, .f32⟩ : BufTy).Contents (Elt Ideal)) (x3 : (⟨S3x128x128, .f32⟩ : BufTy).Contents (Elt Ideal)) (x4 : (⟨S3x128, .f32⟩ : BufTy).Contents (Elt Ideal)) (x5 x6 x7 : (⟨S128, .f32⟩ : BufTy).Contents (Elt Ideal)) :
    (val_main_v75 (F := Ideal) x0 x1 x2 x3 x4 x5 x6 x7) = aLin (val_main_v72 (F := Ideal) x0 x1 x2 x3 x4 x5 x6 x7) (val_main_v74 (F := Ideal) x3) := by
  funext i
  rw [val_main_v75_apply]
  rfl

theorem l2_agg (x0 : (⟨S8x2048x2, .f32⟩ : BufTy).Contents (Elt Ideal)) (x1 : (⟨S128x2, .f32⟩ : BufTy).Contents (Elt Ideal)) (x2 : (⟨S128, .f32⟩ : BufTy).Contents (Elt Ideal)) (x3 : (⟨S3x128x128, .f32⟩ : BufTy).Contents (Elt Ideal)) (x4 : (⟨S3x128, .f32⟩ : BufTy).Contents (Elt Ideal)) (x5 x6 x7 : (⟨S128, .f32⟩ : BufTy).Contents (Elt Ideal)) :
    (val_main_v76 (F := Ideal) x0 x1 x2 x3 x4 x5 x6 x7) = aAgg (val_main_v32 (F := Ideal) x0) (val_main_v72 (F := Ideal) x0 x1 x2 x3 x4 x5 x6 x7) (val_main_v74 (F := Ideal) x3) := by
  funext i
  rw [val_main_v76_apply, l2_lin x0 x1 x2 x3 x4 x5 x6 x7]
  rfl

theorem l2_act (x0 : (⟨S8x2048x2, .f32⟩ : BufTy).Contents (Elt Ideal)) (x1 : (⟨S128x2, .f32⟩ : BufTy).Contents (Elt Ideal)) (x2 : (⟨S128, .f32⟩ : BufTy).Contents (Elt Ideal)) (x3 : (⟨S3x128x128, .f32⟩ : BufTy).Contents (Elt Ideal)) (x4 : (⟨S3x128, .f32⟩ : BufTy).Contents (Elt Ideal)) (x5 x6 x7 : (⟨S128, .f32⟩ : BufTy).Contents (Elt Ideal)) :
    (val_main_v83 (F := Ideal) x0 x1 x2 x3 x4 x5 x6 x7) = aAct (val_main_v32 (F := Ideal) x0) (val_main_v72 (F := Ideal) x0 x1 x2 x3 x4 x5 x6 x7) (val_main_v74 (F := Ideal) x3) (val_main_v78 (F := Ideal) x4) := by
  funext i
  simp only [val_main_v83_apply, val_main_v82_apply, val_main_v81_apply, val_main_v80_apply, val_main_v79_apply, l2_agg x0 x1 x2 x3 x4 x5 x6 x7,
    Ideal.addf_def, Ideal.hostUnary_tanh_def]
  rfl

theorem l2_mean (x0 : (⟨S8x2048x2, .f32⟩ : BufTy).Contents (Elt Ideal)) (x1 : (⟨S128x2, .f32⟩ : BufTy).Contents (Elt Ideal)) (x2 : (⟨S128, .f32⟩ : BufTy).Contents (Elt Ideal)) (x3 : (⟨S3x128x128, .f32⟩ : BufTy).Contents (Elt Ideal)) (x4 : (⟨S3x128, .f32⟩ : BufTy).Contents (Elt Ideal)) (x5 x6 x7 : (⟨S128, .f32⟩ : BufTy).Contents (Elt Ideal)) :
    (val_main_v87 (F := Ideal) x0 x1 x2 x3 x4 x5 x6 x7) = aMean (val_main_v32 (F := Ideal) x0) (val_main_v72 (F := Ideal) x0 x1 x2 x3 x4 x5 x6 x7) (val_main_v74 (F := Ideal) x3) (val_main_v78 (F := Ideal) x4) := by
  funext c
  simp only [val_main_v87_apply, val_main_v85_apply, val_main_v84_apply, val_main_cst_10_apply, val_main_v86_apply, val_main_cst_11_apply,
    l2_act x0 x1 x2 x3 x4 x5 x6 x7, Ideal.hostDivf_def, Ideal.ofBits_def]
  rfl

theorem l2_cen (x0 : (⟨S8x2048x2, .f32⟩ : BufTy).Contents (Elt Ideal)) (x1 : (⟨S128x2, .f32⟩ : BufTy).Contents (Elt Ideal)) (x2 : (⟨S128, .f32⟩ : BufTy).Contents (Elt Ideal)) (x3 : (⟨S3x128x128, .f32⟩ : BufTy).Contents (Elt Ideal)) (x4 : (⟨S3x128, .f32⟩ : BufTy).Contents (Elt Ideal)) (x5 x6 x7 : (⟨S128, .f32⟩ : BufTy).Contents (Elt Ideal)) :
    (val_main_v92 (F := Ideal) x0 x1 x2 x3 x4 x5 x6 x7) = aCen (val_main_v32 (F := Ideal) x0) (val_main_v72 (F := Ideal) x0 x1 x2 x3 x4 x5 x6 x7) (val_main_v74 (F := Ideal) x3) (val_main_v78 (F := Ideal) x4) x7 := by
  funext i
  simp only [val_main_v92_apply, val_main_v91_apply, val_main_v90_apply, val_main_v89_apply, val_main_v88_apply, l2_act x0 x1 x2 x3 x4 x5 x6 x7,
    l2_mean x0 x1 x2 x3 x4 x5 x6 x7, Ideal.subf_def, Ideal.mulf_def]
  rfl

theorem l2_var (x0 : (⟨S8x2048x2, .f32⟩ : BufTy).Contents (Elt Ideal)) (x1 : (⟨S128x2, .f32⟩ : BufTy).Contents (Elt Ideal)) (x2 : (⟨S128, .f32⟩ : BufTy).Contents (Elt Ideal)) (x3 : (⟨S3x128x128, .f32⟩ : BufTy).Contents (Elt Ideal)) (x4 : (⟨S3x128, .f32⟩ : BufTy).Contents (Elt Ideal)) (x5 x6 x7 : (⟨S128, .f32⟩ : BufTy).Contents (Elt Ideal)) :
    (val_main_v97 (F := Ideal) x0 x1 x2 x3 x4 x5 x6 x7) = aVar (val_main_v32 (F := Ideal) x0) (val_main_v72 (F := Ideal) x0 x1 x2 x3 x4 x5 x6 x7) (val_main_v74 (F := Ideal) x3) (val_main_v78 (F := Ideal) x4) x7 := by
  funext c
  simp only [val_main_v97_apply, val_main_v95_apply, val_main_v94_apply, val_main_cst_12_apply, val_main_v93_apply, val_main_v96_apply, val_main_cst_13_apply,
    l2_cen x0 x1 x2 x3 x4 x5 x6 x7, Ideal.hostDivf_def, Ideal.mulf_def, Ideal.ofBits_def]
  rfl

theorem l2_out (x0 : (⟨S8x2048x2, .f32⟩ : BufTy).Contents (Elt Ideal)) (x1 : (⟨S128x2, .f32⟩ : BufTy).Contents (Elt Ideal)) (x2 : (⟨S128, .f32⟩ : BufTy).Contents (Elt Ideal)) (x3 : (⟨S3x128x128, .f32⟩ : BufTy).Contents (Elt Ideal)) (x4 : (⟨S3x128, .f32⟩ : BufTy).Contents (Elt Ideal)) (x5 x6 x7 : (⟨S128, .f32⟩ : BufTy).Contents (Elt Ideal)) :
    (val_main_v108 (F := Ideal) x0 x1 x2 x3 x4 x5 x6 x7) = layerArr (val_main_v32 (F := Ideal) x0) (val_main_v72 (F := Ideal) x0 x1 x2 x3 x4 x5 x6 x7) (val_main_v74 (F := Ideal) x3) (val_main_v78 (F := Ideal) x4) x5 x6 x7 := by
  funext i
  simp only [val_main_v108_apply, val_main_v107_apply, val_main_v106_apply, val_main_v105_apply, val_main_v104_apply, val_main_v103_apply, val_main_v102_apply, val_main_v101_apply, val_main_cst_14_apply,
    val_main_v100_apply, val_main_v99_apply, val_main_v98_apply, l2_cen x0 x1 x2 x3 x4 x5 x6 x7, l2_var x0 x1 x2 x3 x4 x5 x6 x7,
    Ideal.addf_def, Ideal.mulf_def, Ideal.hostUnary_rsqrt_def, Ideal.ofBits_def]
  rfl

/-! ### Layer 3 (operations %109 … %144) -/

theorem l3_lin (x0 : (⟨S8x2048x2, .f32⟩ : BufTy).Contents (Elt Ideal)) (x1 : (⟨S128x2, .f32⟩ : BufTy).Contents (Elt Ideal)) (x2 : (⟨S128, .f32⟩ : BufTy).Contents (Elt Ideal)) (x3 : (⟨S3x128x128, .f32⟩ : BufTy).Contents (Elt Ideal)) (x4 : (⟨S3x128, .f32⟩ : BufTy).Contents (Elt Ideal)) (x5 x6 x7 : (⟨S128, .f32⟩ : BufTy).Contents (Elt Ideal)) :
    (val_main_v111 (F := Ideal) x0 x1 x2 x3 x4 x5 x6 x7) = aLin (val_main_v108 (F := Ideal) x0 x1 x2 x3 x4 x5 x6 x7) (val_main_v110 (F := Ideal) x3) := by
  funext i
  rw [val_main_v111_apply]
  rfl

theorem l3_agg (x0 : (⟨S8x2048x2, .f32⟩ : BufTy).Contents (Elt Ideal)) (x1 : (⟨S128x2, .f32⟩ : BufTy).Contents (Elt Ideal)) (x2 : (⟨S128, .f32⟩ : BufTy).Contents (Elt Ideal)) (x3 : (⟨S3x128x128, .f32⟩ : BufTy).Contents (Elt Ideal)) (x4 : (⟨S3x128, .f32⟩ : BufTy).Contents (Elt Ideal)) (x5 x6 x7 : (⟨S128, .f32⟩ : BufTy).Contents (Elt Ideal)) :
    (val_main_v112 (F := Ideal) x0 x1 x2 x3 x4 x5 x6 x7) = aAgg (val_main_v32 (F := Ideal) x0) (val_main_v108 (F := Ideal) x0 x1 x2 x3 x4 x5 x6 x7) (val_main_v110 (F := Ideal) x3) := by
  funext i
  rw [val_main_v112_apply, l3_lin x0 x1 x2 x3 x4 x5 x6 x7]
  rfl

theorem l3_act (x0 : (⟨S8x2048x2, .f32⟩ : BufTy).Contents (Elt Ideal)) (x1 : (⟨S128x2, .f32⟩ : BufTy).Contents (Elt Ideal)) (x2 : (⟨S128, .f32⟩ : BufTy).Contents (Elt Ideal)) (x3 : (⟨S3x128x128, .f32⟩ : BufTy).Contents (Elt Ideal)) (x4 : (⟨S3x128, .f32⟩ : BufTy).Contents (Elt Ideal)) (x5 x6 x7 : (⟨S128, .f32⟩ : BufTy).Contents (Elt Ideal)) :
    (val_main_v119 (F := Ideal) x0 x1 x2 x3 x4 x5 x6 x7) = aAct (val_main_v32 (F := Ideal) x0) (val_main_v108 (F := Ideal) x0 x1 x2 x3 x4 x5 x6 x7) (val_main_v110 (F := Ideal) x3) (val_main_v114 (F := Ideal) x4) := by
  funext i
  simp only [val_main_v119_apply, val_main_v118_apply, val_main_v117_apply, val_main_v116_apply, val_main_v115_apply, l3_agg x0 x1 x2 x3 x4 x5 x6 x7,
    Ideal.addf_def, Ideal.hostUnary_tanh_def]
  rfl

theorem l3_mean (x0 : (⟨S8x2048x2, .f32⟩ : BufTy).Contents (Elt Ideal)) (x1 : (⟨S128x2, .f32⟩ : BufTy).Contents (Elt Ideal)) (x2 : (⟨S128, .f32⟩ : BufTy).Contents (Elt Ideal)) (x3 : (⟨S3x128x128, .f32⟩ : BufTy).Contents (Elt Ideal)) (x4 : (⟨S3x128, .f32⟩ : BufTy).Contents (Elt Ideal)) (x5 x6 x7 : (⟨S128, .f32⟩ : BufTy).Contents (Elt Ideal)) :
    (val_main_v123 (F := Ideal) x0 x1 x2 x3 x4 x5 x6 x7) = aMean (val_main_v32 (F := Ideal) x0) (val_main_v108 (F := Ideal) x0 x1 x2 x3 x4 x5 x6 x7) (val_main_v110 (F := Ideal) x3) (val_main_v114 (F := Ideal) x4) := by
  funext c
  simp only [val_main_v123_apply, val_main_v121_apply, val_main_v120_apply, val_main_cst_15_apply, val_main_v122_apply, val_main_cst_16_apply,
    l3_act x0 x1 x2 x3 x4 x5 x6 x7, Ideal.hostDivf_def, Ideal.ofBits_def]
  rfl

theorem l3_cen (x0 : (⟨S8x2048x2, .f32⟩ : BufTy).Contents (Elt Ideal)) (x1 : (⟨S128x2, .f32⟩ : BufTy).Contents (Elt Ideal)) (x2 : (⟨S128, .f32⟩ : BufTy).Contents (Elt Ideal)) (x3 : (⟨S3x128x128, .f32⟩ : BufTy).Contents (Elt Ideal)) (x4 : (⟨S3x128, .f32⟩ : BufTy).Contents (Elt Ideal)) (x5 x6 x7 : (⟨S128, .f32⟩ : BufTy).Contents (Elt Ideal)) :
    (val_main_v128 (F := Ideal) x0 x1 x2 x3 x4 x5 x6 x7) = aCen (val_main_v32 (F := Ideal) x0) (val_main_v108 (F := Ideal) x0 x1 x2 x3 x4 x5 x6 x7) (val_main_v110 (F := Ideal) x3) (val_main_v114 (F := Ideal) x4) x7 := by
  funext i
  simp only [val_main_v128_apply, val_main_v127_apply, val_main_v126_apply, val_main_v125_apply, val_main_v124_apply, l3_act x0 x1 x2 x3 x4 x5 x6 x7,
    l3_mean x0 x1 x2 x3 x4 x5 x6 x7, Ideal.subf_def, Ideal.mulf_def]
  rfl

theorem l3_var (x0 : (⟨S8x2048x2, .f32⟩ : BufTy).Contents (Elt Ideal)) (x1 : (⟨S128x2, .f32⟩ : BufTy).Contents (Elt Ideal)) (x2 : (⟨S128, .f32⟩ : BufTy).Contents (Elt Ideal)) (x3 : (⟨S3x128x128, .f32⟩ : BufTy).Contents (Elt Ideal)) (x4 : (⟨S3x128, .f32⟩ : BufTy).Contents (Elt Ideal)) (x5 x6 x7 : (⟨S128, .f32⟩ : BufTy).Contents (Elt Ideal)) :
    (val_main_v133 (F := Ideal) x0 x1 x2 x3 x4 x5 x6 x7) = aVar (val_main_v32 (F := Ideal) x0) (val_main_v108 (F := Ideal) x0 x1 x2 x3 x4 x5 x6 x7) (val_main_v110 (F := Ideal) x3) (val_main_v114 (F := Ideal) x4) x7 := by
  funext c
  simp only [val_main_v133_apply, val_main_v131_apply, val_main_v130_apply, val_main_cst_17_apply, val_main_v129_apply, val_main_v132_apply, val_main_cst_18_apply,
    l3_cen x0 x1 x2 x3 x4 x5 x6 x7, Ideal.hostDivf_def, Ideal.mulf_def, Ideal.ofBits_def]
  rfl

theorem l3_out (x0 : (⟨S8x2048x2, .f32⟩ : BufTy).Contents (Elt Ideal)) (x1 : (⟨S128x2, .f32⟩ : BufTy).Contents (Elt Ideal)) (x2 : (⟨S128, .f32⟩ : BufTy).Contents (Elt Ideal)) (x3 : (⟨S3x128x128, .f32⟩ : BufTy).Contents (Elt Ideal)) (x4 : (⟨S3x128, .f32⟩ : BufTy).Contents (Elt Ideal)) (x5 x6 x7 : (⟨S128, .f32⟩ : BufTy).Contents (Elt Ideal)) :
    (val_main_v144 (F := Ideal) x0 x1 x2 x3 x4 x5 x6 x7) = layerArr (val_main_v32 (F := Ideal) x0) (val_main_v108 (F := Ideal) x0 x1 x2 x3 x4 x5 x6 x7) (val_main_v110 (F := Ideal) x3) (val_main_v114 (F := Ideal) x4) x5 x6 x7 := by
  funext i
  simp only [val_main_v144_apply, val_main_v143_apply, val_main_v142_apply, val_main_v141_apply, val_main_v140_apply, val_main_v139_apply, val_main_v138_apply, val_main_v137_apply, val_main_cst_19_apply,
    val_main_v136_apply, val_main_v135_apply, val_main_v134_apply, l3_cen x0 x1 x2 x3 x4 x5 x6 x7, l3_var x0 x1 x2 x3 x4 x5 x6 x7,
    Ideal.addf_def, Ideal.mulf_def, Ideal.hostUnary_rsqrt_def, Ideal.ofBits_def]
  rfl

end Cert.Gnn.Ref

end
-- ==== Proof.RefLayer.lean ====
import proofs.«155582_j41644002902305_2_alg».proof.Proof.RefReadP
import proofs.«155582_j41644002902305_2_alg».proof.Proof.Spec
import proofs.«155582_j41644002902305_2_alg».proof.Proof.RefArr

noncomputable section

namespace Cert.Gnn.Ref

open Cert.ReferenceIdeal Cert.ReferenceIdeal.ReadP Idealize.ShloMosaic Idealize.ShloMosaic.ValueIdx
open scoped BigOperators

/-! ## The array-level layer is the layer of the network

When the adjacency array holds (dv_n · (D(n,m) + [n = m])) · dv_m of graph b at (b, n, m), the input array holds
H_b(n, e) at (b, n, e), and the weight and bias arrays hold Wm and bm, the array-level layer holds at (b, n, e) the dense
layer of the network for graph b. The sums carry an initial 0, which is dropped; everything else is reading the arrays
at the indices the operations use. -/

section generic
variable (D : Fin 8 → Fin 2048 → Fin 2048 → EReal) (dv : Fin 8 → Fin 2048 → EReal)
    (H : Fin 8 → Fin 2048 → Fin 128 → EReal) (Wm : Fin 128 → Fin 128 → EReal) (bm : Fin 128 → EReal)
    (An : S8x2048x2048.Idx → EReal) (h : S8x2048x128.Idx → EReal) (W : S128x128.Idx → EReal)
    (b g1 g2 g3 : S128.Idx → EReal)

theorem aLin_eq (hh : ∀ i, h i = H (hB i) (hN i) (hE i)) (hW : ∀ e k, W (ix2 e k) = Wm e k) (i : S8x2048x128.Idx) :
    aLin h W i = lin Wm (H (hB i)) (hN i) (hE i) := by
  unfold aLin lin
  refine Finset.sum_congr rfl fun k _ => ?_
  rw [hh, show ridx_main_v39 i k = ix2 (hE i) k from funext fun a => Fin.ext (by match a with | ⟨0, _⟩ => rfl | ⟨1, _⟩ => rfl), hW]

theorem aAgg_eq (hAn : ∀ i, An i = (dv (gB i) (gN i) * (D (gB i) (gN i) (gM i) + eye (gN i) (gM i))) * dv (gB i) (gM i)) (hh : ∀ i, h i = H (hB i) (hN i) (hE i)) (hW : ∀ e k, W (ix2 e k) = Wm e k) (i : S8x2048x128.Idx) :
    aAgg An h W i = aggR (D (hB i)) (dv (hB i)) (lin Wm (H (hB i))) (hN i) (hE i) := by
  unfold aAgg aggR
  refine Finset.sum_congr rfl fun k _ => ?_
  rw [hAn, aLin_eq H Wm h W hh hW]

theorem aAct_eq (hAn : ∀ i, An i = (dv (gB i) (gN i) * (D (gB i) (gN i) (gM i) + eye (gN i) (gM i))) * dv (gB i) (gM i)) (hh : ∀ i, h i = H (hB i) (hN i) (hE i)) (hW : ∀ e k, W (ix2 e k) = Wm e k) (hb : ∀ e, b (ix1 e) = bm e) (i : S8x2048x128.Idx) :
    aAct An h W b i = act bm (aggR (D (hB i)) (dv (hB i)) (lin Wm (H (hB i)))) (H (hB i)) (hN i) (hE i) := by
  unfold aAct act
  rw [aAgg_eq D dv H Wm An h W hAn hh hW, hh i,
    show idx_main_v43 (idx_main_v44 i) = ix1 (hE i) from funext fun a => Fin.ext (by match a with | ⟨0, _⟩ => rfl), hb]

theorem aMean_eq (hAn : ∀ i, An i = (dv (gB i) (gN i) * (D (gB i) (gN i) (gM i) + eye (gN i) (gM i))) * dv (gB i) (gM i)) (hh : ∀ i, h i = H (hB i) (hN i) (hE i)) (hW : ∀ e k, W (ix2 e k) = Wm e k) (hb : ∀ e, b (ix1 e) = bm e) (c : S8x1x128.Idx) :
    aMean An h W b c = colMean bm (aggR (D (cB c)) (dv (cB c)) (lin Wm (H (cB c)))) (H (cB c)) (cE c) := by
  unfold aMean colMean
  simp only [wZero, Ideal.ofBits_zero_f32, zero_add]
  refine congrArg (fun s => Ideal.div s wRows) (Finset.sum_congr rfl fun k _ => ?_)
  rw [aAct_eq D dv H Wm bm An h W b hAn hh hW hb]

theorem aCen_eq (hAn : ∀ i, An i = (dv (gB i) (gN i) * (D (gB i) (gN i) (gM i) + eye (gN i) (gM i))) * dv (gB i) (gM i)) (hh : ∀ i, h i = H (hB i) (hN i) (hE i)) (hW : ∀ e k, W (ix2 e k) = Wm e k) (hb : ∀ e, b (ix1 e) = bm e) (i : S8x2048x128.Idx) :
    aCen An h W b g3 i
      = centred bm (vec1 g3) (aggR (D (hB i)) (dv (hB i)) (lin Wm (H (hB i)))) (H (hB i)) (hN i) (hE i) := by
  unfold aCen centred
  rw [aAct_eq D dv H Wm bm An h W b hAn hh hW hb, aMean_eq D dv H Wm bm An h W b hAn hh hW hb,
    show idx_main_v52 (idx_main_v53 (idx_main_v55 i)) = ix1 (hE i) from funext fun a => Fin.ext (by match a with | ⟨0, _⟩ => rfl)]
  rfl

theorem aVar_eq (hAn : ∀ i, An i = (dv (gB i) (gN i) * (D (gB i) (gN i) (gM i) + eye (gN i) (gM i))) * dv (gB i) (gM i)) (hh : ∀ i, h i = H (hB i) (hN i) (hE i)) (hW : ∀ e k, W (ix2 e k) = Wm e k) (hb : ∀ e, b (ix1 e) = bm e) (c : S8x1x128.Idx) :
    aVar An h W b g3 c
      = colVar bm (vec1 g3) (aggR (D (cB c)) (dv (cB c)) (lin Wm (H (cB c)))) (H (cB c)) (cE c) := by
  unfold aVar colVar
  simp only [wZero, Ideal.ofBits_zero_f32, zero_add]
  refine congrArg (fun s => Ideal.div s wRows) (Finset.sum_congr rfl fun k _ => ?_)
  rw [aCen_eq D dv H Wm bm An h W b g3 hAn hh hW hb]

/-- The array-level layer at (b, n, e) is the dense layer of graph b at (n, e). -/
theorem layerArr_eq (hAn : ∀ i, An i = (dv (gB i) (gN i) * (D (gB i) (gN i) (gM i) + eye (gN i) (gM i))) * dv (gB i) (gM i)) (hh : ∀ i, h i = H (hB i) (hN i) (hE i)) (hW : ∀ e k, W (ix2 e k) = Wm e k) (hb : ∀ e, b (ix1 e) = bm e) (i : S8x2048x128.Idx) :
    layerArr An h W b g1 g2 g3 i
      = layerR (D (hB i)) (dv (hB i)) Wm bm (vec1 g1) (vec1 g2) (vec1 g3) (H (hB i)) (hN i) (hE i) := by
  unfold layerArr layerR post
  rw [aCen_eq D dv H Wm bm An h W b g3 hAn hh hW hb, aVar_eq D dv H Wm bm An h W b g3 hAn hh hW hb,
    show idx_main_v62 (idx_main_v63 i) = ix1 (hE i) from funext fun a => Fin.ext (by match a with | ⟨0, _⟩ => rfl),
    show idx_main_v70 (idx_main_v71 i) = ix1 (hE i) from funext fun a => Fin.ext (by match a with | ⟨0, _⟩ => rfl)]
  rfl

end generic

/-! ### The weight and bias slices -/

theorem w38_eq (x3 : (⟨S3x128x128, .f32⟩ : BufTy).Contents (Elt Ideal)) (e k : Fin 128) : val_main_v38 (F := Ideal) x3 (ix2 e k) = mat3 x3 0 e k := by
  rw [val_main_v38_apply, val_main_v37_apply]
  refine congrArg x3 (funext fun a => Fin.ext ?_)
  have he := e.isLt
  have hk := k.isLt
  match a with
  | ⟨0, _⟩ => rfl
  | ⟨1, _⟩ => show (e.val * 128 + k.val) / 128 % 128 = e.val; omega
  | ⟨2, _⟩ => show (e.val * 128 + k.val) % 128 = k.val; omega

theorem w74_eq (x3 : (⟨S3x128x128, .f32⟩ : BufTy).Contents (Elt Ideal)) (e k : Fin 128) : val_main_v74 (F := Ideal) x3 (ix2 e k) = mat3 x3 1 e k := by
  rw [val_main_v74_apply, val_main_v73_apply]
  refine congrArg x3 (funext fun a => Fin.ext ?_)
  have he := e.isLt
  have hk := k.isLt
  match a with
  | ⟨0, _⟩ => rfl
  | ⟨1, _⟩ => show (e.val * 128 + k.val) / 128 % 128 = e.val; omega
  | ⟨2, _⟩ => show (e.val * 128 + k.val) % 128 = k.val; omega

theorem w110_eq (x3 : (⟨S3x128x128, .f32⟩ : BufTy).Contents (Elt Ideal)) (e k : Fin 128) : val_main_v110 (F := Ideal) x3 (ix2 e k) = mat3 x3 2 e k := by
  rw [val_main_v110_apply, val_main_v109_apply]
  refine congrArg x3 (funext fun a => Fin.ext ?_)
  have he := e.isLt
  have hk := k.isLt
  match a with
  | ⟨0, _⟩ => rfl
  | ⟨1, _⟩ => show (e.val * 128 + k.val) / 128 % 128 = e.val; omega
  | ⟨2, _⟩ => show (e.val * 128 + k.val) % 128 = k.val; omega

theorem b42_eq (x4 : (⟨S3x128, .f32⟩ : BufTy).Contents (Elt Ideal)) (e : Fin 128) : val_main_v42 (F := Ideal) x4 (ix1 e) = rows3 x4 0 e := by
  rw [val_main_v42_apply, val_main_v41_apply]
  refine congrArg x4 (funext fun a => Fin.ext ?_)
  have he := e.isLt
  match a with
  | ⟨0, _⟩ => rfl
  | ⟨1, _⟩ => show e.val % 128 = e.val; omega

theorem b78_eq (x4 : (⟨S3x128, .f32⟩ : BufTy).Contents (Elt Ideal)) (e : Fin 128) : val_main_v78 (F := Ideal) x4 (ix1 e) = rows3 x4 1 e := by
  rw [val_main_v78_apply, val_main_v77_apply]
  refine congrArg x4 (funext fun a => Fin.ext ?_)
  have he := e.isLt
  match a with
  | ⟨0, _⟩ => rfl
  | ⟨1, _⟩ => show e.val % 128 = e.val; omega

theorem b114_eq (x4 : (⟨S3x128, .f32⟩ : BufTy).Contents (Elt Ideal)) (e : Fin 128) : val_main_v114 (F := Ideal) x4 (ix1 e) = rows3 x4 2 e := by
  rw [val_main_v114_apply, val_main_v113_apply]
  refine congrArg x4 (funext fun a => Fin.ext ?_)
  have he := e.isLt
  match a with
  | ⟨0, _⟩ => rfl
  | ⟨1, _⟩ => show e.val % 128 = e.val; omega

end Cert.Gnn.Ref

end
-- ==== Proof.RefRead.lean ====
import proofs.«155582_j41644002902305_2_alg».proof.Proof.RefReadP
import proofs.«155582_j41644002902305_2_alg».proof.Proof.Spec
import proofs.«155582_j41644002902305_2_alg».proof.Proof.RefArr
import proofs.«155582_j41644002902305_2_alg».proof.Proof.RefDist
import proofs.«155582_j41644002902305_2_alg».proof.Proof.RefLayerA
import proofs.«155582_j41644002902305_2_alg».proof.Proof.RefLayer

noncomputable section

namespace Cert.Gnn.Ref

open Cert.ReferenceIdeal Cert.ReferenceIdeal.ReadP Idealize.ShloMosaic Idealize.ShloMosaic.ValueIdx
open scoped BigOperators

/-! ## The reference's result is the dense arrangement

The stages chained: the normalised adjacency and the input projection are the network's; each layer is the array-level
layer on the previous one; the array-level layer on arrays that hold the network's functions holds the network's
dense layer. -/

section chain
variable (x0 : (⟨S8x2048x2, .f32⟩ : BufTy).Contents (Elt Ideal)) (x1 : (⟨S128x2, .f32⟩ : BufTy).Contents (Elt Ideal)) (x2 : (⟨S128, .f32⟩ : BufTy).Contents (Elt Ideal)) (x3 : (⟨S3x128x128, .f32⟩ : BufTy).Contents (Elt Ideal)) (x4 : (⟨S3x128, .f32⟩ : BufTy).Contents (Elt Ideal)) (x5 x6 x7 : (⟨S128, .f32⟩ : BufTy).Contents (Elt Ideal))

/-- Graph b's distances, inverse root degrees, and the features after the projection and each layer. -/
abbrev Dg (b : Fin 8) : Fin 2048 → Fin 2048 → EReal := dist (graphOf x0 b)
abbrev dvg (b : Fin 8) : Fin 2048 → EReal := dinvR (graphOf x0 b)
abbrev H0 (b : Fin 8) : Fin 2048 → Fin 128 → EReal := h0 (graphOf x0 b) (mat2 x1) (vec1 x2)
abbrev H1 (b : Fin 8) : Fin 2048 → Fin 128 → EReal :=
  layerR (Dg x0 b) (dvg x0 b) (mat3 x3 0) (rows3 x4 0) (vec1 x5) (vec1 x6) (vec1 x7) (H0 x0 x1 x2 b)
abbrev H2 (b : Fin 8) : Fin 2048 → Fin 128 → EReal :=
  layerR (Dg x0 b) (dvg x0 b) (mat3 x3 1) (rows3 x4 1) (vec1 x5) (vec1 x6) (vec1 x7) (H1 x0 x1 x2 x3 x4 x5 x6 x7 b)
abbrev H3 (b : Fin 8) : Fin 2048 → Fin 128 → EReal :=
  layerR (Dg x0 b) (dvg x0 b) (mat3 x3 2) (rows3 x4 2) (vec1 x5) (vec1 x6) (vec1 x7) (H2 x0 x1 x2 x3 x4 x5 x6 x7 b)

theorem v72_eq (i : S8x2048x128.Idx) :
    val_main_v72 (F := Ideal) x0 x1 x2 x3 x4 x5 x6 x7 i = H1 x0 x1 x2 x3 x4 x5 x6 x7 (hB i) (hN i) (hE i) := by
  rw [l1_out x0 x1 x2 x3 x4 x5 x6 x7]
  exact layerArr_eq (Dg x0) (dvg x0) (H0 x0 x1 x2) (mat3 x3 0) (rows3 x4 0) _ _ _ _ x5 x6 x7
    (v32_eq x0) (v36_eq x0 x1 x2) (w38_eq x3) (b42_eq x4) i

theorem v108_eq (i : S8x2048x128.Idx) :
    val_main_v108 (F := Ideal) x0 x1 x2 x3 x4 x5 x6 x7 i = H2 x0 x1 x2 x3 x4 x5 x6 x7 (hB i) (hN i) (hE i) := by
  rw [l2_out x0 x1 x2 x3 x4 x5 x6 x7]
  exact layerArr_eq (Dg x0) (dvg x0) (H1 x0 x1 x2 x3 x4 x5 x6 x7) (mat3 x3 1) (rows3 x4 1) _ _ _ _ x5 x6 x7
    (v32_eq x0) (v72_eq x0 x1 x2 x3 x4 x5 x6 x7) (w74_eq x3) (b78_eq x4) i

theorem v144_eq (i : S8x2048x128.Idx) :
    val_main_v144 (F := Ideal) x0 x1 x2 x3 x4 x5 x6 x7 i = H3 x0 x1 x2 x3 x4 x5 x6 x7 (hB i) (hN i) (hE i) := by
  rw [l3_out x0 x1 x2 x3 x4 x5 x6 x7]
  exact layerArr_eq (Dg x0) (dvg x0) (H2 x0 x1 x2 x3 x4 x5 x6 x7) (mat3 x3 2) (rows3 x4 2) _ _ _ _ x5 x6 x7
    (v32_eq x0) (v108_eq x0 x1 x2 x3 x4 x5 x6 x7) (w110_eq x3) (b114_eq x4) i

end chain

/-- The reference program's result is the dense arrangement of the network, array for array. -/
theorem val_eq_GR (x0 : (⟨S8x2048x2, .f32⟩ : BufTy).Contents (Elt Ideal)) (x1 : (⟨S128x2, .f32⟩ : BufTy).Contents (Elt Ideal)) (x2 : (⟨S128, .f32⟩ : BufTy).Contents (Elt Ideal)) (x3 : (⟨S3x128x128, .f32⟩ : BufTy).Contents (Elt Ideal)) (x4 : (⟨S3x128, .f32⟩ : BufTy).Contents (Elt Ideal)) (x5 x6 x7 : (⟨S128, .f32⟩ : BufTy).Contents (Elt Ideal)) :
    Cert.ReferenceIdeal.ReadP.val_main_v144 (F := Ideal) x0 x1 x2 x3 x4 x5 x6 x7 = Cert.Gnn.GR x0 x1 x2 x3 x4 x5 x6 x7 := by
  funext i
  rw [v144_eq x0 x1 x2 x3 x4 x5 x6 x7 i]
  rfl

end Cert.Gnn.Ref

end
-- ==== Proof.Claims.lean ====
/-
  The five claims, assembled.

  The kernel runs one graph per grid point and writes that graph's block of the result; block by block the result array is
  the specification's blocked network of the argument arrays (the body read at an index, then the blocks laid into the
  array). The reference's run ends with its result at the chain of its host operations, which read index by index is the
  dense network of the same arrays. Under the precondition every entry of every argument is a real number, and on real
  data the blocked and the dense arrangement are the same numbers: the distributive law, which is where finiteness is
  used. The frames are the generated frame certificates and the reference's run with its result dropped; the
  idealization rewrote nothing, so its conjunct is trivial.
-/
import proofs.«155582_j41644002902305_2_alg».proof.Defs
import proofs.«155582_j41644002902305_2_alg».proof.Proof.Gen.Kernel.Frame
import proofs.«155582_j41644002902305_2_alg».proof.Proof.Gen.KernelIdeal.Frame
import proofs.«155582_j41644002902305_2_alg».proof.Proof.Gen.ReferenceIdeal
import proofs.«155582_j41644002902305_2_alg».proof.Proof.Gen.Pre_finite_inputs
import proofs.«155582_j41644002902305_2_alg».proof.Proof.Spec
import proofs.«155582_j41644002902305_2_alg».proof.Proof.Algebra
import proofs.«155582_j41644002902305_2_alg».proof.Proof.Finite
import proofs.«155582_j41644002902305_2_alg».proof.Proof.KBlock
import proofs.«155582_j41644002902305_2_alg».proof.Proof.KArray
import proofs.«155582_j41644002902305_2_alg».proof.Proof.RefRunP
import proofs.«155582_j41644002902305_2_alg».proof.Proof.RefRead

noncomputable section

namespace Cert.Proof.GnnClaims

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result forgotten. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both idealized programs end at the blocked network of the kernel's arguments: the kernel block by block, the reference
    at the dense network of its own arguments, which agree with the kernel's and are real by the precondition. -/
theorem algebraic : Cert.algebraic_KernelIdeal_ReferenceIdeal := by
  intro m ρ m' ρ' hpre hagree
  refine ⟨_, Cert.Gnn.KArray.run_GK Cert.Gnn.KBlock.out_apply m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7⟩ := Cert.Gnn.Finite.allR_of_pre _ _ _ _ _ _ _ _ (hpre c)
  rw [Cert.Gnn.Ref.val_eq_GR, (hagree c).1, (hagree c).2.1, (hagree c).2.2.1, (hagree c).2.2.2.1, (hagree c).2.2.2.2.1,
    (hagree c).2.2.2.2.2.1, (hagree c).2.2.2.2.2.2.1, (hagree c).2.2.2.2.2.2.2]
  exact (Cert.Gnn.GK_eq_GR _ _ _ _ _ _ _ _ h0 h1 h2 h3 h4 h5 h6 h7).symm

end Cert.Proof.GnnClaims

end
-- ==== Proof.lean ====
/-
  The proof of the certificate's claim: the kernel — a graph network over a complete graph of 2048 points, one graph per grid
  point, with distance edge weights, symmetric degree normalisation, three layers of aggregation, tanh, residual and column
  normalisation — against its dense reference, at exact arithmetic over the extended reals, under the precondition that
  every input is finite.

  The modules: Spec (the network for one graph, in the kernel's blocked arrangement and in the reference's dense one);
  Algebra (on real data the two arrangements agree); Finite (the precondition makes every entry real); KDist, KHead,
  KLayer, KBlock (the kernel body read at an index is the blocked network of its blocks), KArray (block by block the result
  array is the blocked network of the argument arrays); RefRead (the reference's chain of host operations read at an index
  is the dense network); Claims (the five claims). The witnesses of the programs' stated facts come first.
-/
import proofs.«155582_j41644002902305_2_alg».proof.Defs
import proofs.«155582_j41644002902305_2_alg».proof.Proof.Gen.Kernel
import proofs.«155582_j41644002902305_2_alg».proof.Proof.Gen.Kernel.Skeleton
import proofs.«155582_j41644002902305_2_alg».proof.Proof.Gen.Kernel.Launch
import proofs.«155582_j41644002902305_2_alg».proof.Proof.Gen.Kernel.Points
import proofs.«155582_j41644002902305_2_alg».proof.Proof.Gen.Kernel.Frame
import proofs.«155582_j41644002902305_2_alg».proof.Proof.Gen.KernelIdeal
import proofs.«155582_j41644002902305_2_alg».proof.Proof.Gen.KernelIdeal.Skeleton
import proofs.«155582_j41644002902305_2_alg».proof.Proof.Gen.KernelIdeal.Launch
import proofs.«155582_j41644002902305_2_alg».proof.Proof.Gen.KernelIdeal.Points
import proofs.«155582_j41644002902305_2_alg».proof.Proof.Gen.KernelIdeal.Frame
import proofs.«155582_j41644002902305_2_alg».proof.Proof.Gen.ReferenceIdeal
import proofs.«155582_j41644002902305_2_alg».proof.Proof.Gen.Pre_finite_inputs
import proofs.«155582_j41644002902305_2_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    GnnClaims.frame_k, GnnClaims.frame_ki, GnnClaims.frame_ri, GnnClaims.preserves, GnnClaims.algebraic⟩

end Cert.Proof

end
